-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v306) = v1 c
          ∧ r.2.mem ((c.tc : Thread Cert.ReferenceIdeal.nD Cert.ReferenceIdeal.τ).loc Cert.ReferenceIdeal.main_v312) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S5x32768x128 : Shape := ⟨3, ![5, 32768, 128]⟩
abbrev S5x32768x256 : Shape := ⟨3, ![5, 32768, 256]⟩
abbrev S256x256 : Shape := ⟨2, ![256, 256]⟩
abbrev S256 : Shape := ⟨1, ![256]⟩
abbrev S5x128x256 : Shape := ⟨3, ![5, 128, 256]⟩
abbrev S5x256 : Shape := ⟨2, ![5, 256]⟩
abbrev S256x512 : Shape := ⟨2, ![256, 512]⟩
abbrev S512 : Shape := ⟨1, ![512]⟩
abbrev S5x256x512 : Shape := ⟨3, ![5, 256, 512]⟩
abbrev S5x512 : Shape := ⟨2, ![5, 512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S5x32768x128 : S_.BroadcastsInDim S5x32768x128 (![] : Fin 0 → Fin S5x32768x128.rank)
  reducesTo_S5x32768x128_S_d0_1_2 : S5x32768x128.ReducesTo [0, 1, 2] S_
  bcast_S_S5x32768x256 : S_.BroadcastsInDim S5x32768x256 (![] : Fin 0 → Fin S5x32768x256.rank)
  reducesTo_S5x32768x256_S_d0_1_2 : S5x32768x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S5x256x512 : S_.BroadcastsInDim S5x256x512 (![] : Fin 0 → Fin S5x256x512.rank)
  reducesTo_S5x256x512_S_d0_1_2 : S5x256x512.ReducesTo [0, 1, 2] S_
  bcast_S_S5x512 : S_.BroadcastsInDim S5x512 (![] : Fin 0 → Fin S5x512.rank)
  reducesTo_S5x512_S_d0_1 : S5x512.ReducesTo [0, 1] S_

variable [Facts]

def fn_part3 {F : FTy → Type} [FloatOps F] (main_arg11 : FVec F S5x128x256 .f32) (main_arg12 : FVec F S5x256 .f32) (main_v48 : IVec S_ 1) (main_v49 : FVec F S5x512 .f32) (main_v50 : FVec F S5x512 .f32) : IVec S_ 1 :=
  let main_v51 : IVec S5x512 1 := cmpf .olt main_v49 main_v50
  let main_c_19 : IVec S_ 1 := constantI S_ 1 1#1
  let main_v52 : IVec S_ 1 := (fun x v => Host.reduce IntOp.andi x v reducesTo_S5x512_S_d0_1 h_S_) main_v51 main_c_19
  let main_v53 : IVec S_ 1 := andi main_v48 main_v52
  let main_v54 : FVec F S5x128x256 .f32 := Host.absf main_arg11
  let main_cst_20 : FVec F S_ .f32 := constant S_ .f32 0x7F800000#32
  let main_v55 : FVec F S5x128x256 .f32 := broadcastInDim S5x128x256 ![] bcast_S_S5x128x256 main_cst_20
  let main_v56 : IVec S5x128x256 1 := cmpf .olt main_v54 main_v55
  let main_c_21 : IVec S_ 1 := constantI S_ 1 1#1
  let main_v57 : IVec S_ 1 := (fun x v => Host.reduce IntOp.andi x v reducesTo_S5x128x256_S_d0_1_2 h_S_) main_v56 main_c_21
  let main_v58 : IVec S_ 1 := andi main_v53 main_v57
  let main_v59 : FVec F S5x256 .f32 := Host.absf main_arg12
  let main_cst_22 : FVec F S_ .f32 := constant S_ .f32 0x7F800000#32
  let main_v60 : FVec F S5x256 .f32 := broadcastInDim S5x256 ![] bcast_S_S5x256 main_cst_22
  let main_v61 : IVec S5x256 1 := cmpf .olt main_v59 main_v60
  let main_c_23 : IVec S_ 1 := constantI S_ 1 1#1
  let main_v62 : IVec S_ 1 := (fun x v => Host.reduce IntOp.andi x v reducesTo_S5x256_S_d0_1 h_S_) main_v61 main_c_23
  let main_v63 : IVec S_ 1 := andi main_v58 main_v62
  main_v63

def fn_part2 {F : FTy → Type} [FloatOps F] (main_arg7 : FVec F S256x512 .f32) (main_arg8 : FVec F S512 .f32) (main_arg9 : FVec F S5x256x512 .f32) (main_arg10 : FVec F S5x512 .f32) (main_arg11 : FVec F S5x128x256 .f32) (main_arg12 : FVec F S5x256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S5x256x512 .f32 := Host.absf main_arg9
  let main_cst_16 : FVec F S_ .f32 := constant S_ .f32 0x7F800000#32
  let main_v45 : FVec F S5x256x512 .f32 := broadcastInDim S5x256x512 ![] bcast_S_S5x256x512 main_cst_16
  let main_v46 : IVec S5x256x512 1 := cmpf .olt main_v44 main_v45
  let main_c_17 : IVec S_ 1 := constantI S_ 1 1#1
  let main_v47 : IVec S_ 1 := (fun x v => Host.reduce IntOp.andi x v reducesTo_S5x256x512_S_d0_1_2 h_S_) main_v46 main_c_17
  let main_v48 : IVec S_ 1 := andi main_v43 main_v47
  let main_v49 : FVec F S5x512 .f32 := Host.absf main_arg10
  let main_cst_18 : FVec F S_ .f32 := constant S_ .f32 0x7F800000#32
  let main_v50 : FVec F S5x512 .f32 := broadcastInDim S5x512 ![] bcast_S_S5x512 main_cst_18
  fn_part3 (F := F) main_arg11 main_arg12 main_v48 main_v49 main_v50

def fn_part1 {F : FTy → Type} [FloatOps F] (main_arg4 : FVec F S256 .f32) (main_arg5 : FVec F S5x128x256 .f32) (main_arg6 : FVec F S5x256 .f32) (main_arg7 : FVec F S256x512 .f32) (main_arg8 : FVec F S512 .f32) (main_arg9 : FVec F S5x256x512 .f32) (main_arg10 : FVec F S5x512 .f32) (main_arg11 : FVec F S5x128x256 .f32) (main_arg12 : FVec F S5x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S5x128x256 .f32 := Host.absf main_arg5
  let main_cst_8 : FVec F S_ .f32 := constant S_ .f32 0x7F800000#32
  let main_v25 : FVec F S5x128x256 .f32 := broadcastInDim S5x128x256 ![] bcast_S_S5x128x256 main_cst_8
  let main_v26 : IVec S5x128x256 1 := cmpf .olt main_v24 main_v25
  let main_c_9 : IVec S_ 1 := constantI S_ 1 1#1
  let main_v27 : IVec S_ 1 := (fun x v => Host.reduce IntOp.andi x v reducesTo_S5x128x256_S_d0_1_2 h_S_) main_v26 main_c_9
  let main_v28 : IVec S_ 1 := andi main_v23 main_v27
  let main_v29 : FVec F S5x256 .f32 := Host.absf main_arg6
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x256 .f32) (main_arg1 : FVec F S5x32768x128 .f32) (main_arg2 : FVec F S5x32768x256 .f32) (main_arg3 : FVec F S256x256 .f32) (main_arg4 : FVec F S256 .f32) (main_arg5 : FVec F S5x128x256 .f32) (main_arg6 : FVec F S5x256 .f32) (main_arg7 : FVec F S256x512 .f32) (main_arg8 : FVec F S512 .f32) (main_arg9 : FVec F S5x256x512 .f32) (main_arg10 : FVec F S5x512 .f32) (main_arg11 : FVec F S5x128x256 .f32) (main_arg12 : FVec F S5x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S5x32768x128 .f32 := Host.absf main_arg1
  let main_cst_0 : FVec F S_ .f32 := constant S_ .f32 0x7F800000#32
  let main_v5 : FVec F S5x32768x128 .f32 := broadcastInDim S5x32768x128 ![] bcast_S_S5x32768x128 main_cst_0
  let main_v6 : IVec S5x32768x128 1 := cmpf .olt main_v4 main_v5
  let main_c_1 : IVec S_ 1 := constantI S_ 1 1#1
  let main_v7 : IVec S_ 1 := (fun x v => Host.reduce IntOp.andi x v reducesTo_S5x32768x128_S_d0_1_2 h_S_) main_v6 main_c_1
  let main_v8 : IVec S_ 1 := andi main_v3 main_v7
  let main_v9 : FVec F S5x32768x256 .f32 := Host.absf main_arg2
  let main_cst_2 : FVec F S_ .f32 := constant S_ .f32 0x7F800000#32
  let main_v10 : FVec F S5x32768x256 .f32 := broadcastInDim S5x32768x256 ![] bcast_S_S5x32768x256 main_cst_2
  let main_v11 : IVec S5x32768x256 1 := cmpf .olt main_v9 main_v10
  let main_c_3 : IVec S_ 1 := constantI S_ 1 1#1
  let main_v12 : IVec S_ 1 := (fun x v => Host.reduce IntOp.andi x v reducesTo_S5x32768x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S32768x256 : Shape := ⟨2, ![32768, 256]⟩
abbrev S5x32768x128 : Shape := ⟨3, ![5, 32768, 128]⟩
abbrev S5x32768x256 : Shape := ⟨3, ![5, 32768, 256]⟩
abbrev S256x256 : Shape := ⟨2, ![256, 256]⟩
abbrev S256 : Shape := ⟨1, ![256]⟩
abbrev S5x128x256 : Shape := ⟨3, ![5, 128, 256]⟩
abbrev S5x256 : Shape := ⟨2, ![5, 256]⟩
abbrev S256x512 : Shape := ⟨2, ![256, 512]⟩
abbrev S512 : Shape := ⟨1, ![512]⟩
abbrev S5x256x512 : Shape := ⟨3, ![5, 256, 512]⟩
abbrev S5x512 : Shape := ⟨2, ![5, 512]⟩
abbrev S1x256 : Shape := ⟨2, ![1, 256]⟩
abbrev S1x512 : Shape := ⟨2, ![1, 512]⟩
abbrev S1024x256 : Shape := ⟨2, ![1024, 256]⟩
abbrev S5x1024x128 : Shape := ⟨3, ![5, 1024, 128]⟩
abbrev S5x1024x256 : Shape := ⟨3, ![5, 1024, 256]⟩
abbrev S1024x512 : Shape := ⟨2, ![1024, 512]⟩
abbrev S1x1024x128 : Shape := ⟨3, ![1, 1024, 128]⟩
abbrev S1024x128 : Shape := ⟨2, ![1024, 128]⟩
abbrev S1x128x256 : Shape := ⟨3, ![1, 128, 256]⟩
abbrev S128x256 : Shape := ⟨2, ![128, 256]⟩
abbrev S1x1024x256 : Shape := ⟨3, ![1, 1024, 256]⟩
abbrev S1x256x512 : Shape := ⟨3, ![1, 256, 512]⟩

abbrev nBuf : Space → Nat
  | .hbm => 23
  | .vmem => 22
  | .smem => 0
  | _ => 0

abbrev bufTy : (tb : Table) → Fin (tcTables nBuf tb) → BufTy
  | .hbm, ⟨0, _⟩ => ⟨S32768x256, .f32⟩
  | .hbm, ⟨1, _⟩ => ⟨S5x32768x128, .f32⟩
  | .hbm, ⟨2, _⟩ => ⟨S5x32768x256, .f32⟩
  | .hbm, ⟨3, _⟩ => ⟨S256x256, .f32⟩
  | .hbm, ⟨4, _⟩ => ⟨S256, .f32⟩
  | .hbm, ⟨5, _⟩ => ⟨S5x128x256, .f32⟩
  | .hbm, ⟨6, _⟩ => ⟨S5x256, .f32⟩
  | .hbm, ⟨7, _⟩ => ⟨S256x512, .f32⟩
  | .hbm, ⟨8, _⟩ => ⟨S512, .f32⟩
  | .hbm, ⟨9, _⟩ => ⟨S5x256x512, .f32⟩
  | .hbm, ⟨10, _⟩ => ⟨S5x512, .f32⟩
  | .hbm, ⟨11, _⟩ => ⟨S5x128x256, .f32⟩
  | .hbm, ⟨12, _⟩ => ⟨S5x256, .f32⟩
  | .hbm, ⟨13, _⟩ => ⟨S1x256, .f32⟩
  | .hbm, ⟨14, _⟩ => ⟨S1x512, .f32⟩
  | .hbm, ⟨15, _⟩ => ⟨S256x256, .bf16⟩
  | .hbm, ⟨16, _⟩ => ⟨S5x128x256, .bf16⟩
  | .hbm, ⟨17, _⟩ => ⟨S256x512, .bf16⟩
  | .hbm, ⟨18, _⟩ => ⟨S5x256x512, .bf16⟩
  | .hbm, ⟨19, _⟩ => ⟨S5x128x256, .bf16⟩
  | .hbm, ⟨20, _⟩ => ⟨S32768x256, .f32⟩
  | .hbm, ⟨21, _⟩ => ⟨S5x32768x128, .f32⟩
  | .hbm, ⟨22, _⟩ => ⟨S5x32768x256, .f32⟩
  | .local _ .vmem, ⟨0, _⟩ => ⟨S1024x256, .f32⟩
  | .local _ .vmem, ⟨1, _⟩ => ⟨S1024x256, .f32⟩
  | .local _ .vmem, ⟨2, _⟩ => ⟨S5x1024x128, .f32⟩
  | .local _ .vmem, ⟨3, _⟩ => ⟨S5x1024x128, .f32⟩
  | .local _ .vmem, ⟨4, _⟩ => ⟨S5x1024x256, .f32⟩
  | .local _ .vmem, ⟨5, _⟩ => ⟨S5x1024x256, .f32⟩
  | .local _ .vmem, ⟨6, _⟩ => ⟨S256x256, .bf16⟩
  | .local _ .vmem, ⟨7, _⟩ => ⟨S1x256, .f32⟩
  | .local _ .vmem, ⟨8, _⟩ => ⟨S5x128x256, .bf16⟩
  | .local _ .vmem, ⟨9, _⟩ => ⟨S5x256, .f32⟩
  | .local _ .vmem, ⟨10, _⟩ => ⟨S256x512, .bf16⟩
  | .local _ .vmem, ⟨11, _⟩ => ⟨S1x512, .f32⟩
  | .local _ .vmem, ⟨12, _⟩ => ⟨S5x256x512, .bf16⟩
  | .local _ .vmem, ⟨13, _⟩ => ⟨S5x512, .f32⟩
  | .local _ .vmem, ⟨14, _⟩ => ⟨S5x128x256, .bf16⟩
  | .local _ .vmem, ⟨15, _⟩ => ⟨S5x256, .f32⟩
  | .local _ .vmem, ⟨16, _⟩ => ⟨S1024x256, .f32⟩
  | .local _ .vmem, ⟨17, _⟩ => ⟨S1024x256, .f32⟩
  | .local _ .vmem, ⟨18, _⟩ => ⟨S5x1024x128, .f32⟩
  | .local _ .vmem, ⟨19, _⟩ => ⟨S5x1024x128, .f32⟩
  | .local _ .vmem, ⟨20, _⟩ => ⟨S5x1024x256, .f32⟩
  | .local _ .vmem, ⟨21, _⟩ => ⟨S5x1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S5x1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S256_S1x256 : S256.ShapeCasts S1x256
  shapeCasts_S512_S1x512 : S512.ShapeCasts S1x512
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S5x1024x128_S1x1024x128_0_0_0 : ∀ a, (![0, 0, 0] : Fin 3 → Nat) a + S1x1024x128.size a ≤ S5x1024x128.size a
  h_S1x1024x128 : 0 < S1x1024x128.numel
  shapeCasts_S1x1024x128_S1024x128 : S1x1024x128.ShapeCasts S1024x128
  inb_S5x128x256_S1x128x256_0_0_0 : ∀ a, (![0, 0, 0] : Fin 3 → Nat) a + S1x128x256.size a ≤ S5x128x256.size a
  h_S1x128x256 : 0 < S1x128x256.numel
  shapeCasts_S1x128x256_S128x256 : S1x128x256.ShapeCasts S128x256
  inb_S5x256_S1x256_0_0 : ∀ a, (![0, 0] : Fin 2 → Nat) a + S1x256.size a ≤ S5x256.size a
  shapeCasts_S1x256_S256 : S1x256.ShapeCasts S256
  slices_S1024x256_o0_0_S1024x128 : S1024x256.Slices ![0, 0] S1024x128
  slices_S1024x256_o0_128_S1024x128 : S1024x256.Slices ![0, 128] S1024x128
  shapeCasts_S1024x128_S1x1024x128 : S1024x128.ShapeCasts S1x1024x128
  inb_S5x1024x256_S1x1024x256_0_0_0 : ∀ a, (![0, 0, 0] : Fin 3 → Nat) a + S1x1024x256.size a ≤ S5x1024x256.size a
  h_S1x1024x256 : 0 < S1x1024x256.numel
  shapeCasts_S1x1024x256_S1024x256 : S1x1024x256.ShapeCasts S1024x256
  inb_S5x256x512_S1x256x512_0_0_0 : ∀ a, (![0, 0, 0] : Fin 3 → Nat) a + S1x256x512.size a ≤ S5x256x512.size a
  h_S1x256x512 : 0 < S1x256x512.numel
  shapeCasts_S1x256x512_S256x512 : S1x256x512.ShapeCasts S256x512
  inb_S5x512_S1x512_0_0 : ∀ a, (![0, 0] : Fin 2 → Nat) a + S1x512.size a ≤ S5x512.size a
  shapeCasts_S1x512_S512 : S1x512.ShapeCasts S512
  slices_S1024x512_o0_0_S1024x256 : S1024x512.Slices ![0, 0] S1024x256
  slices_S1024x512_o0_256_S1024x256 : S1024x512.Slices ![0, 256] S1024x256
  shapeCasts_S1024x256_S1x1024x256 : S1024x256.ShapeCasts S1x1024x256
  inb_S5x1024x128_S1x1024x128_1_0_0 : ∀ a, (![1, 0, 0] : Fin 3 → Nat) a + S1x1024x128.size a ≤ S5x1024x128.size a
  inb_S5x128x256_S1x128x256_1_0_0 : ∀ a, (![1, 0, 0] : Fin 3 → Nat) a + S1x128x256.size a ≤ S5x128x256.size a
  inb_S5x256_S1x256_1_0 : ∀ a, (![1, 0] : Fin 2 → Nat) a + S1x256.size a ≤ S5x256.size a
  inb_S5x1024x256_S1x1024x256_1_0_0 : ∀ a, (![1, 0, 0] : Fin 3 → Nat) a + S1x1024x256.size a ≤ S5x1024x256.size a
  inb_S5x256x512_S1x256x512_1_0_0 : ∀ a, (![1, 0, 0] : Fin 3 → Nat) a + S1x256x512.size a ≤ S5x256x512.size a
  inb_S5x512_S1x512_1_0 : ∀ a, (![1, 0] : Fin 2 → Nat) a + S1x512.size a ≤ S5x512.size a
  inb_S5x1024x128_S1x1024x128_2_0_0 : ∀ a, (![2, 0, 0] : Fin 3 → Nat) a + S1x1024x128.size a ≤ S5x1024x128.size a
  inb_S5x128x256_S1x128x256_2_0_0 : ∀ a, (![2, 0, 0] : Fin 3 → Nat) a + S1x128x256.size a ≤ S5x128x256.size a
  inb_S5x256_S1x256_2_0 : ∀ a, (![2, 0] : Fin 2 → Nat) a + S1x256.size a ≤ S5x256.size a
  inb_S5x1024x256_S1x1024x256_2_0_0 : ∀ a, (![2, 0, 0] : Fin 3 → Nat) a + S1x1024x256.size a ≤ S5x1024x256.size a
  inb_S5x256x512_S1x256x512_2_0_0 : ∀ a, (![2, 0, 0] : Fin 3 → Nat) a + S1x256x512.size a ≤ S5x256x512.size a
  inb_S5x512_S1x512_2_0 : ∀ a, (![2, 0] : Fin 2 → Nat) a + S1x512.size a ≤ S5x512.size a
  inb_S5x1024x128_S1x1024x128_3_0_0 : ∀ a, (![3, 0, 0] : Fin 3 → Nat) a + S1x1024x128.size a ≤ S5x1024x128.size a
  inb_S5x128x256_S1x128x256_3_0_0 : ∀ a, (![3, 0, 0] : Fin 3 → Nat) a + S1x128x256.size a ≤ S5x128x256.size a
  inb_S5x256_S1x256_3_0 : ∀ a, (![3, 0] : Fin 2 → Nat) a + S1x256.size a ≤ S5x256.size a
  inb_S5x1024x256_S1x1024x256_3_0_0 : ∀ a, (![3, 0, 0] : Fin 3 → Nat) a + S1x1024x256.size a ≤ S5x1024x256.size a
  inb_S5x256x512_S1x256x512_3_0_0 : ∀ a, (![3, 0, 0] : Fin 3 → Nat) a + S1x256x512.size a ≤ S5x256x512.size a
  inb_S5x512_S1x512_3_0 : ∀ a, (![3, 0] : Fin 2 → Nat) a + S1x512.size a ≤ S5x512.size a
  inb_S5x1024x128_S1x1024x128_4_0_0 : ∀ a, (![4, 0, 0] : Fin 3 → Nat) a + S1x1024x128.size a ≤ S5x1024x128.size a
  inb_S5x128x256_S1x128x256_4_0_0 : ∀ a, (![4, 0, 0] : Fin 3 → Nat) a + S1x128x256.size a ≤ S5x128x256.size a
  inb_S5x256_S1x256_4_0 : ∀ a, (![4, 0] : Fin 2 → Nat) a + S1x256.size a ≤ S5x256.size a
  inb_S5x1024x256_S1x1024x256_4_0_0 : ∀ a, (![4, 0, 0] : Fin 3 → Nat) a + S1x1024x256.size a ≤ S5x1024x256.size a
  inb_S5x256x512_S1x256x512_4_0_0 : ∀ a, (![4, 0, 0] : Fin 3 → Nat) a + S1x256x512.size a ≤ S5x256x512.size a
  inb_S5x512_S1x512_4_0 : ∀ a, (![4, 0] : Fin 2 → Nat) a + S1x512.size a ≤ S5x512.size a
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x1024x128.size a ≤ S5x32768x128.size a
  hwx0_1 : ∀ i : grid0.Coords, EltTy.bits .f32 = 32 ∨ (Rect.block (s := S5x32768x128) S5x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x1024x256.size a ≤ S5x32768x256.size a
  hwx0_2 : ∀ i : grid0.Coords, EltTy.bits .f32 = 32 ∨ (Rect.block (s := S5x32768x256) S5x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x256.size a ≤ S5x128x256.size a
  hwx0_5 : ∀ i : grid0.Coords, EltTy.bits .bf16 = 32 ∨ (Rect.block (s := S5x128x256) S5x128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x256.size a ≤ S5x256.size a
  hwx0_6 : ∀ i : grid0.Coords, EltTy.bits .f32 = 32 ∨ (Rect.block (s := S5x256) S5x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x256x512.size a ≤ S5x256x512.size a
  hwx0_9 : ∀ i : grid0.Coords, EltTy.bits .bf16 = 32 ∨ (Rect.block (s := S5x256x512) S5x256x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x512.size a ≤ S5x512.size a
  hwx0_10 : ∀ i : grid0.Coords, EltTy.bits .f32 = 32 ∨ (Rect.block (s := S5x512) S5x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x128x256.size a ≤ S5x128x256.size a
  hwx0_11 : ∀ i : grid0.Coords, EltTy.bits .bf16 = 32 ∨ (Rect.block (s := S5x128x256) S5x128x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S5x256.size a ≤ S5x256.size a
  hwx0_12 : ∀ i : grid0.Coords, EltTy.bits .f32 = 32 ∨ (Rect.block (s := S5x256) S5x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S32768x256.size a
  hwx0_13 : ∀ i : grid0.Coords, EltTy.bits .f32 = 32 ∨ (Rect.block (s := S32768x256) S1024x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5x1024x128.size a ≤ S5x32768x128.size a
  hwx0_14 : ∀ i : grid0.Coords, EltTy.bits .f32 = 32 ∨ (Rect.block (s := S5x32768x128) S5x1024x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5x1024x256.size a ≤ S5x32768x256.size a
  hwx0_15 : ∀ i : grid0.Coords, EltTy.bits .f32 = 32 ∨ (Rect.block (s := S5x32768x256) S5x1024x256.size (cc0_transform_15 i) (hinb0_15 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5x128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S5x256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S5x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S5x128x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S5x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7_0) S1024x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v7_1) S5x1024x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v7_2) S5x1024x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32768x256 : Shape := ⟨2, ![32768, 256]⟩
abbrev S5x32768x128 : Shape := ⟨3, ![5, 32768, 128]⟩
abbrev S5x32768x256 : Shape := ⟨3, ![5, 32768, 256]⟩
abbrev S256x256 : Shape := ⟨2, ![256, 256]⟩
abbrev S256 : Shape := ⟨1, ![256]⟩
abbrev S5x128x256 : Shape := ⟨3, ![5, 128, 256]⟩
abbrev S5x256 : Shape := ⟨2, ![5, 256]⟩
abbrev S256x512 : Shape := ⟨2, ![256, 512]⟩
abbrev S512 : Shape := ⟨1, ![512]⟩
abbrev S5x256x512 : Shape := ⟨3, ![5, 256, 512]⟩
abbrev S5x512 : Shape := ⟨2, ![5, 512]⟩
abbrev S1x32768x128 : Shape := ⟨3, ![1, 32768, 128]⟩
abbrev S32768x128 : Shape := ⟨2, ![32768, 128]⟩
abbrev S1x128x256 : Shape := ⟨3, ![1, 128, 256]⟩
abbrev S128x256 : Shape := ⟨2, ![128, 256]⟩
abbrev S1x256 : Shape := ⟨2, ![1, 256]⟩
abbrev S_ : Shape := ⟨0, ![]⟩
abbrev S1x32768x256 : Shape := ⟨3, ![1, 32768, 256]⟩
abbrev S32768x512 : Shape := ⟨2, ![32768, 512]⟩
abbrev S1x256x512 : Shape := ⟨3, ![1, 256, 512]⟩
abbrev S1x512 : Shape := ⟨2, ![1, 512]⟩

abbrev nBuf : Space → Nat
  | .hbm => 356
  | .vmem => 0
  | .smem => 0
  | _ => 0

abbrev hbmTy0_0 (i : Nat) : BufTy := match i % 128 with
  | 0 => ⟨S32768x256, .f32⟩
  | 1 => ⟨S5x32768x128, .f32⟩
  | 2 => ⟨S5x32768x256, .f32⟩
  | 3 => ⟨S256x256, .f32⟩
  | 4 => ⟨S256, .f32⟩
  | 5 => ⟨S5x128x256, .f32⟩
  | 6 => ⟨S5x256, .f32⟩
  | 7 => ⟨S256x512, .f32⟩
  | 8 => ⟨S512, .f32⟩
  | 9 => ⟨S5x256x512, .f32⟩
  | 10 => ⟨S5x512, .f32⟩
  | 11 => ⟨S5x128x256, .f32⟩
  | 12 => ⟨S5x256, .f32⟩
  | 13 => ⟨S1x32768x128, .f32⟩
  | 14 => ⟨S32768x128, .f32⟩
  | 15 => ⟨S1x128x256, .f32⟩
  | 16 => ⟨S128x256, .f32⟩
  | 17 => ⟨S32768x256, .f32⟩
  | 18 => ⟨S1x256, .f32⟩
  | 19 => ⟨S256, .f32⟩
  | 20 => ⟨S1x256, .f32⟩
  | 21 => ⟨S32768x256, .f32⟩
  | 22 => ⟨S32768x256, .f32⟩
  | 23 => ⟨S32768x256, .f32⟩
  | 24 => ⟨S1x256, .f32⟩
  | 25 => ⟨S32768x256, .f32⟩
  | 26 => ⟨S32768x256, .f32⟩
  | 27 => ⟨S32768x256, .f32⟩
  | 28 => ⟨S32768x128, .f32⟩
  | 29 => ⟨S32768x128, .f32⟩
  | 30 => ⟨S32768x128, .f32⟩
  | 31 => ⟨S32768x128, .f32⟩
  | 32 => ⟨S32768x128, .f32⟩
  | 33 => ⟨S_, .f32⟩
  | 34 => ⟨S32768x128, .f32⟩
  | 35 => ⟨S32768x128, .f32⟩
  | 36 => ⟨S_, .f32⟩
  | 37 => ⟨S32768x128, .f32⟩
  | 38 => ⟨S32768x128, .f32⟩
  | 39 => ⟨S32768x128, .f32⟩
  | 40 => ⟨S_, .f32⟩
  | 41 => ⟨S32768x128, .f32⟩
  | 42 => ⟨S32768x128, .f32⟩
  | 43 => ⟨S32768x128, .f32⟩
  | 44 => ⟨S32768x128, .f32⟩
  | 45 => ⟨S1x32768x128, .f32⟩
  | 46 => ⟨S32768x128, .f32⟩
  | 47 => ⟨S1x128x256, .f32⟩
  | 48 => ⟨S128x256, .f32⟩
  | 49 => ⟨S32768x256, .f32⟩
  | 50 => ⟨S1x256, .f32⟩
  | 51 => ⟨S256, .f32⟩
  | 52 => ⟨S1x256, .f32⟩
  | 53 => ⟨S32768x256, .f32⟩
  | 54 => ⟨S32768x256, .f32⟩
  | 55 => ⟨S32768x128, .f32⟩
  | 56 => ⟨S32768x128, .f32⟩
  | 57 => ⟨S32768x128, .f32⟩
  | 58 => ⟨S32768x128, .f32⟩
  | 59 => ⟨S32768x128, .f32⟩
  | 60 => ⟨S_, .f32⟩
  | 61 => ⟨S32768x128, .f32⟩
  | 62 => ⟨S32768x128, .f32⟩
  | 63 => ⟨S_, .f32⟩
  | 64 => ⟨S32768x128, .f32⟩
  | 65 => ⟨S32768x128, .f32⟩
  | 66 => ⟨S32768x128, .f32⟩
  | 67 => ⟨S_, .f32⟩
  | 68 => ⟨S32768x128, .f32⟩
  | 69 => ⟨S32768x128, .f32⟩
  | 70 => ⟨S32768x128, .f32⟩
  | 71 => ⟨S32768x128, .f32⟩
  | 72 => ⟨S1x32768x128, .f32⟩
  | 73 => ⟨S32768x128, .f32⟩
  | 74 => ⟨S1x128x256, .f32⟩
  | 75 => ⟨S128x256, .f32⟩
  | 76 => ⟨S32768x256, .f32⟩
  | 77 => ⟨S1x256, .f32⟩
  | 78 => ⟨S256, .f32⟩
  | 79 => ⟨S1x256, .f32⟩
  | 80 => ⟨S32768x256, .f32⟩
  | 81 => ⟨S32768x256, .f32⟩
  | 82 => ⟨S32768x128, .f32⟩
  | 83 => ⟨S32768x128, .f32⟩
  | 84 => ⟨S32768x128, .f32⟩
  | 85 => ⟨S32768x128, .f32⟩
  | 86 => ⟨S32768x128, .f32⟩
  | 87 => ⟨S_, .f32⟩
  | 88 => ⟨S32768x128, .f32⟩
  | 89 => ⟨S32768x128, .f32⟩
  | 90 => ⟨S_, .f32⟩
  | 91 => ⟨S32768x128, .f32⟩
  | 92 => ⟨S32768x128, .f32⟩
  | 93 => ⟨S32768x128, .f32⟩
  | 94 => ⟨S_, .f32⟩
  | 95 => ⟨S32768x128, .f32⟩
  | 96 => ⟨S32768x128, .f32⟩
  | 97 => ⟨S32768x128, .f32⟩
  | 98 => ⟨S32768x128, .f32⟩
  | 99 => ⟨S1x32768x128, .f32⟩
  | 100 => ⟨S32768x128, .f32⟩
  | 101 => ⟨S1x128x256, .f32⟩
  | 102 => ⟨S128x256, .f32⟩
  | 103 => ⟨S32768x256, .f32⟩
  | 104 => ⟨S1x256, .f32⟩
  | 105 => ⟨S256, .f32⟩
  | 106 => ⟨S1x256, .f32⟩
  | 107 => ⟨S32768x256, .f32⟩
  | 108 => ⟨S32768x256, .f32⟩
  | 109 => ⟨S32768x128, .f32⟩
  | 110 => ⟨S32768x128, .f32⟩
  | 111 => ⟨S32768x128, .f32⟩
  | 112 => ⟨S32768x128, .f32⟩
  | 113 => ⟨S32768x128, .f32⟩
  | 114 => ⟨S_, .f32⟩
  | 115 => ⟨S32768x128, .f32⟩
  | 116 => ⟨S32768x128, .f32⟩
  | 117 => ⟨S_, .f32⟩
  | 118 => ⟨S32768x128, .f32⟩
  | 119 => ⟨S32768x128, .f32⟩
  | 120 => ⟨S32768x128, .f32⟩
  | 121 => ⟨S_, .f32⟩
  | 122 => ⟨S32768x128, .f32⟩
  | 123 => ⟨S32768x128, .f32⟩
  | 124 => ⟨S32768x128, .f32⟩
  | 125 => ⟨S32768x128, .f32⟩
  | 126 => ⟨S1x32768x128, .f32⟩
  | 127 => ⟨S32768x128, .f32⟩
  | _ => ⟨S32768x256, .f32⟩

abbrev hbmTy0_1 (i : Nat) : BufTy := match i % 128 with
  | 0 => ⟨S1x128x256, .f32⟩
  | 1 => ⟨S128x256, .f32⟩
  | 2 => ⟨S32768x256, .f32⟩
  | 3 => ⟨S1x256, .f32⟩
  | 4 => ⟨S256, .f32⟩
  | 5 => ⟨S1x256, .f32⟩
  | 6 => ⟨S32768x256, .f32⟩
  | 7 => ⟨S32768x256, .f32⟩
  | 8 => ⟨S32768x128, .f32⟩
  | 9 => ⟨S32768x128, .f32⟩
  | 10 => ⟨S32768x128, .f32⟩
  | 11 => ⟨S32768x128, .f32⟩
  | 12 => ⟨S32768x128, .f32⟩
  | 13 => ⟨S_, .f32⟩
  | 14 => ⟨S32768x128, .f32⟩
  | 15 => ⟨S32768x128, .f32⟩
  | 16 => ⟨S_, .f32⟩
  | 17 => ⟨S32768x128, .f32⟩
  | 18 => ⟨S32768x128, .f32⟩
  | 19 => ⟨S32768x128, .f32⟩
  | 20 => ⟨S_, .f32⟩
  | 21 => ⟨S32768x128, .f32⟩
  | 22 => ⟨S32768x128, .f32⟩
  | 23 => ⟨S32768x128, .f32⟩
  | 24 => ⟨S32768x128, .f32⟩
  | 25 => ⟨S1x128x256, .f32⟩
  | 26 => ⟨S128x256, .f32⟩
  | 27 => ⟨S32768x256, .f32⟩
  | 28 => ⟨S1x256, .f32⟩
  | 29 => ⟨S256, .f32⟩
  | 30 => ⟨S1x256, .f32⟩
  | 31 => ⟨S32768x256, .f32⟩
  | 32 => ⟨S32768x256, .f32⟩
  | 33 => ⟨S1x128x256, .f32⟩
  | 34 => ⟨S128x256, .f32⟩
  | 35 => ⟨S32768x256, .f32⟩
  | 36 => ⟨S1x256, .f32⟩
  | 37 => ⟨S256, .f32⟩
  | 38 => ⟨S1x256, .f32⟩
  | 39 => ⟨S32768x256, .f32⟩
  | 40 => ⟨S32768x256, .f32⟩
  | 41 => ⟨S1x128x256, .f32⟩
  | 42 => ⟨S128x256, .f32⟩
  | 43 => ⟨S32768x256, .f32⟩
  | 44 => ⟨S1x256, .f32⟩
  | 45 => ⟨S256, .f32⟩
  | 46 => ⟨S1x256, .f32⟩
  | 47 => ⟨S32768x256, .f32⟩
  | 48 => ⟨S32768x256, .f32⟩
  | 49 => ⟨S1x128x256, .f32⟩
  | 50 => ⟨S128x256, .f32⟩
  | 51 => ⟨S32768x256, .f32⟩
  | 52 => ⟨S1x256, .f32⟩
  | 53 => ⟨S256, .f32⟩
  | 54 => ⟨S1x256, .f32⟩
  | 55 => ⟨S32768x256, .f32⟩
  | 56 => ⟨S32768x256, .f32⟩
  | 57 => ⟨S1x128x256, .f32⟩
  | 58 => ⟨S128x256, .f32⟩
  | 59 => ⟨S32768x256, .f32⟩
  | 60 => ⟨S1x256, .f32⟩
  | 61 => ⟨S256, .f32⟩
  | 62 => ⟨S1x256, .f32⟩
  | 63 => ⟨S32768x256, .f32⟩
  | 64 => ⟨S32768x256, .f32⟩
  | 65 => ⟨S1x32768x256, .f32⟩
  | 66 => ⟨S32768x256, .f32⟩
  | 67 => ⟨S32768x512, .f32⟩
  | 68 => ⟨S1x256x512, .f32⟩
  | 69 => ⟨S256x512, .f32⟩
  | 70 => ⟨S32768x512, .f32⟩
  | 71 => ⟨S1x512, .f32⟩
  | 72 => ⟨S512, .f32⟩
  | 73 => ⟨S1x512, .f32⟩
  | 74 => ⟨S32768x512, .f32⟩
  | 75 => ⟨S32768x512, .f32⟩
  | 76 => ⟨S32768x512, .f32⟩
  | 77 => ⟨S32768x512, .f32⟩
  | 78 => ⟨S1x512, .f32⟩
  | 79 => ⟨S32768x512, .f32⟩
  | 80 => ⟨S32768x512, .f32⟩
  | 81 => ⟨S32768x512, .f32⟩
  | 82 => ⟨S32768x512, .f32⟩
  | 83 => ⟨S32768x256, .f32⟩
  | 84 => ⟨S32768x256, .f32⟩
  | 85 => ⟨S32768x256, .f32⟩
  | 86 => ⟨S32768x256, .f32⟩
  | 87 => ⟨S32768x256, .f32⟩
  | 88 => ⟨S_, .f32⟩
  | 89 => ⟨S32768x256, .f32⟩
  | 90 => ⟨S32768x256, .f32⟩
  | 91 => ⟨S_, .f32⟩
  | 92 => ⟨S32768x256, .f32⟩
  | 93 => ⟨S32768x256, .f32⟩
  | 94 => ⟨S32768x256, .f32⟩
  | 95 => ⟨S_, .f32⟩
  | 96 => ⟨S32768x256, .f32⟩
  | 97 => ⟨S32768x256, .f32⟩
  | 98 => ⟨S32768x256, .f32⟩
  | 99 => ⟨S32768x256, .f32⟩
  | 100 => ⟨S1x32768x256, .f32⟩
  | 101 => ⟨S32768x256, .f32⟩
  | 102 => ⟨S32768x512, .f32⟩
  | 103 => ⟨S1x256x512, .f32⟩
  | 104 => ⟨S256x512, .f32⟩
  | 105 => ⟨S32768x512, .f32⟩
  | 106 => ⟨S1x512, .f32⟩
  | 107 => ⟨S512, .f32⟩
  | 108 => ⟨S1x512, .f32⟩
  | 109 => ⟨S32768x512, .f32⟩
  | 110 => ⟨S32768x512, .f32⟩
  | 111 => ⟨S32768x512, .f32⟩
  | 112 => ⟨S32768x256, .f32⟩
  | 113 => ⟨S32768x256, .f32⟩
  | 114 => ⟨S32768x256, .f32⟩
  | 115 => ⟨S32768x256, .f32⟩
  | 116 => ⟨S32768x256, .f32⟩
  | 117 => ⟨S_, .f32⟩
  | 118 => ⟨S32768x256, .f32⟩
  | 119 => ⟨S32768x256, .f32⟩
  | 120 => ⟨S_, .f32⟩
  | 121 => ⟨S32768x256, .f32⟩
  | 122 => ⟨S32768x256, .f32⟩
  | 123 => ⟨S32768x256, .f32⟩
  | 124 => ⟨S_, .f32⟩
  | 125 => ⟨S32768x256, .f32⟩
  | 126 => ⟨S32768x256, .f32⟩
  | 127 => ⟨S32768x256, .f32⟩
  | _ => ⟨S32768x256, .f32⟩

abbrev hbmTy0_2 (i : Nat) : BufTy := match i % 128 with
  | 0 => ⟨S32768x256, .f32⟩
  | 1 => ⟨S1x32768x256, .f32⟩
  | 2 => ⟨S32768x256, .f32⟩
  | 3 => ⟨S32768x512, .f32⟩
  | 4 => ⟨S1x256x512, .f32⟩
  | 5 => ⟨S256x512, .f32⟩
  | 6 => ⟨S32768x512, .f32⟩
  | 7 => ⟨S1x512, .f32⟩
  | 8 => ⟨S512, .f32⟩
  | 9 => ⟨S1x512, .f32⟩
  | 10 => ⟨S32768x512, .f32⟩
  | 11 => ⟨S32768x512, .f32⟩
  | 12 => ⟨S32768x512, .f32⟩
  | 13 => ⟨S32768x256, .f32⟩
  | 14 => ⟨S32768x256, .f32⟩
  | 15 => ⟨S32768x256, .f32⟩
  | 16 => ⟨S32768x256, .f32⟩
  | 17 => ⟨S32768x256, .f32⟩
  | 18 => ⟨S_, .f32⟩
  | 19 => ⟨S32768x256, .f32⟩
  | 20 => ⟨S32768x256, .f32⟩
  | 21 => ⟨S_, .f32⟩
  | 22 => ⟨S32768x256, .f32⟩
  | 23 => ⟨S32768x256, .f32⟩
  | 24 => ⟨S32768x256, .f32⟩
  | 25 => ⟨S_, .f32⟩
  | 26 => ⟨S32768x256, .f32⟩
  | 27 => ⟨S32768x256, .f32⟩
  | 28 => ⟨S32768x256, .f32⟩
  | 29 => ⟨S32768x256, .f32⟩
  | 30 => ⟨S1x32768x256, .f32⟩
  | 31 => ⟨S32768x256, .f32⟩
  | 32 => ⟨S32768x512, .f32⟩
  | 33 => ⟨S1x256x512, .f32⟩
  | 34 => ⟨S256x512, .f32⟩
  | 35 => ⟨S32768x512, .f32⟩
  | 36 => ⟨S1x512, .f32⟩
  | 37 => ⟨S512, .f32⟩
  | 38 => ⟨S1x512, .f32⟩
  | 39 => ⟨S32768x512, .f32⟩
  | 40 => ⟨S32768x512, .f32⟩
  | 41 => ⟨S32768x512, .f32⟩
  | 42 => ⟨S32768x256, .f32⟩
  | 43 => ⟨S32768x256, .f32⟩
  | 44 => ⟨S32768x256, .f32⟩
  | 45 => ⟨S32768x256, .f32⟩
  | 46 => ⟨S32768x256, .f32⟩
  | 47 => ⟨S_, .f32⟩
  | 48 => ⟨S32768x256, .f32⟩
  | 49 => ⟨S32768x256, .f32⟩
  | 50 => ⟨S_, .f32⟩
  | 51 => ⟨S32768x256, .f32⟩
  | 52 => ⟨S32768x256, .f32⟩
  | 53 => ⟨S32768x256, .f32⟩
  | 54 => ⟨S_, .f32⟩
  | 55 => ⟨S32768x256, .f32⟩
  | 56 => ⟨S32768x256, .f32⟩
  | 57 => ⟨S32768x256, .f32⟩
  | 58 => ⟨S32768x256, .f32⟩
  | 59 => ⟨S1x32768x256, .f32⟩
  | 60 => ⟨S32768x256, .f32⟩
  | 61 => ⟨S32768x512, .f32⟩
  | 62 => ⟨S1x256x512, .f32⟩
  | 63 => ⟨S256x512, .f32⟩
  | 64 => ⟨S32768x512, .f32⟩
  | 65 => ⟨S1x512, .f32⟩
  | 66 => ⟨S512, .f32⟩
  | 67 => ⟨S1x512, .f32⟩
  | 68 => ⟨S32768x512, .f32⟩
  | 69 => ⟨S32768x512, .f32⟩
  | 70 => ⟨S32768x512, .f32⟩
  | 71 => ⟨S32768x256, .f32⟩
  | 72 => ⟨S32768x256, .f32⟩
  | 73 => ⟨S32768x256, .f32⟩
  | 74 => ⟨S32768x256, .f32⟩
  | 75 => ⟨S32768x256, .f32⟩
  | 76 => ⟨S_, .f32⟩
  | 77 => ⟨S32768x256, .f32⟩
  | 78 => ⟨S32768x256, .f32⟩
  | 79 => ⟨S_, .f32⟩
  | 80 => ⟨S32768x256, .f32⟩
  | 81 => ⟨S32768x256, .f32⟩
  | 82 => ⟨S32768x256, .f32⟩
  | 83 => ⟨S_, .f32⟩
  | 84 => ⟨S32768x256, .f32⟩
  | 85 => ⟨S32768x256, .f32⟩
  | 86 => ⟨S32768x256, .f32⟩
  | 87 => ⟨S32768x256, .f32⟩
  | 88 => ⟨S1x32768x128, .f32⟩
  | 89 => ⟨S1x32768x128, .f32⟩
  | 90 => ⟨S1x32768x128, .f32⟩
  | 91 => ⟨S1x32768x128, .f32⟩
  | 92 => ⟨S1x32768x128, .f32⟩
  | 93 => ⟨S5x32768x128, .f32⟩
  | 94 => ⟨S1x32768x256, .f32⟩
  | 95 => ⟨S1x32768x256, .f32⟩
  | 96 => ⟨S1x32768x256, .f32⟩
  | 97 => ⟨S1x32768x256, .f32⟩
  | 98 => ⟨S1x32768x256, .f32⟩
  | 99 => ⟨S5x32768x256, .f32⟩
  | _ => ⟨S32768x256, .f32⟩

abbrev hbmTy (i : Nat) : BufTy := match i / 128 with
  | 0 => hbmTy0_0 i
  | 1 => hbmTy0_1 i
  | 2 => hbmTy0_2 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_5 : Ref sig .tc := ⟨.hbm, 87, rfl⟩
abbrev main_v68 : Ref sig .tc := ⟨.hbm, 88, rfl⟩
abbrev main_v69 : Ref sig .tc := ⟨.hbm, 89, rfl⟩
abbrev main_cst_6 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_8 : Ref sig .tc := ⟨.hbm, 114, rfl⟩
abbrev main_v92 : Ref sig .tc := ⟨.hbm, 115, rfl⟩
abbrev main_v93 : Ref sig .tc := ⟨.hbm, 116, rfl⟩
abbrev main_cst_9 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_10 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_11 : Ref sig .tc := ⟨.hbm, 141, rfl⟩
abbrev main_v116 : Ref sig .tc := ⟨.hbm, 142, rfl⟩
abbrev main_v117 : Ref sig .tc := ⟨.hbm, 143, rfl⟩
abbrev main_cst_12 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_13 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_cst_14 : Ref sig .tc := ⟨.hbm, 216, rfl⟩
abbrev main_v188 : Ref sig .tc := ⟨.hbm, 217, rfl⟩
abbrev main_v189 : Ref sig .tc := ⟨.hbm, 218, rfl⟩
abbrev main_cst_15 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_cst_16 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_cst_17 : Ref sig .tc := ⟨.hbm, 245, rfl⟩
abbrev main_v214 : Ref sig .tc := ⟨.hbm, 246, rfl⟩
abbrev main_v215 : Ref sig .tc := ⟨.hbm, 247, rfl⟩
abbrev main_cst_18 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_cst_19 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_cst_20 : Ref sig .tc := ⟨.hbm, 274, rfl⟩
abbrev main_v240 : Ref sig .tc := ⟨.hbm, 275, rfl⟩
abbrev main_v241 : Ref sig .tc := ⟨.hbm, 276, rfl⟩
abbrev main_cst_21 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_cst_22 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_cst_23 : Ref sig .tc := ⟨.hbm, 303, rfl⟩
abbrev main_v266 : Ref sig .tc := ⟨.hbm, 304, rfl⟩
abbrev main_v267 : Ref sig .tc := ⟨.hbm, 305, rfl⟩
abbrev main_cst_24 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_cst_25 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_cst_26 : Ref sig .tc := ⟨.hbm, 332, rfl⟩
abbrev main_v292 : Ref sig .tc := ⟨.hbm, 333, rfl⟩
abbrev main_v293 : Ref sig .tc := ⟨.hbm, 334, rfl⟩
abbrev main_cst_27 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_cst_28 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩

abbrev nD : Nat := 1
abbrev τ : Topo := Topo.v7x

variable {F : FTy → Type} [FloatOps F]

class Facts₀ : Prop where
  slices_S5x32768x128_S1x32768x128_0_0_0 : S5x32768x128.Slices ![0, 0, 0] S1x32768x128
  shapeCasts_S1x32768x128_S32768x128 : S1x32768x128.ShapeCasts S32768x128
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  slices_S32768x256_S32768x128_0_0 : S32768x256.Slices ![0, 0] S32768x128
  slices_S32768x256_S32768x128_0_128 : S32768x256.Slices ![0, 128] S32768x128
  bcast_S_S32768x128 : S_.BroadcastsInDim S32768x128 (![] : Fin 0 → Fin S32768x128.rank)
  slices_S5x32768x128_S1x32768x128_1_0_0 : S5x32768x128.Slices ![1, 0, 0] S1x32768x128
  slices_S5x128x256_S1x128x256_1_0_0 : S5x128x256.Slices ![1, 0, 0] S1x128x256
  slices_S5x256_S1x256_1_0 : S5x256.Slices ![1, 0] S1x256
  slices_S5x32768x128_S1x32768x128_2_0_0 : S5x32768x128.Slices ![2, 0, 0] S1x32768x128
  slices_S5x128x256_S1x128x256_2_0_0 : S5x128x256.Slices ![2, 0, 0] S1x128x256
  slices_S5x256_S1x256_2_0 : S5x256.Slices ![2, 0] S1x256
  slices_S5x32768x128_S1x32768x128_3_0_0 : S5x32768x128.Slices ![3, 0, 0] S1x32768x128
  slices_S5x128x256_S1x128x256_3_0_0 : S5x128x256.Slices ![3, 0, 0] S1x128x256
  slices_S5x256_S1x256_3_0 : S5x256.Slices ![3, 0] S1x256
  slices_S5x32768x128_S1x32768x128_4_0_0 : S5x32768x128.Slices ![4, 0, 0] S1x32768x128
  slices_S5x128x256_S1x128x256_4_0_0 : S5x128x256.Slices ![4, 0, 0] S1x128x256
  slices_S5x256_S1x256_4_0 : S5x256.Slices ![4, 0] S1x256
  slices_S5x32768x256_S1x32768x256_0_0_0 : S5x32768x256.Slices ![0, 0, 0] S1x32768x256
  shapeCasts_S1x32768x256_S32768x256 : S1x32768x256.ShapeCasts S32768x256
  concatenates_S32768x256_S32768x256_S32768x512_d1 : Shape.Concatenates [S32768x256, S32768x256] S32768x512 1
  slices_S5x256x512_S1x256x512_0_0_0 : S5x256x512.Slices ![0, 0, 0] S1x256x512
  shapeCasts_S1x256x512_S256x512 : S1x256x512.ShapeCasts S256x512
  slices_S5x512_S1x512_0_0 : S5x512.Slices ![0, 0] S1x512
  shapeCasts_S1x512_S512 : S1x512.ShapeCasts S512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  slices_S32768x512_S32768x256_0_0 : S32768x512.Slices ![0, 0] S32768x256
  slices_S32768x512_S32768x256_0_256 : S32768x512.Slices ![0, 256] S32768x256
  bcast_S_S32768x256 : S_.BroadcastsInDim S32768x256 (![] : Fin 0 → Fin S32768x256.rank)
  slices_S5x32768x256_S1x32768x256_1_0_0 : S5x32768x256.Slices ![1, 0, 0] S1x32768x256
  slices_S5x256x512_S1x256x512_1_0_0 : S5x256x512.Slices ![1, 0, 0] S1x256x512
  slices_S5x512_S1x512_1_0 : S5x512.Slices ![1, 0] S1x512
  slices_S5x32768x256_S1x32768x256_2_0_0 : S5x32768x256.Slices ![2, 0, 0] S1x32768x256
  slices_S5x256x512_S1x256x512_2_0_0 : S5x256x512.Slices ![2, 0, 0] S1x256x512
  slices_S5x512_S1x512_2_0 : S5x512.Slices ![2, 0] S1x512
  slices_S5x32768x256_S1x32768x256_3_0_0 : S5x32768x256.Slices ![3, 0, 0] S1x32768x256
  slices_S5x256x512_S1x256x512_3_0_0 : S5x256x512.Slices ![3, 0, 0] S1x256x512
  slices_S5x512_S1x512_3_0 : S5x512.Slices ![3, 0] S1x512
  slices_S5x32768x256_S1x32768x256_4_0_0 : S5x32768x256.Slices ![4, 0, 0] S1x32768x256
  slices_S5x256x512_S1x256x512_4_0_0 : S5x256x512.Slices ![4, 0, 0] S1x256x512
  slices_S5x512_S1x512_4_0 : S5x512.Slices ![4, 0] S1x512
  bcast_S32768x128_S1x32768x128_1_2 : S32768x128.BroadcastsInDim S1x32768x128 (![1, 2] : Fin 2 → Fin S1x32768x128.rank)
  concatenates_S1x32768x128_S1x32768x128_S1x32768x128_S1x32768x128_S1x32768x128_S5x32768x128_d0 : Shape.Concatenates [S1x32768x128, S1x32768x128, S1x32768x128, S1x32768x128, S1x32768x128] S5x32768x128 0
  bcast_S32768x256_S1x32768x256_1_2 : S32768x256.BroadcastsInDim S1x32768x256 (![1, 2] : Fin 2 → Fin S1x32768x256.rank)
  concatenates_S1x32768x256_S1x32768x256_S1x32768x256_S1x32768x256_S1x32768x256_S5x32768x256_d0 : Shape.Concatenates [S1x32768x256, S1x32768x256, S1x32768x256, S1x32768x256, S1x32768x256] S5x32768x256 0
  dot_S32768x128_S128x256_S32768x256_1_0_0_1_n_n_wf : DotDims.WF S32768x128 S128x256 S32768x256 [1] [0] [0] [1] [] []
  dot_S32768x256_S256x256_S32768x256_1_0_0_1_n_n_wf : DotDims.WF S32768x256 S256x256 S32768x256 [1] [0] [0] [1] [] []
  dot_S32768x256_S256x512_S32768x512_1_0_0_1_n_n_wf : DotDims.WF S32768x256 S256x512 S32768x512 [1] [0] [0] [1] [] []

variable [Facts₀]

def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf

class Facts : Prop extends Facts₀ where

variable [Facts]
-- ==== Proof.Spec.lean ====
/-
  The hyper-modulated recurrent highway cell, one batch row at a time.

  Every output row depends on one batch row of the three state inputs and on the weights, so the whole
  computation is described by functions of a single row. For depth layer l:

    preH l c = sh_l · Wch_l[:, c] + bch_l[c]              (+ x · Wih[:, c] + bih[c]  when l = 0)
    sH l j   = tanh (preH l j) · σ (preH l (j + 128)) + sh_l[j] · (1 - σ (preH l (j + 128)))
    z l c    = sH l · Wup_l[:, c] + bup_l[c]
    preN l c = sn_l · Wcn_l[:, c] + bcn_l[c]              (+ x · Win[:, c] + bin[c]  when l = 0)
    sN l c   = tanh (z l c · preN l c) · σ (z l c · preN l (c + 256)) + sn_l[c] · (1 - σ (z l c · preN l (c + 256)))

  where σ y = 1 / (1 + e^(-y)). A second arrangement multiplies the modulation z into the two summands of the
  layer-0 pre-activation separately, z · a + z · b in place of z · (a + b); the two agree when z, a and b are real
  numbers, which they are as soon as every input is finite: tanh and σ of anything are real, and sums and
  products of reals are real.
-/
import Idealize.ShloMosaic.PureOps.Ideal
import Idealize.ShloMosaic.Lib.ValueIdx

noncomputable section

namespace Cert.Hrhn

open Idealize.ShloMosaic

/-- The word of the float one, as the programs spell it. -/
abbrev one : EReal := Ideal.ofBits .f32 0x3F800000#32

/-- The float one denotes the real one. -/
theorem one_eq : one = 1 := by
  simp [one, Ideal.ofBits, Ideal.ieee, -EReal.coe_mul]; norm_num

/-- A row against a column: the sum of the products. -/
def dotv {K : ℕ} (s W : Fin K → EReal) : EReal := ∑ k, s k * W k

/-- The highway gate: carry a, transform pre-activation g, previous state s. -/
def gate (a g s : EReal) : EReal := Ideal.tanh a * Ideal.logistic g + s * (one - Ideal.logistic g)

/-- The weights, entry by entry. -/
structure Weights where
  Wih : Fin 256 → Fin 256 → EReal
  bih : Fin 256 → EReal
  Wch : Fin 5 → Fin 128 → Fin 256 → EReal
  bch : Fin 5 → Fin 256 → EReal
  Win : Fin 256 → Fin 512 → EReal
  bin : Fin 512 → EReal
  Wcn : Fin 5 → Fin 256 → Fin 512 → EReal
  bcn : Fin 5 → Fin 512 → EReal
  Wup : Fin 5 → Fin 128 → Fin 256 → EReal
  bup : Fin 5 → Fin 256 → EReal

/-- One batch row of the three state inputs. -/
structure Row where
  x : Fin 256 → EReal
  sh : Fin 5 → Fin 128 → EReal
  sn : Fin 5 → Fin 256 → EReal

/-- The two halves of a pre-activation of width 256 and of width 512. -/
abbrev lo128 (j : Fin 128) : Fin 256 := ⟨j.val, by omega⟩
abbrev hi128 (j : Fin 128) : Fin 256 := ⟨j.val + 128, by omega⟩
abbrev lo256 (c : Fin 256) : Fin 512 := ⟨c.val, by omega⟩
abbrev hi256 (c : Fin 256) : Fin 512 := ⟨c.val + 256, by omega⟩

variable (W : Weights) (r : Row)

def cellH (l : Fin 5) (c : Fin 256) : EReal := dotv (r.sh l) (fun k => W.Wch l k c) + W.bch l c
def inpH (c : Fin 256) : EReal := dotv r.x (fun k => W.Wih k c) + W.bih c
def preH (l : Fin 5) (c : Fin 256) : EReal := if l = 0 then cellH W r l c + inpH W r c else cellH W r l c
def sH (l : Fin 5) (j : Fin 128) : EReal := gate (preH W r l (lo128 j)) (preH W r l (hi128 j)) (r.sh l j)
def zup (l : Fin 5) (c : Fin 256) : EReal := dotv (sH W r l) (fun k => W.Wup l k c) + W.bup l c
def cellN (l : Fin 5) (c : Fin 512) : EReal := dotv (r.sn l) (fun k => W.Wcn l k c) + W.bcn l c
def inpN (c : Fin 512) : EReal := dotv r.x (fun k => W.Win k c) + W.bin c
def preN (l : Fin 5) (c : Fin 512) : EReal := if l = 0 then cellN W r l c + inpN W r c else cellN W r l c
def sN (l : Fin 5) (c : Fin 256) : EReal :=
  gate (zup W r l c * preN W r l (lo256 c)) (zup W r l c * preN W r l (hi256 c)) (r.sn l c)

/-- The modulated pre-activation in the second arrangement: the modulation multiplied into each summand. -/
def modN (l : Fin 5) (c : Fin 512) (zc : EReal) : EReal :=
  if l = 0 then zc * cellN W r l c + zc * inpN W r c else zc * cellN W r l c
def sN' (l : Fin 5) (c : Fin 256) : EReal :=
  gate (modN W r l (lo256 c) (zup W r l c)) (modN W r l (hi256 c) (zup W r l c)) (r.sn l c)

/-! ## Real values -/

/-- An extended real that is a real number. -/
def IsReal (a : EReal) : Prop := ∃ t : ℝ, a = (t : EReal)

theorem IsReal.add {a b : EReal} (ha : IsReal a) (hb : IsReal b) : IsReal (a + b) := by
  obtain ⟨s, rfl⟩ := ha; obtain ⟨t, rfl⟩ := hb; exact ⟨s + t, (EReal.coe_add s t).symm⟩

theorem IsReal.mul {a b : EReal} (ha : IsReal a) (hb : IsReal b) : IsReal (a * b) := by
  obtain ⟨s, rfl⟩ := ha; obtain ⟨t, rfl⟩ := hb; exact ⟨s * t, (EReal.coe_mul s t).symm⟩

theorem IsReal.sub {a b : EReal} (ha : IsReal a) (hb : IsReal b) : IsReal (a - b) := by
  obtain ⟨s, rfl⟩ := ha; obtain ⟨t, rfl⟩ := hb; exact ⟨s - t, (EReal.coe_sub s t).symm⟩

theorem isReal_sum {ι : Type} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    exact (h a (Finset.mem_insert_self a S)).add (ih fun i hi => h i (Finset.mem_insert_of_mem hi))

theorem isReal_dotv {K : ℕ} (s V : Fin K → EReal) (hs : ∀ k, IsReal (s k)) (hV : ∀ k, IsReal (V k)) : IsReal (dotv s V) :=
  isReal_sum _ _ fun k _ => (hs k).mul (hV k)

theorem isReal_one : IsReal one := ⟨1, by rw [one_eq]; rfl⟩

/-- The hyperbolic tangent of any extended real is a real number. -/
theorem isReal_tanh (a : EReal) : IsReal (Ideal.tanh a) := by
  induction a using EReal.rec with
  | bot => exact ⟨-1, by rw [Ideal.tanh_bot]; rfl⟩
  | coe t => exact ⟨Real.tanh t, Ideal.tanh_coe t⟩
  | top => exact ⟨1, by rw [Ideal.tanh_top]; rfl⟩

/-- The logistic function of any extended real is a real number. -/
theorem isReal_logistic (a : EReal) : IsReal (Ideal.logistic a) := by
  induction a using EReal.rec with
  | bot => exact ⟨0, by rw [Ideal.logistic_bot]; rfl⟩
  | coe t => exact ⟨_, Ideal.logistic_coe t⟩
  | top => exact ⟨1, by rw [Ideal.logistic_top]; rfl⟩

/-- The gate of anything against a real previous state is real. -/
theorem isReal_gate (a g : EReal) {s : EReal} (hs : IsReal s) : IsReal (gate a g s) :=
  ((isReal_tanh a).mul (isReal_logistic g)).add (hs.mul (isReal_one.sub (isReal_logistic g)))

/-- A real factor distributes over a sum of reals. -/
theorem mul_add_of_isReal {z a b : EReal} (hz : IsReal z) (ha : IsReal a) (hb : IsReal b) :
    z * (a + b) = z * a + z * b := by
  obtain ⟨u, rfl⟩ := hz; obtain ⟨s, rfl⟩ := ha; obtain ⟨t, rfl⟩ := hb
  rw [← EReal.coe_add, ← EReal.coe_mul, ← EReal.coe_mul, ← EReal.coe_mul, ← EReal.coe_add, mul_add]

/-! ## The two arrangements agree on finite inputs -/

/-- What of the inputs has to be real for layer 0's modulation to distribute. -/
structure Finite0 : Prop where
  x : ∀ k, IsReal (r.x k)
  sh : ∀ k, IsReal (r.sh 0 k)
  sn : ∀ k, IsReal (r.sn 0 k)
  Win : ∀ k c, IsReal (W.Win k c)
  bin : ∀ c, IsReal (W.bin c)
  Wcn : ∀ k c, IsReal (W.Wcn 0 k c)
  bcn : ∀ c, IsReal (W.bcn 0 c)
  Wup : ∀ k c, IsReal (W.Wup 0 k c)
  bup : ∀ c, IsReal (W.bup 0 c)

variable {W r}

theorem isReal_zup0 (h : Finite0 W r) (c : Fin 256) : IsReal (zup W r 0 c) :=
  (isReal_dotv _ _ (fun k => isReal_gate _ _ (h.sh k)) (fun k => h.Wup k c)).add (h.bup c)

theorem isReal_cellN0 (h : Finite0 W r) (c : Fin 512) : IsReal (cellN W r 0 c) :=
  (isReal_dotv _ _ h.sn (fun k => h.Wcn k c)).add (h.bcn c)

theorem isReal_inpN (h : Finite0 W r) (c : Fin 512) : IsReal (inpN W r c) :=
  (isReal_dotv _ _ h.x (fun k => h.Win k c)).add (h.bin c)

theorem modN_eq (h : Finite0 W r) (l : Fin 5) (c : Fin 512) (d : Fin 256) :
    modN W r l c (zup W r l d) = zup W r l d * preN W r l c := by
  unfold modN preN
  by_cases hl : l = 0
  · subst hl
    rw [if_pos rfl, if_pos rfl]
    exact (mul_add_of_isReal (isReal_zup0 h d) (isReal_cellN0 h c) (isReal_inpN h c)).symm
  · rw [if_neg hl, if_neg hl]

/-- On finite inputs the second arrangement is the first. -/
theorem sN'_eq (h : Finite0 W r) (l : Fin 5) (c : Fin 256) : sN' W r l c = sN W r l c := by
  unfold sN' sN
  rw [modN_eq h, modN_eq h]

/-- The logistic function written out with the float one. -/
theorem logistic_expand (y : EReal) : Ideal.div one (one + Ideal.exp (-y)) = Ideal.logistic y := by
  rw [one_eq]; rfl

end Cert.Hrhn

end
-- ==== Proof.Arrays.lean ====
/-
  The row functions of the cell read out of arrays.

  The weights are ten arrays; a batch of R rows is three arrays with R rows each. The three results are, index by
  index, the row functions at the batch row the index names: the hyper states (layer, row, unit), the network states
  (layer, row, unit), and the last layer's network state (row, unit).
-/
import proofs.«139043_j64879775973862_2_alg».proof.Proof.Spec

noncomputable section

namespace Cert.Hrhn

open Idealize.ShloMosaic Idealize.ShloMosaic.ValueIdx

/-- The weights, read entry by entry out of the ten weight arrays (input-projection weights and biases as a matrix
    and a vector, the per-layer ones with the layer as leading axis). -/
def weightsOf (a3 : (⟨2, ![256, 256]⟩ : Shape).Idx → EReal) (a4 : (⟨1, ![256]⟩ : Shape).Idx → EReal)
    (a5 : (⟨3, ![5, 128, 256]⟩ : Shape).Idx → EReal) (a6 : (⟨2, ![5, 256]⟩ : Shape).Idx → EReal)
    (a7 : (⟨2, ![256, 512]⟩ : Shape).Idx → EReal) (a8 : (⟨1, ![512]⟩ : Shape).Idx → EReal)
    (a9 : (⟨3, ![5, 256, 512]⟩ : Shape).Idx → EReal) (a10 : (⟨2, ![5, 512]⟩ : Shape).Idx → EReal)
    (a11 : (⟨3, ![5, 128, 256]⟩ : Shape).Idx → EReal) (a12 : (⟨2, ![5, 256]⟩ : Shape).Idx → EReal) : Weights where
  Wih k c := a3 (ix2 k c)
  bih c := a4 (ix1 c)
  Wch l k c := a5 (ix3 l k c)
  bch l c := a6 (ix2 l c)
  Win k c := a7 (ix2 k c)
  bin c := a8 (ix1 c)
  Wcn l k c := a9 (ix3 l k c)
  bcn l c := a10 (ix2 l c)
  Wup l k c := a11 (ix3 l k c)
  bup l c := a12 (ix2 l c)

/-- Batch row p of the three state arrays. -/
def rowOf {R : ℕ} (a0 : (⟨2, ![R, 256]⟩ : Shape).Idx → EReal) (a1 : (⟨3, ![5, R, 128]⟩ : Shape).Idx → EReal)
    (a2 : (⟨3, ![5, R, 256]⟩ : Shape).Idx → EReal) (p : Fin R) : Row where
  x k := a0 (ix2 p k)
  sh l k := a1 (ix3 l p k)
  sn l k := a2 (ix3 l p k)

variable {R : ℕ} (W : Weights) (a0 : (⟨2, ![R, 256]⟩ : Shape).Idx → EReal)
  (a1 : (⟨3, ![5, R, 128]⟩ : Shape).Idx → EReal) (a2 : (⟨3, ![5, R, 256]⟩ : Shape).Idx → EReal)

/-- The hyper states of all layers. -/
def outSH : (⟨3, ![5, R, 128]⟩ : Shape).Idx → EReal := fun i => sH W (rowOf a0 a1 a2 (i 1)) (i 0) (i 2)

/-- The network states of all layers. -/
def outSN : (⟨3, ![5, R, 256]⟩ : Shape).Idx → EReal := fun i => sN W (rowOf a0 a1 a2 (i 1)) (i 0) (i 2)

/-- The last layer's network state. -/
def outLast : (⟨2, ![R, 256]⟩ : Shape).Idx → EReal := fun i => sN W (rowOf a0 a1 a2 (i 0)) 4 (i 1)

theorem outSH_apply (l : Fin 5) (p : Fin R) (j : Fin 128) :
    outSH W a0 a1 a2 (ix3 l p j) = sH W (rowOf a0 a1 a2 p) l j := rfl
theorem outSN_apply (l : Fin 5) (p : Fin R) (c : Fin 256) :
    outSN W a0 a1 a2 (ix3 l p c) = sN W (rowOf a0 a1 a2 p) l c := rfl
theorem outLast_apply (p : Fin R) (c : Fin 256) :
    outLast W a0 a1 a2 (ix2 p c) = sN W (rowOf a0 a1 a2 p) 4 c := rfl

end Cert.Hrhn

end
-- ==== Proof.KernelWeights.lean ====
/-
  The weights as the kernel body finds them staged: the two input-projection biases arrive as one row [1, n], every
  other weight block is the whole array.
-/
import proofs.«139043_j64879775973862_2_alg».proof.KernelIdeal
import proofs.«139043_j64879775973862_2_alg».proof.Proof.Arrays

noncomputable section

namespace Cert.Hrhn.Kern

open Idealize.ShloMosaic Idealize.ShloMosaic.ValueIdx Cert.KernelIdeal

/-- The weights read out of the ten staged weight blocks. -/
def wBlk (x3 : Vec Ideal S256x256 .bf16) (x4 : Vec Ideal S1x256 .f32) (x5 : Vec Ideal S5x128x256 .bf16)
    (x6 : Vec Ideal S5x256 .f32) (x7 : Vec Ideal S256x512 .bf16) (x8 : Vec Ideal S1x512 .f32)
    (x9 : Vec Ideal S5x256x512 .bf16) (x10 : Vec Ideal S5x512 .f32) (x11 : Vec Ideal S5x128x256 .bf16)
    (x12 : Vec Ideal S5x256 .f32) : Weights where
  Wih k c := x3 (ix2 k c)
  bih c := x4 (ix2 (0 : Fin 1) c)
  Wch l k c := x5 (ix3 l k c)
  bch l c := x6 (ix2 l c)
  Win k c := x7 (ix2 k c)
  bin c := x8 (ix2 (0 : Fin 1) c)
  Wcn l k c := x9 (ix3 l k c)
  bcn l c := x10 (ix2 l c)
  Wup l k c := x11 (ix3 l k c)
  bup l c := x12 (ix2 l c)

end Cert.Hrhn.Kern

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.KernelOps.lean ====
/-
  The kernel body's operations read at an index of a block of 1024 batch rows.

  A product of a [1024, K] block with a [K, N] weight into the zero accumulator is, at (p, c), the sum over k of
  l (p, k) * r (k, c); the two halves of a pre-activation are column slices at offsets 0 and N/2; the elementwise
  functions act entry by entry.
-/
import proofs.«139043_j64879775973862_2_alg».proof.KernelIdeal
import proofs.«139043_j64879775973862_2_alg».proof.Proof.Gen.KernelIdeal
import proofs.«139043_j64879775973862_2_alg».proof.Proof.LibDotSum
import Idealize.ShloMosaic.Lib.ValueLayout
import Idealize.ShloMosaic.Lib.Pipeline.Value
import Idealize.ShloMosaic.PureOps.Ideal.Laws

noncomputable section

namespace Cert.Hrhn.Kern

open Idealize.ShloMosaic Idealize.ShloMosaic.ValueIdx Cert.KernelIdeal

/-- The product of a [1024, 256] block with a [256, 256] weight, at (p, c). -/
theorem matmul_256_256 (l : FVec Ideal S1024x256 .bf16) (r : FVec Ideal S256x256 .bf16) (p : Fin 1024) (c : Fin 256) :
    matmul dot_S1024x256_S256x256_S1024x256_1_0_0_1_n_n none l r (constant (F := Ideal) S1024x256 .f32 0x00000000#32) (ix2 p c)
      = ∑ k : Fin 256, l (ix2 p k) * r (ix2 k c) :=
  (Ideal.matmul_constant_zero_apply dot_S1024x256_S256x256_S1024x256_1_0_0_1_n_n none l r (ix2 p c)).trans
    (Cert.LibDotSum.sum_contr_eq_sum_fin dot_S1024x256_S256x256_S1024x256_1_0_0_1_n_n rfl rfl
      (fun _ _ => rfl) (fun _ _ => rfl) (fun _ _ => rfl) (fun _ _ => rfl) l r (ix2 p c))

/-- The product of a [1024, 256] block with a [256, 512] weight, at (p, c). -/
theorem matmul_256_512 (l : FVec Ideal S1024x256 .bf16) (r : FVec Ideal S256x512 .bf16) (p : Fin 1024) (c : Fin 512) :
    matmul dot_S1024x256_S256x512_S1024x512_1_0_0_1_n_n none l r (constant (F := Ideal) S1024x512 .f32 0x00000000#32) (ix2 p c)
      = ∑ k : Fin 256, l (ix2 p k) * r (ix2 k c) :=
  (Ideal.matmul_constant_zero_apply dot_S1024x256_S256x512_S1024x512_1_0_0_1_n_n none l r (ix2 p c)).trans
    (Cert.LibDotSum.sum_contr_eq_sum_fin dot_S1024x256_S256x512_S1024x512_1_0_0_1_n_n rfl rfl
      (fun _ _ => rfl) (fun _ _ => rfl) (fun _ _ => rfl) (fun _ _ => rfl) l r (ix2 p c))

/-- The product of a [1024, 128] block with a [128, 256] weight, at (p, c). -/
theorem matmul_128_256 (l : FVec Ideal S1024x128 .bf16) (r : FVec Ideal S128x256 .bf16) (p : Fin 1024) (c : Fin 256) :
    matmul dot_S1024x128_S128x256_S1024x256_1_0_0_1_n_n none l r (constant (F := Ideal) S1024x256 .f32 0x00000000#32) (ix2 p c)
      = ∑ k : Fin 128, l (ix2 p k) * r (ix2 k c) :=
  (Ideal.matmul_constant_zero_apply dot_S1024x128_S128x256_S1024x256_1_0_0_1_n_n none l r (ix2 p c)).trans
    (Cert.LibDotSum.sum_contr_eq_sum_fin dot_S1024x128_S128x256_S1024x256_1_0_0_1_n_n rfl rfl
      (fun _ _ => rfl) (fun _ _ => rfl) (fun _ _ => rfl) (fun _ _ => rfl) l r (ix2 p c))

variable {α : Type}

/-- The first 128 columns of a [1024, 256] block. -/
theorem slice_lo128 (X : S1024x256.Idx → α) (h : S1024x256.Slices ![0, 0] S1024x128) (p : Fin 1024) (j : Fin 128) :
    extractStridedSlice S1024x128 ![0, 0] X h (ix2 p j) = X (ix2 p (⟨j.val, by omega⟩ : Fin 256)) :=
  slice2_axis1_apply 0 X h p j _ (by simp)

/-- The last 128 columns of a [1024, 256] block. -/
theorem slice_hi128 (X : S1024x256.Idx → α) (h : S1024x256.Slices ![0, 128] S1024x128) (p : Fin 1024) (j : Fin 128) :
    extractStridedSlice S1024x128 ![0, 128] X h (ix2 p j) = X (ix2 p (⟨j.val + 128, by omega⟩ : Fin 256)) :=
  slice2_axis1_apply 128 X h p j _ (by simp [Nat.add_comm])

/-- The first 256 columns of a [1024, 512] block. -/
theorem slice_lo256 (X : S1024x512.Idx → α) (h : S1024x512.Slices ![0, 0] S1024x256) (p : Fin 1024) (c : Fin 256) :
    extractStridedSlice S1024x256 ![0, 0] X h (ix2 p c) = X (ix2 p (⟨c.val, by omega⟩ : Fin 512)) :=
  slice2_axis1_apply 0 X h p c _ (by simp)

/-- The last 256 columns of a [1024, 512] block. -/
theorem slice_hi256 (X : S1024x512.Idx → α) (h : S1024x512.Slices ![0, 256] S1024x256) (p : Fin 1024) (c : Fin 256) :
    extractStridedSlice S1024x256 ![0, 256] X h (ix2 p c) = X (ix2 p (⟨c.val + 256, by omega⟩ : Fin 512)) :=
  slice2_axis1_apply 256 X h p c _ (by simp [Nat.add_comm])

variable {s : Shape} {φ : FTy}

theorem tanh_apply (a : FVec Ideal s φ) (i : s.Idx) : tanh a i = Ideal.tanh (a i) := rfl

theorem logistic_apply (a : FVec Ideal s φ) (i : s.Idx) : logistic a i = Ideal.logistic (a i) := rfl

end Cert.Hrhn.Kern

end
-- ==== Proof.KernelLoads.lean ====
/-
  The rectangles the body loads through, as index maps.

  Each load takes a rectangle of a staged block: the whole block, or one layer of a block whose leading axis is the
  layer. An index of the rectangle names the block's entry at the rectangle's offset plus that index.
-/
import proofs.«139043_j64879775973862_2_alg».proof.Proof.Gen.KernelIdeal.Frame
import Idealize.ShloMosaic.Lib.ValueIdx

noncomputable section

namespace Cert.Hrhn.Kern

open Idealize.ShloMosaic Idealize.ShloMosaic.ValueIdx Cert.KernelIdeal Cert.KernelIdeal.Gen

/-- Rectangle 0: offset (0, 0) in a [1024, 256] block, extent [1024, 256]. -/
theorem idx_r0_0 (a : Fin 1024) (b : Fin 256) :
    r0_0.idx (ix2 a b) = ix2 a b := by
  funext d
  apply Fin.ext
  match d with
  | ⟨0, _⟩ => show 0 + 1 * a.val = a.val; omega
  | ⟨1, _⟩ => show 0 + 1 * b.val = b.val; omega

/-- Rectangle 1: offset (0, 0) in a [256, 256] block, extent [256, 256]. -/
theorem idx_r0_1 (a : Fin 256) (b : Fin 256) :
    r0_1.idx (ix2 a b) = ix2 a b := by
  funext d
  apply Fin.ext
  match d with
  | ⟨0, _⟩ => show 0 + 1 * a.val = a.val; omega
  | ⟨1, _⟩ => show 0 + 1 * b.val = b.val; omega

/-- Rectangle 2: offset (0, 0) in a [1, 256] block, extent [1, 256]. -/
theorem idx_r0_2 (a : Fin 1) (b : Fin 256) :
    r0_2.idx (ix2 a b) = ix2 (0 : Fin 1) b := by
  funext d
  apply Fin.ext
  match d with
  | ⟨0, _⟩ => show 0 + 1 * a.val = 0; omega
  | ⟨1, _⟩ => show 0 + 1 * b.val = b.val; omega

/-- Rectangle 3: offset (0, 0) in a [256, 512] block, extent [256, 512]. -/
theorem idx_r0_3 (a : Fin 256) (b : Fin 512) :
    r0_3.idx (ix2 a b) = ix2 a b := by
  funext d
  apply Fin.ext
  match d with
  | ⟨0, _⟩ => show 0 + 1 * a.val = a.val; omega
  | ⟨1, _⟩ => show 0 + 1 * b.val = b.val; omega

/-- Rectangle 4: offset (0, 0) in a [1, 512] block, extent [1, 512]. -/
theorem idx_r0_4 (a : Fin 1) (b : Fin 512) :
    r0_4.idx (ix2 a b) = ix2 (0 : Fin 1) b := by
  funext d
  apply Fin.ext
  match d with
  | ⟨0, _⟩ => show 0 + 1 * a.val = 0; omega
  | ⟨1, _⟩ => show 0 + 1 * b.val = b.val; omega

/-- Rectangle 5: offset (0, 0, 0) in a [5, 1024, 128] block, extent [1, 1024, 128]. -/
theorem idx_r0_5 (a : Fin 1) (b : Fin 1024) (c : Fin 128) :
    r0_5.idx (ix3 a b c) = ix3 (0 : Fin 5) b c := by
  funext d
  apply Fin.ext
  match d with
  | ⟨0, _⟩ => show 0 + 1 * a.val = 0; omega
  | ⟨1, _⟩ => show 0 + 1 * b.val = b.val; omega
  | ⟨2, _⟩ => show 0 + 1 * c.val = c.val; omega

/-- Rectangle 6: offset (0, 0, 0) in a [5, 128, 256] block, extent [1, 128, 256]. -/
theorem idx_r0_6 (a : Fin 1) (b : Fin 128) (c : Fin 256) :
    r0_6.idx (ix3 a b c) = ix3 (0 : Fin 5) b c := by
  funext d
  apply Fin.ext
  match d with
  | ⟨0, _⟩ => show 0 + 1 * a.val = 0; omega
  | ⟨1, _⟩ => show 0 + 1 * b.val = b.val; omega
  | ⟨2, _⟩ => show 0 + 1 * c.val = c.val; omega

/-- Rectangle 7: offset (0, 0) in a [5, 256] block, extent [1, 256]. -/
theorem idx_r0_7 (a : Fin 1) (b : Fin 256) :
    r0_7.idx (ix2 a b) = ix2 (0 : Fin 5) b := by
  funext d
  apply Fin.ext
  match d with
  | ⟨0, _⟩ => show 0 + 1 * a.val = 0; omega
  | ⟨1, _⟩ => show 0 + 1 * b.val = b.val; omega

/-- Rectangle 8: offset (0, 0, 0) in a [5, 1024, 256] block, extent [1, 1024, 256]. -/
theorem idx_r0_8 (a : Fin 1) (b : Fin 1024) (c : Fin 256) :
    r0_8.idx (ix3 a b c) = ix3 (0 : Fin 5) b c := by
  funext d
  apply Fin.ext
  match d with
  | ⟨0, _⟩ => show 0 + 1 * a.val = 0; omega
  | ⟨1, _⟩ => show 0 + 1 * b.val = b.val; omega
  | ⟨2, _⟩ => show 0 + 1 * c.val = c.val; omega

/-- Rectangle 9: offset (0, 0, 0) in a [5, 256, 512] block, extent [1, 256, 512]. -/
theorem idx_r0_9 (a : Fin 1) (b : Fin 256) (c : Fin 512) :
    r0_9.idx (ix3 a b c) = ix3 (0 : Fin 5) b c := by
  funext d
  apply Fin.ext
  match d with
  | ⟨0, _⟩ => show 0 + 1 * a.val = 0; omega
  | ⟨1, _⟩ => show 0 + 1 * b.val = b.val; omega
  | ⟨2, _⟩ => show 0 + 1 * c.val = c.val; omega

/-- Rectangle 10: offset (0, 0) in a [5, 512] block, extent [1, 512]. -/
theorem idx_r0_10 (a : Fin 1) (b : Fin 512) :
    r0_10.idx (ix2 a b) = ix2 (0 : Fin 5) b := by
  funext d
  apply Fin.ext
  match d with
  | ⟨0, _⟩ => show 0 + 1 * a.val = 0; omega
  | ⟨1, _⟩ => show 0 + 1 * b.val = b.val; omega

/-- Rectangle 11: offset (1, 0, 0) in a [5, 1024, 128] block, extent [1, 1024, 128]. -/
theorem idx_r0_11 (a : Fin 1) (b : Fin 1024) (c : Fin 128) :
    r0_11.idx (ix3 a b c) = ix3 (1 : Fin 5) b c := by
  funext d
  apply Fin.ext
  match d with
  | ⟨0, _⟩ => show 1 + 1 * a.val = 1; omega
  | ⟨1, _⟩ => show 0 + 1 * b.val = b.val; omega
  | ⟨2, _⟩ => show 0 + 1 * c.val = c.val; omega

/-- Rectangle 12: offset (1, 0, 0) in a [5, 128, 256] block, extent [1, 128, 256]. -/
theorem idx_r0_12 (a : Fin 1) (b : Fin 128) (c : Fin 256) :
    r0_12.idx (ix3 a b c) = ix3 (1 : Fin 5) b c := by
  funext d
  apply Fin.ext
  match d with
  | ⟨0, _⟩ => show 1 + 1 * a.val = 1; omega
  | ⟨1, _⟩ => show 0 + 1 * b.val = b.val; omega
  | ⟨2, _⟩ => show 0 + 1 * c.val = c.val; omega

/-- Rectangle 13: offset (1, 0) in a [5, 256] block, extent [1, 256]. -/
theorem idx_r0_13 (a : Fin 1) (b : Fin 256) :
    r0_13.idx (ix2 a b) = ix2 (1 : Fin 5) b := by
  funext d
  apply Fin.ext
  match d with
  | ⟨0, _⟩ => show 1 + 1 * a.val = 1; omega
  | ⟨1, _⟩ => show 0 + 1 * b.val = b.val; omega

/-- Rectangle 14: offset (1, 0, 0) in a [5, 1024, 256] block, extent [1, 1024, 256]. -/
theorem idx_r0_14 (a : Fin 1) (b : Fin 1024) (c : Fin 256) :
    r0_14.idx (ix3 a b c) = ix3 (1 : Fin 5) b c := by
  funext d
  apply Fin.ext
  match d with
  | ⟨0, _⟩ => show 1 + 1 * a.val = 1; omega
  | ⟨1, _⟩ => show 0 + 1 * b.val = b.val; omega
  | ⟨2, _⟩ => show 0 + 1 * c.val = c.val; omega

/-- Rectangle 15: offset (1, 0, 0) in a [5, 256, 512] block, extent [1, 256, 512]. -/
theorem idx_r0_15 (a : Fin 1) (b : Fin 256) (c : Fin 512) :
    r0_15.idx (ix3 a b c) = ix3 (1 : Fin 5) b c := by
  funext d
  apply Fin.ext
  match d with
  | ⟨0, _⟩ => show 1 + 1 * a.val = 1; omega
  | ⟨1, _⟩ => show 0 + 1 * b.val = b.val; omega
  | ⟨2, _⟩ => show 0 + 1 * c.val = c.val; omega

/-- Rectangle 16: offset (1, 0) in a [5, 512] block, extent [1, 512]. -/
theorem idx_r0_16 (a : Fin 1) (b : Fin 512) :
    r0_16.idx (ix2 a b) = ix2 (1 : Fin 5) b := by
  funext d
  apply Fin.ext
  match d with
  | ⟨0, _⟩ => show 1 + 1 * a.val = 1; omega
  | ⟨1, _⟩ => show 0 + 1 * b.val = b.val; omega

/-- Rectangle 17: offset (2, 0, 0) in a [5, 1024, 128] block, extent [1, 1024, 128]. -/
theorem idx_r0_17 (a : Fin 1) (b : Fin 1024) (c : Fin 128) :
    r0_17.idx (ix3 a b c) = ix3 (2 : Fin 5) b c := by
  funext d
  apply Fin.ext
  match d with
  | ⟨0, _⟩ => show 2 + 1 * a.val = 2; omega
  | ⟨1, _⟩ => show 0 + 1 * b.val = b.val; omega
  | ⟨2, _⟩ => show 0 + 1 * c.val = c.val; omega

/-- Rectangle 18: offset (2, 0, 0) in a [5, 128, 256] block, extent [1, 128, 256]. -/
theorem idx_r0_18 (a : Fin 1) (b : Fin 128) (c : Fin 256) :
    r0_18.idx (ix3 a b c) = ix3 (2 : Fin 5) b c := by
  funext d
  apply Fin.ext
  match d with
  | ⟨0, _⟩ => show 2 + 1 * a.val = 2; omega
  | ⟨1, _⟩ => show 0 + 1 * b.val = b.val; omega
  | ⟨2, _⟩ => show 0 + 1 * c.val = c.val; omega

/-- Rectangle 19: offset (2, 0) in a [5, 256] block, extent [1, 256]. -/
theorem idx_r0_19 (a : Fin 1) (b : Fin 256) :
    r0_19.idx (ix2 a b) = ix2 (2 : Fin 5) b := by
  funext d
  apply Fin.ext
  match d with
  | ⟨0, _⟩ => show 2 + 1 * a.val = 2; omega
  | ⟨1, _⟩ => show 0 + 1 * b.val = b.val; omega

/-- Rectangle 20: offset (2, 0, 0) in a [5, 1024, 256] block, extent [1, 1024, 256]. -/
theorem idx_r0_20 (a : Fin 1) (b : Fin 1024) (c : Fin 256) :
    r0_20.idx (ix3 a b c) = ix3 (2 : Fin 5) b c := by
  funext d
  apply Fin.ext
  match d with
  | ⟨0, _⟩ => show 2 + 1 * a.val = 2; omega
  | ⟨1, _⟩ => show 0 + 1 * b.val = b.val; omega
  | ⟨2, _⟩ => show 0 + 1 * c.val = c.val; omega

/-- Rectangle 21: offset (2, 0, 0) in a [5, 256, 512] block, extent [1, 256, 512]. -/
theorem idx_r0_21 (a : Fin 1) (b : Fin 256) (c : Fin 512) :
    r0_21.idx (ix3 a b c) = ix3 (2 : Fin 5) b c := by
  funext d
  apply Fin.ext
  match d with
  | ⟨0, _⟩ => show 2 + 1 * a.val = 2; omega
  | ⟨1, _⟩ => show 0 + 1 * b.val = b.val; omega
  | ⟨2, _⟩ => show 0 + 1 * c.val = c.val; omega

/-- Rectangle 22: offset (2, 0) in a [5, 512] block, extent [1, 512]. -/
theorem idx_r0_22 (a : Fin 1) (b : Fin 512) :
    r0_22.idx (ix2 a b) = ix2 (2 : Fin 5) b := by
  funext d
  apply Fin.ext
  match d with
  | ⟨0, _⟩ => show 2 + 1 * a.val = 2; omega
  | ⟨1, _⟩ => show 0 + 1 * b.val = b.val; omega

/-- Rectangle 23: offset (3, 0, 0) in a [5, 1024, 128] block, extent [1, 1024, 128]. -/
theorem idx_r0_23 (a : Fin 1) (b : Fin 1024) (c : Fin 128) :
    r0_23.idx (ix3 a b c) = ix3 (3 : Fin 5) b c := by
  funext d
  apply Fin.ext
  match d with
  | ⟨0, _⟩ => show 3 + 1 * a.val = 3; omega
  | ⟨1, _⟩ => show 0 + 1 * b.val = b.val; omega
  | ⟨2, _⟩ => show 0 + 1 * c.val = c.val; omega

/-- Rectangle 24: offset (3, 0, 0) in a [5, 128, 256] block, extent [1, 128, 256]. -/
theorem idx_r0_24 (a : Fin 1) (b : Fin 128) (c : Fin 256) :
    r0_24.idx (ix3 a b c) = ix3 (3 : Fin 5) b c := by
  funext d
  apply Fin.ext
  match d with
  | ⟨0, _⟩ => show 3 + 1 * a.val = 3; omega
  | ⟨1, _⟩ => show 0 + 1 * b.val = b.val; omega
  | ⟨2, _⟩ => show 0 + 1 * c.val = c.val; omega

/-- Rectangle 25: offset (3, 0) in a [5, 256] block, extent [1, 256]. -/
theorem idx_r0_25 (a : Fin 1) (b : Fin 256) :
    r0_25.idx (ix2 a b) = ix2 (3 : Fin 5) b := by
  funext d
  apply Fin.ext
  match d with
  | ⟨0, _⟩ => show 3 + 1 * a.val = 3; omega
  | ⟨1, _⟩ => show 0 + 1 * b.val = b.val; omega

/-- Rectangle 26: offset (3, 0, 0) in a [5, 1024, 256] block, extent [1, 1024, 256]. -/
theorem idx_r0_26 (a : Fin 1) (b : Fin 1024) (c : Fin 256) :
    r0_26.idx (ix3 a b c) = ix3 (3 : Fin 5) b c := by
  funext d
  apply Fin.ext
  match d with
  | ⟨0, _⟩ => show 3 + 1 * a.val = 3; omega
  | ⟨1, _⟩ => show 0 + 1 * b.val = b.val; omega
  | ⟨2, _⟩ => show 0 + 1 * c.val = c.val; omega

/-- Rectangle 27: offset (3, 0, 0) in a [5, 256, 512] block, extent [1, 256, 512]. -/
theorem idx_r0_27 (a : Fin 1) (b : Fin 256) (c : Fin 512) :
    r0_27.idx (ix3 a b c) = ix3 (3 : Fin 5) b c := by
  funext d
  apply Fin.ext
  match d with
  | ⟨0, _⟩ => show 3 + 1 * a.val = 3; omega
  | ⟨1, _⟩ => show 0 + 1 * b.val = b.val; omega
  | ⟨2, _⟩ => show 0 + 1 * c.val = c.val; omega

/-- Rectangle 28: offset (3, 0) in a [5, 512] block, extent [1, 512]. -/
theorem idx_r0_28 (a : Fin 1) (b : Fin 512) :
    r0_28.idx (ix2 a b) = ix2 (3 : Fin 5) b := by
  funext d
  apply Fin.ext
  match d with
  | ⟨0, _⟩ => show 3 + 1 * a.val = 3; omega
  | ⟨1, _⟩ => show 0 + 1 * b.val = b.val; omega

/-- Rectangle 29: offset (4, 0, 0) in a [5, 1024, 128] block, extent [1, 1024, 128]. -/
theorem idx_r0_29 (a : Fin 1) (b : Fin 1024) (c : Fin 128) :
    r0_29.idx (ix3 a b c) = ix3 (4 : Fin 5) b c := by
  funext d
  apply Fin.ext
  match d with
  | ⟨0, _⟩ => show 4 + 1 * a.val = 4; omega
  | ⟨1, _⟩ => show 0 + 1 * b.val = b.val; omega
  | ⟨2, _⟩ => show 0 + 1 * c.val = c.val; omega

/-- Rectangle 30: offset (4, 0, 0) in a [5, 128, 256] block, extent [1, 128, 256]. -/
theorem idx_r0_30 (a : Fin 1) (b : Fin 128) (c : Fin 256) :
    r0_30.idx (ix3 a b c) = ix3 (4 : Fin 5) b c := by
  funext d
  apply Fin.ext
  match d with
  | ⟨0, _⟩ => show 4 + 1 * a.val = 4; omega
  | ⟨1, _⟩ => show 0 + 1 * b.val = b.val; omega
  | ⟨2, _⟩ => show 0 + 1 * c.val = c.val; omega

/-- Rectangle 31: offset (4, 0) in a [5, 256] block, extent [1, 256]. -/
theorem idx_r0_31 (a : Fin 1) (b : Fin 256) :
    r0_31.idx (ix2 a b) = ix2 (4 : Fin 5) b := by
  funext d
  apply Fin.ext
  match d with
  | ⟨0, _⟩ => show 4 + 1 * a.val = 4; omega
  | ⟨1, _⟩ => show 0 + 1 * b.val = b.val; omega

/-- Rectangle 32: offset (4, 0, 0) in a [5, 1024, 256] block, extent [1, 1024, 256]. -/
theorem idx_r0_32 (a : Fin 1) (b : Fin 1024) (c : Fin 256) :
    r0_32.idx (ix3 a b c) = ix3 (4 : Fin 5) b c := by
  funext d
  apply Fin.ext
  match d with
  | ⟨0, _⟩ => show 4 + 1 * a.val = 4; omega
  | ⟨1, _⟩ => show 0 + 1 * b.val = b.val; omega
  | ⟨2, _⟩ => show 0 + 1 * c.val = c.val; omega

/-- Rectangle 33: offset (4, 0, 0) in a [5, 256, 512] block, extent [1, 256, 512]. -/
theorem idx_r0_33 (a : Fin 1) (b : Fin 256) (c : Fin 512) :
    r0_33.idx (ix3 a b c) = ix3 (4 : Fin 5) b c := by
  funext d
  apply Fin.ext
  match d with
  | ⟨0, _⟩ => show 4 + 1 * a.val = 4; omega
  | ⟨1, _⟩ => show 0 + 1 * b.val = b.val; omega
  | ⟨2, _⟩ => show 0 + 1 * c.val = c.val; omega

/-- Rectangle 34: offset (4, 0) in a [5, 512] block, extent [1, 512]. -/
theorem idx_r0_34 (a : Fin 1) (b : Fin 512) :
    r0_34.idx (ix2 a b) = ix2 (4 : Fin 5) b := by
  funext d
  apply Fin.ext
  match d with
  | ⟨0, _⟩ => show 4 + 1 * a.val = 4; omega
  | ⟨1, _⟩ => show 0 + 1 * b.val = b.val; omega

end Cert.Hrhn.Kern

end
-- ==== Proof.KernelBlock.lean ====
/-
  What the kernel body leaves in its three output blocks, for a block of 1024 batch rows.

  Each store's value, read at (row p, unit), is the row function of the specification at the batch row p of the staged
  state blocks and the staged weights: layer by layer the hyper state, from it the modulation, from that the network
  state. The stores of a window tile its block, one layer each, so the block is the specification's array over the
  staged blocks.
-/
import proofs.«139043_j64879775973862_2_alg».proof.Proof.Gen.KernelIdeal.Frame
import proofs.«139043_j64879775973862_2_alg».proof.Proof.Arrays
import proofs.«139043_j64879775973862_2_alg».proof.Proof.KernelWeights
import proofs.«139043_j64879775973862_2_alg».proof.Proof.KernelOps
import proofs.«139043_j64879775973862_2_alg».proof.Proof.KernelLoads

noncomputable section

namespace Cert.Hrhn.Kern

open Idealize.ShloMosaic Idealize.ShloMosaic.ValueIdx Cert.KernelIdeal Cert.KernelIdeal.Gen

variable (x0 : Vec Ideal S1024x256 .f32) (x1 : Vec Ideal S5x1024x128 .f32) (x2 : Vec Ideal S5x1024x256 .f32)
  (x3 : Vec Ideal S256x256 .bf16) (x4 : Vec Ideal S1x256 .f32) (x5 : Vec Ideal S5x128x256 .bf16)
  (x6 : Vec Ideal S5x256 .f32) (x7 : Vec Ideal S256x512 .bf16) (x8 : Vec Ideal S1x512 .f32)
  (x9 : Vec Ideal S5x256x512 .bf16) (x10 : Vec Ideal S5x512 .f32) (x11 : Vec Ideal S5x128x256 .bf16)
  (x12 : Vec Ideal S5x256 .f32)

local notation "𝓦" => wBlk x3 x4 x5 x6 x7 x8 x9 x10 x11 x12
local notation "𝓡" p => rowOf (R := 1024) x0 x1 x2 p

/-! ## Layer 0 (the layer that also takes the input projections) -/

/-- The input projection of the network cell at (p, c). -/
theorem inpN0 (p : Fin 1024) (c : Fin 512) :
    k0_pay4 (F := Ideal) (View.ld x0 r0_0) (View.ld x7 r0_3) (View.ld x8 r0_4) (ix2 p c) = inpN 𝓦 (𝓡 p) c := by
  simp only [k0_pay4, k0_pay3, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem hyper0 (p : Fin 1024) (j : Fin 128) :
    k0_pay5 (F := Ideal) (View.ld x0 r0_0) (View.ld x3 r0_1) (View.ld x4 r0_2) (View.ld x1 r0_5) (View.ld x5 r0_6) (View.ld x6 r0_7) (ix2 p j) = sH 𝓦 (𝓡 p) 0 j := by
  simp only [k0_pay5, k0_pay3, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem net0 (p : Fin 1024) (c : Fin 256) :
    k0_pay7 (F := Ideal) (k0_pay4 (View.ld x0 r0_0) (View.ld x7 r0_3) (View.ld x8 r0_4)) (k0_pay5 (View.ld x0 r0_0) (View.ld x3 r0_1) (View.ld x4 r0_2) (View.ld x1 r0_5) (View.ld x5 r0_6) (View.ld x6 r0_7)) (View.ld x11 r0_6) (View.ld x12 r0_7) (View.ld x2 r0_8) (View.ld x9 r0_9) (View.ld x10 r0_10) (ix2 p c) = sN 𝓦 (𝓡 p) 0 c := by
  simp only [k0_pay7, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, inpN0 x0 x1 x2 x3 x4 x5 x6 x7 x8 x9 x10 x11 x12, hyper0 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

/-! ## Layer 1 -/

theorem hyper1 (p : Fin 1024) (j : Fin 128) :
    k0_pay9 (F := Ideal) (View.ld x1 r0_11) (View.ld x5 r0_12) (View.ld x6 r0_13) (ix2 p j) = sH 𝓦 (𝓡 p) 1 j := by
  simp only [k0_pay9, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem zup1 (p : Fin 1024) (c : Fin 256) :
    k0_pay11 (F := Ideal) (View.ld x1 r0_11) (View.ld x5 r0_12) (View.ld x6 r0_13) (View.ld x11 r0_12) (View.ld x12 r0_13) (ix2 p c) = zup 𝓦 (𝓡 p) 1 c := by
  simp only [k0_pay11, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, hyper1 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem net1 (u : Fin 1) (p : Fin 1024) (c : Fin 256) :
    k0_pay12 (F := Ideal) (k0_pay11 (View.ld x1 r0_11) (View.ld x5 r0_12) (View.ld x6 r0_13) (View.ld x11 r0_12) (View.ld x12 r0_13)) (View.ld x2 r0_14) (View.ld x9 r0_15) (View.ld x10 r0_16) (ix3 u p c) = sN 𝓦 (𝓡 p) 1 c := by
  simp only [k0_pay12, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, zup1 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

/-! ## Layer 2 -/

theorem hyper2 (p : Fin 1024) (j : Fin 128) :
    k0_pay17 (F := Ideal) (k0_pay13 (View.ld x1 r0_17)) (k0_pay15 (View.ld x1 r0_17) (View.ld x5 r0_18) (View.ld x6 r0_19)) (k0_pay16 (View.ld x1 r0_17) (View.ld x5 r0_18) (View.ld x6 r0_19)) (ix2 p j) = sH 𝓦 (𝓡 p) 2 j := by
  simp only [k0_pay17, k0_pay13, k0_pay14, k0_pay15, k0_pay16, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem net2 (p : Fin 1024) (c : Fin 256) :
    k0_pay19 (F := Ideal) (k0_pay13 (View.ld x1 r0_17)) (k0_pay15 (View.ld x1 r0_17) (View.ld x5 r0_18) (View.ld x6 r0_19)) (k0_pay16 (View.ld x1 r0_17) (View.ld x5 r0_18) (View.ld x6 r0_19)) (View.ld x11 r0_18) (View.ld x12 r0_19) (View.ld x2 r0_20) (View.ld x9 r0_21) (View.ld x10 r0_22) (ix2 p c) = sN 𝓦 (𝓡 p) 2 c := by
  simp only [k0_pay19, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, hyper2 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

/-! ## Layer 3 -/

theorem hyper3 (p : Fin 1024) (j : Fin 128) :
    k0_pay21 (F := Ideal) (View.ld x1 r0_23) (View.ld x5 r0_24) (View.ld x6 r0_25) (ix2 p j) = sH 𝓦 (𝓡 p) 3 j := by
  simp only [k0_pay21, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem zup3 (p : Fin 1024) (c : Fin 256) :
    k0_pay23 (F := Ideal) (View.ld x1 r0_23) (View.ld x5 r0_24) (View.ld x6 r0_25) (View.ld x11 r0_24) (View.ld x12 r0_25) (ix2 p c) = zup 𝓦 (𝓡 p) 3 c := by
  simp only [k0_pay23, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, hyper3 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem net3 (u : Fin 1) (p : Fin 1024) (c : Fin 256) :
    k0_pay24 (F := Ideal) (k0_pay23 (View.ld x1 r0_23) (View.ld x5 r0_24) (View.ld x6 r0_25) (View.ld x11 r0_24) (View.ld x12 r0_25)) (View.ld x2 r0_26) (View.ld x9 r0_27) (View.ld x10 r0_28) (ix3 u p c) = sN 𝓦 (𝓡 p) 3 c := by
  simp only [k0_pay24, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, zup3 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

/-! ## Layer 4 -/

theorem hyper4 (p : Fin 1024) (j : Fin 128) :
    k0_pay28 (F := Ideal) (k0_pay25 (View.ld x1 r0_29)) (k0_pay26 (View.ld x1 r0_29) (View.ld x5 r0_30) (View.ld x6 r0_31)) (k0_pay27 (View.ld x1 r0_29) (View.ld x5 r0_30) (View.ld x6 r0_31)) (ix2 p j) = sH 𝓦 (𝓡 p) 4 j := by
  simp only [k0_pay28, k0_pay25, k0_pay26, k0_pay27, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem zup4 (p : Fin 1024) (c : Fin 256) :
    k0_pay30 (F := Ideal) (k0_pay25 (View.ld x1 r0_29)) (k0_pay26 (View.ld x1 r0_29) (View.ld x5 r0_30) (View.ld x6 r0_31)) (k0_pay27 (View.ld x1 r0_29) (View.ld x5 r0_30) (View.ld x6 r0_31)) (View.ld x11 r0_30) (View.ld x12 r0_31) (ix2 p c) = zup 𝓦 (𝓡 p) 4 c := by
  simp only [k0_pay30, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, hyper4 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

theorem net4 (p : Fin 1024) (c : Fin 256) :
    k0_pay1 (F := Ideal) (k0_pay31 (View.ld x2 r0_32)) (k0_pay34 (k0_pay25 (View.ld x1 r0_29)) (k0_pay26 (View.ld x1 r0_29) (View.ld x5 r0_30) (View.ld x6 r0_31)) (k0_pay27 (View.ld x1 r0_29) (View.ld x5 r0_30) (View.ld x6 r0_31)) (View.ld x11 r0_30) (View.ld x12 r0_31) (View.ld x2 r0_32) (View.ld x9 r0_33) (View.ld x10 r0_34)) (k0_pay35 (k0_pay25 (View.ld x1 r0_29)) (k0_pay26 (View.ld x1 r0_29) (View.ld x5 r0_30) (View.ld x6 r0_31)) (k0_pay27 (View.ld x1 r0_29) (View.ld x5 r0_30) (View.ld x6 r0_31)) (View.ld x11 r0_30) (View.ld x12 r0_31) (View.ld x2 r0_32) (View.ld x9 r0_33) (View.ld x10 r0_34)) (ix2 p c) = sN 𝓦 (𝓡 p) 4 c := by
  simp only [k0_pay1, k0_pay31, k0_pay32, k0_pay33, k0_pay34, k0_pay35, addf_apply, mulf_apply, subf_apply, truncf_apply, broadcast_apply, Kern.tanh_apply, Kern.logistic_apply,
    Kern.matmul_256_256, Kern.matmul_256_512, Kern.matmul_128_256, Kern.slice_lo128, Kern.slice_hi128, Kern.slice_lo256, Kern.slice_hi256,
    shapeCast_1ab_ab_apply, shapeCast_ab_1ab_apply, shapeCast_1a_a_apply, shapeCast_a_1a_apply, shapeCast_self, broadcastTo_1b_ab_apply, zup4 x0 x1 x2 x3 x4 x5 x6 x7 x8 x9 x10 x11 x12]
  simp only [View.ld, idx_r0_0, idx_r0_1, idx_r0_2, idx_r0_3, idx_r0_4, idx_r0_5, idx_r0_6, idx_r0_7, idx_r0_8, idx_r0_9, idx_r0_10, idx_r0_11, idx_r0_12, idx_r0_13, idx_r0_14, idx_r0_15, idx_r0_16, idx_r0_17, idx_r0_18, idx_r0_19, idx_r0_20, idx_r0_21, idx_r0_22, idx_r0_23, idx_r0_24, idx_r0_25, idx_r0_26, idx_r0_27, idx_r0_28, idx_r0_29, idx_r0_30, idx_r0_31, idx_r0_32, idx_r0_33, idx_r0_34]
  rfl

/-! ## The stores, one layer each -/

theorem piece14_0 (u : Fin 1) (p : Fin 1024) (j : Fin 128) : k0_pay6 (F := Ideal) (k0_pay5 (View.ld x0 r0_0) (View.ld x3 r0_1) (View.ld x4 r0_2) (View.ld x1 r0_5) (View.ld x5 r0_6) (View.ld x6 r0_7)) (ix3 u p j) = sH 𝓦 (𝓡 p) 0 j := by
  simp only [k0_pay6, shapeCast_ab_1ab_apply, hyper0 x0 x1 x2 x3 x4 x5 x6 x7 x8 x9 x10 x11 x12]
theorem piece14_1 (u : Fin 1) (p : Fin 1024) (j : Fin 128) : k0_pay10 (F := Ideal) (View.ld x1 r0_11) (View.ld x5 r0_12) (View.ld x6 r0_13) (ix3 u p j) = sH 𝓦 (𝓡 p) 1 j := by
  simp only [k0_pay10, shapeCast_ab_1ab_apply, hyper1 x0 x1 x2 x3 x4 x5 x6 x7 x8 x9 x10 x11 x12]
theorem piece14_2 (u : Fin 1) (p : Fin 1024) (j : Fin 128) : k0_pay18 (F := Ideal) (k0_pay13 (View.ld x1 r0_17)) (k0_pay15 (View.ld x1 r0_17) (View.ld x5 r0_18) (View.ld x6 r0_19)) (k0_pay16 (View.ld x1 r0_17) (View.ld x5 r0_18) (View.ld x6 r0_19)) (ix3 u p j) = sH 𝓦 (𝓡 p) 2 j := by
  simp only [k0_pay18, shapeCast_ab_1ab_apply, hyper2 x0 x1 x2 x3 x4 x5 x6 x7 x8 x9 x10 x11 x12]
theorem piece14_3 (u : Fin 1) (p : Fin 1024) (j : Fin 128) : k0_pay22 (F := Ideal) (View.ld x1 r0_23) (View.ld x5 r0_24) (View.ld x6 r0_25) (ix3 u p j) = sH 𝓦 (𝓡 p) 3 j := by
  simp only [k0_pay22, shapeCast_ab_1ab_apply, hyper3 x0 x1 x2 x3 x4 x5 x6 x7 x8 x9 x10 x11 x12]
theorem piece14_4 (u : Fin 1) (p : Fin 1024) (j : Fin 128) : k0_pay29 (F := Ideal) (k0_pay25 (View.ld x1 r0_29)) (k0_pay26 (View.ld x1 r0_29) (View.ld x5 r0_30) (View.ld x6 r0_31)) (k0_pay27 (View.ld x1 r0_29) (View.ld x5 r0_30) (View.ld x6 r0_31)) (ix3 u p j) = sH 𝓦 (𝓡 p) 4 j := by
  simp only [k0_pay29, shapeCast_ab_1ab_apply, hyper4 x0 x1 x2 x3 x4 x5 x6 x7 x8 x9 x10 x11 x12]

theorem piece15_0 (u : Fin 1) (p : Fin 1024) (c : Fin 256) : k0_pay8 (F := Ideal) (k0_pay7 (k0_pay4 (View.ld x0 r0_0) (View.ld x7 r0_3) (View.ld x8 r0_4)) (k0_pay5 (View.ld x0 r0_0) (View.ld x3 r0_1) (View.ld x4 r0_2) (View.ld x1 r0_5) (View.ld x5 r0_6) (View.ld x6 r0_7)) (View.ld x11 r0_6) (View.ld x12 r0_7) (View.ld x2 r0_8) (View.ld x9 r0_9) (View.ld x10 r0_10)) (ix3 u p c) = sN 𝓦 (𝓡 p) 0 c := by
  simp only [k0_pay8, shapeCast_ab_1ab_apply, net0 x0 x1 x2 x3 x4 x5 x6 x7 x8 x9 x10 x11 x12]
theorem piece15_2 (u : Fin 1) (p : Fin 1024) (c : Fin 256) : k0_pay20 (F := Ideal) (k0_pay19 (k0_pay13 (View.ld x1 r0_17)) (k0_pay15 (View.ld x1 r0_17) (View.ld x5 r0_18) (View.ld x6 r0_19)) (k0_pay16 (View.ld x1 r0_17) (View.ld x5 r0_18) (View.ld x6 r0_19)) (View.ld x11 r0_18) (View.ld x12 r0_19) (View.ld x2 r0_20) (View.ld x9 r0_21) (View.ld x10 r0_22)) (ix3 u p c) = sN 𝓦 (𝓡 p) 2 c := by
  simp only [k0_pay20, shapeCast_ab_1ab_apply, net2 x0 x1 x2 x3 x4 x5 x6 x7 x8 x9 x10 x11 x12]
theorem piece15_4 (u : Fin 1) (p : Fin 1024) (c : Fin 256) : k0_pay2 (F := Ideal) (k0_pay31 (View.ld x2 r0_32)) (k0_pay34 (k0_pay25 (View.ld x1 r0_29)) (k0_pay26 (View.ld x1 r0_29) (View.ld x5 r0_30) (View.ld x6 r0_31)) (k0_pay27 (View.ld x1 r0_29) (View.ld x5 r0_30) (View.ld x6 r0_31)) (View.ld x11 r0_30) (View.ld x12 r0_31) (View.ld x2 r0_32) (View.ld x9 r0_33) (View.ld x10 r0_34)) (k0_pay35 (k0_pay25 (View.ld x1 r0_29)) (k0_pay26 (View.ld x1 r0_29) (View.ld x5 r0_30) (View.ld x6 r0_31)) (k0_pay27 (View.ld x1 r0_29) (View.ld x5 r0_30) (View.ld x6 r0_31)) (View.ld x11 r0_30) (View.ld x12 r0_31) (View.ld x2 r0_32) (View.ld x9 r0_33) (View.ld x10 r0_34)) (ix3 u p c) = sN 𝓦 (𝓡 p) 4 c := by
  simp only [k0_pay2, shapeCast_ab_1ab_apply, net4 x0 x1 x2 x3 x4 x5 x6 x7 x8 x9 x10 x11 x12]

/-! ## The three output blocks -/

/-- The hyper-state block: its five stores, one layer each, are the specification's array over the staged blocks. -/
theorem out14_eq : out0_14 (F := Ideal) x0 x1 x2 x3 x4 x5 x6 x7 x8 x9 x10 x11 x12 = outSH 𝓦 x0 x1 x2 := by
  funext y
  unfold out0_14
  refine View.canon_apply_of_pieces (Val := Elt Ideal) (outSH 𝓦 x0 x1 x2) _ ?_ y (cover0_14 _ _ _ _ _ y)
  intro q hq x
  simp only [List.mem_cons, List.not_mem_nil, or_false] at hq
  rcases hq with rfl | rfl | rfl | rfl | rfl
  · obtain ⟨u, p, j, rfl⟩ : ∃ (u : Fin 1) (p : Fin 1024) (j : Fin 128), x = ix3 u p j := ⟨x 0, x 1, x 2, eq_ix3 x⟩
    show _ = outSH 𝓦 x0 x1 x2 (r0_29.idx (ix3 u p j))
    rw [idx_r0_29, outSH_apply]; exact piece14_4 x0 x1 x2 x3 x4 x5 x6 x7 x8 x9 x10 x11 x12 u p j
  · obtain ⟨u, p, j, rfl⟩ : ∃ (u : Fin 1) (p : Fin 1024) (j : Fin 128), x = ix3 u p j := ⟨x 0, x 1, x 2, eq_ix3 x⟩
    show _ = outSH 𝓦 x0 x1 x2 (r0_23.idx (ix3 u p j))
    rw [idx_r0_23, outSH_apply]; exact piece14_3 x0 x1 x2 x3 x4 x5 x6 x7 x8 x9 x10 x11 x12 u p j
  · obtain ⟨u, p, j, rfl⟩ : ∃ (u : Fin 1) (p : Fin 1024) (j : Fin 128), x = ix3 u p j := ⟨x 0, x 1, x 2, eq_ix3 x⟩
    show _ = outSH 𝓦 x0 x1 x2 (r0_17.idx (ix3 u p j))
    rw [idx_r0_17, outSH_apply]; exact piece14_2 x0 x1 x2 x3 x4 x5 x6 x7 x8 x9 x10 x11 x12 u p j
  · obtain ⟨u, p, j, rfl⟩ : ∃ (u : Fin 1) (p : Fin 1024) (j : Fin 128), x = ix3 u p j := ⟨x 0, x 1, x 2, eq_ix3 x⟩
    show _ = outSH 𝓦 x0 x1 x2 (r0_11.idx (ix3 u p j))
    rw [idx_r0_11, outSH_apply]; exact piece14_1 x0 x1 x2 x3 x4 x5 x6 x7 x8 x9 x10 x11 x12 u p j
  · obtain ⟨u, p, j, rfl⟩ : ∃ (u : Fin 1) (p : Fin 1024) (j : Fin 128), x = ix3 u p j := ⟨x 0, x 1, x 2, eq_ix3 x⟩
    show _ = outSH 𝓦 x0 x1 x2 (r0_5.idx (ix3 u p j))
    rw [idx_r0_5, outSH_apply]; exact piece14_0 x0 x1 x2 x3 x4 x5 x6 x7 x8 x9 x10 x11 x12 u p j

/-- The network-state block, likewise. -/
theorem out15_eq : out0_15 (F := Ideal) x0 x1 x2 x3 x4 x5 x6 x7 x8 x9 x10 x11 x12 = outSN 𝓦 x0 x1 x2 := by
  funext y
  unfold out0_15
  refine View.canon_apply_of_pieces (Val := Elt Ideal) (outSN 𝓦 x0 x1 x2) _ ?_ y (cover0_15 _ _ _ _ _ y)
  intro q hq x
  simp only [List.mem_cons, List.not_mem_nil, or_false] at hq
  rcases hq with rfl | rfl | rfl | rfl | rfl
  · obtain ⟨u, p, c, rfl⟩ : ∃ (u : Fin 1) (p : Fin 1024) (c : Fin 256), x = ix3 u p c := ⟨x 0, x 1, x 2, eq_ix3 x⟩
    show _ = outSN 𝓦 x0 x1 x2 (r0_32.idx (ix3 u p c))
    rw [idx_r0_32, outSN_apply]; exact piece15_4 x0 x1 x2 x3 x4 x5 x6 x7 x8 x9 x10 x11 x12 u p c
  · obtain ⟨u, p, c, rfl⟩ : ∃ (u : Fin 1) (p : Fin 1024) (c : Fin 256), x = ix3 u p c := ⟨x 0, x 1, x 2, eq_ix3 x⟩
    show _ = outSN 𝓦 x0 x1 x2 (r0_26.idx (ix3 u p c))
    rw [idx_r0_26, outSN_apply]; exact net3 x0 x1 x2 x3 x4 x5 x6 x7 x8 x9 x10 x11 x12 u p c
  · obtain ⟨u, p, c, rfl⟩ : ∃ (u : Fin 1) (p : Fin 1024) (c : Fin 256), x = ix3 u p c := ⟨x 0, x 1, x 2, eq_ix3 x⟩
    show _ = outSN 𝓦 x0 x1 x2 (r0_20.idx (ix3 u p c))
    rw [idx_r0_20, outSN_apply]; exact piece15_2 x0 x1 x2 x3 x4 x5 x6 x7 x8 x9 x10 x11 x12 u p c
  · obtain ⟨u, p, c, rfl⟩ : ∃ (u : Fin 1) (p : Fin 1024) (c : Fin 256), x = ix3 u p c := ⟨x 0, x 1, x 2, eq_ix3 x⟩
    show _ = outSN 𝓦 x0 x1 x2 (r0_14.idx (ix3 u p c))
    rw [idx_r0_14, outSN_apply]; exact net1 x0 x1 x2 x3 x4 x5 x6 x7 x8 x9 x10 x11 x12 u p c
  · obtain ⟨u, p, c, rfl⟩ : ∃ (u : Fin 1) (p : Fin 1024) (c : Fin 256), x = ix3 u p c := ⟨x 0, x 1, x 2, eq_ix3 x⟩
    show _ = outSN 𝓦 x0 x1 x2 (r0_8.idx (ix3 u p c))
    rw [idx_r0_8, outSN_apply]; exact piece15_0 x0 x1 x2 x3 x4 x5 x6 x7 x8 x9 x10 x11 x12 u p c

/-- The last layer's network-state block: one store of the whole block. -/
theorem out13_eq : out0_13 (F := Ideal) x0 x1 x2 x3 x4 x5 x6 x7 x8 x9 x10 x11 x12 = outLast 𝓦 x0 x1 x2 := by
  funext y
  unfold out0_13
  refine View.canon_apply_of_pieces (Val := Elt Ideal) (outLast 𝓦 x0 x1 x2) _ ?_ y (cover0_13 _ y)
  intro q hq x
  simp only [List.mem_cons, List.not_mem_nil, or_false] at hq
  subst hq
  obtain ⟨p, c, rfl⟩ : ∃ (p : Fin 1024) (c : Fin 256), x = ix2 p c := ⟨x 0, x 1, eq_ix2 x⟩
  show _ = outLast 𝓦 x0 x1 x2 (r0_0.idx (ix2 p c))
  rw [idx_r0_0, outLast_apply]; exact net4 x0 x1 x2 x3 x4 x5 x6 x7 x8 x9 x10 x11 x12 p c

end Cert.Hrhn.Kern

end
-- ==== Proof.KernelArray.lean ====
/-
  From the kernel's blocks to its arrays.

  The grid has 32 points. Point t stages rows 1024 t .. 1024 t + 1023 of the three state arrays and the ten weight
  arrays whole (five of them after a change of float format, the identity at exact arithmetic; two bias vectors as
  one row), and writes back rows 1024 t .. 1024 t + 1023 of the three results. Given that what the body leaves in
  an output block is the row functions of the staged weights at the staged rows (the three block equalities, a
  hypothesis here), each result array ends holding the row functions of the ARGUMENT arrays: the staged weights
  are the arguments' weights, staged row p at point t is batch row 1024 t + p, and the blocks of the 32 points
  cover every row (row r lies in the blocks of point r / 1024).
-/
import proofs.«139043_j64879775973862_2_alg».proof.Proof.Gen.KernelIdeal.Value
import proofs.«139043_j64879775973862_2_alg».proof.Proof.KernelWeights
import proofs.«139043_j64879775973862_2_alg».proof.Proof.Arrays
import Idealize.ShloMosaic.Lib.Pipeline.Value
import Idealize.ShloMosaic.Lib.ValueLayout

noncomputable section

namespace Cert.Hrhn.KArr

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The index maps over the grid -/

/-- The x window sits at block row t. -/
theorem idx_w0 : ∀ t : Fin cfg0.N, win0_0.index t (0 : Fin 2) = t.val ∧ win0_0.index t (1 : Fin 2) = 0 :=
  (by decide +kernel : ∀ t : Fin grid0.N, _)
/-- The hyper-state window sits at block row t, all layers, all units. -/
theorem idx_w1 : ∀ t : Fin cfg0.N, win0_1.index t (0 : Fin 3) = 0 ∧ win0_1.index t (1 : Fin 3) = t.val
    ∧ win0_1.index t (2 : Fin 3) = 0 :=
  (by decide +kernel : ∀ t : Fin grid0.N, _)
/-- The network-state window sits at block row t, all layers, all units. -/
theorem idx_w2 : ∀ t : Fin cfg0.N, win0_2.index t (0 : Fin 3) = 0 ∧ win0_2.index t (1 : Fin 3) = t.val
    ∧ win0_2.index t (2 : Fin 3) = 0 :=
  (by decide +kernel : ∀ t : Fin grid0.N, _)
/-- Every weight window is its whole array at every point. -/
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 3) = 0 ∧ win0_5.index t (1 : Fin 3) = 0
    ∧ win0_5.index t (2 : Fin 3) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 3) = 0 ∧ win0_9.index t (1 : Fin 3) = 0
    ∧ win0_9.index t (2 : Fin 3) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 3) = 0 ∧ win0_11.index t (1 : Fin 3) = 0
    ∧ win0_11.index t (2 : Fin 3) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
/-- The three output windows sit at block row t. -/
theorem idx_w13 : ∀ t : Fin cfg0.N, win0_13.index t (0 : Fin 2) = t.val ∧ win0_13.index t (1 : Fin 2) = 0 :=
  (by decide +kernel : ∀ t : Fin grid0.N, _)
theorem idx_w14 : ∀ t : Fin cfg0.N, win0_14.index t (0 : Fin 3) = 0 ∧ win0_14.index t (1 : Fin 3) = t.val
    ∧ win0_14.index t (2 : Fin 3) = 0 :=
  (by decide +kernel : ∀ t : Fin grid0.N, _)
theorem idx_w15 : ∀ t : Fin cfg0.N, win0_15.index t (0 : Fin 3) = 0 ∧ win0_15.index t (1 : Fin 3) = t.val
    ∧ win0_15.index t (2 : Fin 3) = 0 :=
  (by decide +kernel : ∀ t : Fin grid0.N, _)

/-! ## The arrays the host wrote before the region

At exact arithmetic the change of float format is the identity, so the five converted weight arrays are the
arguments themselves; the two bias rows are the bias vectors with a unit axis in front. -/

theorem V_v0 (c : Dev nD) : (V m c main_v0 : S1x256.Idx → EReal)
    = shapeCast S1x256 (m ((c : Thread nD τ).loc main_arg4) : S256.Idx → EReal) shapeCasts_S256_S1x256 := by
  dsimp only [Gen.V, Gen.hostOps0]; after_results; rfl
theorem V_v1 (c : Dev nD) : (V m c main_v1 : S1x512.Idx → EReal)
    = shapeCast S1x512 (m ((c : Thread nD τ).loc main_arg8) : S512.Idx → EReal) shapeCasts_S512_S1x512 := by
  dsimp only [Gen.V, Gen.hostOps0]; after_results; rfl
theorem V_v2 (c : Dev nD) : (V m c main_v2 : S256x256.Idx → EReal) = m ((c : Thread nD τ).loc main_arg3) := by
  dsimp only [Gen.V, Gen.hostOps0]; after_results; rfl
theorem V_v3 (c : Dev nD) : (V m c main_v3 : S5x128x256.Idx → EReal) = m ((c : Thread nD τ).loc main_arg5) := by
  dsimp only [Gen.V, Gen.hostOps0]; after_results; rfl
theorem V_v4 (c : Dev nD) : (V m c main_v4 : S256x512.Idx → EReal) = m ((c : Thread nD τ).loc main_arg7) := by
  dsimp only [Gen.V, Gen.hostOps0]; after_results; rfl
theorem V_v5 (c : Dev nD) : (V m c main_v5 : S5x256x512.Idx → EReal) = m ((c : Thread nD τ).loc main_arg9) := by
  dsimp only [Gen.V, Gen.hostOps0]; after_results; rfl
theorem V_v6 (c : Dev nD) : (V m c main_v6 : S5x128x256.Idx → EReal) = m ((c : Thread nD τ).loc main_arg11) := by
  dsimp only [Gen.V, Gen.hostOps0]; after_results; rfl

/-! ## The staged blocks, entry by entry

A block's entry sits in its array, on each axis, at the block index times the block's size plus the entry's own
coordinate. The three row windows move with the point; every weight window is its whole array. -/

/-- Row p of the x block at point t is row 1024 t + p of x. -/
theorem iblk0_apply (c : Dev nD) (t : Fin cfg0.N) (p : Fin 1024) (k : Fin 256) (P : Fin 32768)
    (hP : P.val = 1024 * t.val + p.val) :
    (iblk m c 0 t : Vec Ideal S1024x256 .f32) (ix2 p k)
      = (m ((c : Thread nD τ).loc main_arg0) : S32768x256.Idx → EReal) (ix2 P k) := by
  obtain ⟨e0, e1⟩ := idx_w0 t
  unfold iblk
  rw [View.read_apply]
  show V m c main_arg0 _ = _
  rw [V_main_arg0]
  congr 1
  funext a
  apply Fin.ext
  match a with
  | ⟨0, _⟩ => show win0_0.index t (0 : Fin 2) * 1024 + 1 * p.val = P.val; rw [e0, hP]; omega
  | ⟨1, _⟩ => show win0_0.index t (1 : Fin 2) * 256 + 1 * k.val = k.val; rw [e1]; omega

/-- Row p of the hyper-state block at point t is row 1024 t + p of the hyper states, layer by layer. -/
theorem iblk1_apply (c : Dev nD) (t : Fin cfg0.N) (l : Fin 5) (p : Fin 1024) (k : Fin 128) (P : Fin 32768)
    (hP : P.val = 1024 * t.val + p.val) :
    (iblk m c 1 t : Vec Ideal S5x1024x128 .f32) (ix3 l p k)
      = (m ((c : Thread nD τ).loc main_arg1) : S5x32768x128.Idx → EReal) (ix3 l P k) := by
  obtain ⟨e0, e1, e2⟩ := idx_w1 t
  unfold iblk
  rw [View.read_apply]
  show V m c main_arg1 _ = _
  rw [V_main_arg1]
  congr 1
  funext a
  apply Fin.ext
  match a with
  | ⟨0, _⟩ => show win0_1.index t (0 : Fin 3) * 5 + 1 * l.val = l.val; rw [e0]; omega
  | ⟨1, _⟩ => show win0_1.index t (1 : Fin 3) * 1024 + 1 * p.val = P.val; rw [e1, hP]; omega
  | ⟨2, _⟩ => show win0_1.index t (2 : Fin 3) * 128 + 1 * k.val = k.val; rw [e2]; omega

/-- Row p of the network-state block at point t is row 1024 t + p of the network states, layer by layer. -/
theorem iblk2_apply (c : Dev nD) (t : Fin cfg0.N) (l : Fin 5) (p : Fin 1024) (k : Fin 256) (P : Fin 32768)
    (hP : P.val = 1024 * t.val + p.val) :
    (iblk m c 2 t : Vec Ideal S5x1024x256 .f32) (ix3 l p k)
      = (m ((c : Thread nD τ).loc main_arg2) : S5x32768x256.Idx → EReal) (ix3 l P k) := by
  obtain ⟨e0, e1, e2⟩ := idx_w2 t
  unfold iblk
  rw [View.read_apply]
  show V m c main_arg2 _ = _
  rw [V_main_arg2]
  congr 1
  funext a
  apply Fin.ext
  match a with
  | ⟨0, _⟩ => show win0_2.index t (0 : Fin 3) * 5 + 1 * l.val = l.val; rw [e0]; omega
  | ⟨1, _⟩ => show win0_2.index t (1 : Fin 3) * 1024 + 1 * p.val = P.val; rw [e1, hP]; omega
  | ⟨2, _⟩ => show win0_2.index t (2 : Fin 3) * 256 + 1 * k.val = k.val; rw [e2]; omega

/-- The staged input-projection weights of the hyper cell are the argument's. -/
theorem iblk3_apply (c : Dev nD) (t : Fin cfg0.N) (k : Fin 256) (j : Fin 256) :
    (iblk m c 3 t : Vec Ideal S256x256 .bf16) (ix2 k j)
      = (m ((c : Thread nD τ).loc main_arg3) : S256x256.Idx → EReal) (ix2 k j) := by
  obtain ⟨e0, e1⟩ := idx_w3 t
  unfold iblk
  rw [View.read_apply]
  show V m c main_v2 _ = _
  rw [V_v2]
  congr 1
  funext a
  apply Fin.ext
  match a with
  | ⟨0, _⟩ => show win0_3.index t (0 : Fin 2) * 256 + 1 * k.val = k.val; rw [e0]; omega
  | ⟨1, _⟩ => show win0_3.index t (1 : Fin 2) * 256 + 1 * j.val = j.val; rw [e1]; omega

/-- The staged input-projection bias row of the hyper cell is the argument's bias vector. -/
theorem iblk4_apply (c : Dev nD) (t : Fin cfg0.N) (u : Fin 1) (j : Fin 256) :
    (iblk m c 4 t : Vec Ideal S1x256 .f32) (ix2 u j)
      = (m ((c : Thread nD τ).loc main_arg4) : S256.Idx → EReal) (ix1 j) := by
  obtain ⟨e0, e1⟩ := idx_w4 t
  unfold iblk
  rw [View.read_apply]
  show V m c main_v0 _ = _
  rw [V_v0]
  refine Eq.trans (congrArg _ ?_) (shapeCast_a_1a_apply _ _ u j)
  funext a
  apply Fin.ext
  match a with
  | ⟨0, _⟩ => show win0_4.index t (0 : Fin 2) * 1 + 1 * u.val = u.val; rw [e0]; omega
  | ⟨1, _⟩ => show win0_4.index t (1 : Fin 2) * 256 + 1 * j.val = j.val; rw [e1]; omega

/-- The staged recurrent weights of the hyper cell are the argument's. -/
theorem iblk5_apply (c : Dev nD) (t : Fin cfg0.N) (l : Fin 5) (k : Fin 128) (j : Fin 256) :
    (iblk m c 5 t : Vec Ideal S5x128x256 .bf16) (ix3 l k j)
      = (m ((c : Thread nD τ).loc main_arg5) : S5x128x256.Idx → EReal) (ix3 l k j) := by
  obtain ⟨e0, e1, e2⟩ := idx_w5 t
  unfold iblk
  rw [View.read_apply]
  show V m c main_v3 _ = _
  rw [V_v3]
  congr 1
  funext a
  apply Fin.ext
  match a with
  | ⟨0, _⟩ => show win0_5.index t (0 : Fin 3) * 5 + 1 * l.val = l.val; rw [e0]; omega
  | ⟨1, _⟩ => show win0_5.index t (1 : Fin 3) * 128 + 1 * k.val = k.val; rw [e1]; omega
  | ⟨2, _⟩ => show win0_5.index t (2 : Fin 3) * 256 + 1 * j.val = j.val; rw [e2]; omega

/-- The staged recurrent biases of the hyper cell are the argument's. -/
theorem iblk6_apply (c : Dev nD) (t : Fin cfg0.N) (l : Fin 5) (j : Fin 256) :
    (iblk m c 6 t : Vec Ideal S5x256 .f32) (ix2 l j)
      = (m ((c : Thread nD τ).loc main_arg6) : S5x256.Idx → EReal) (ix2 l j) := by
  obtain ⟨e0, e1⟩ := idx_w6 t
  unfold iblk
  rw [View.read_apply]
  show V m c main_arg6 _ = _
  rw [V_main_arg6]
  congr 1
  funext a
  apply Fin.ext
  match a with
  | ⟨0, _⟩ => show win0_6.index t (0 : Fin 2) * 5 + 1 * l.val = l.val; rw [e0]; omega
  | ⟨1, _⟩ => show win0_6.index t (1 : Fin 2) * 256 + 1 * j.val = j.val; rw [e1]; omega

/-- The staged input-projection weights of the network cell are the argument's. -/
theorem iblk7_apply (c : Dev nD) (t : Fin cfg0.N) (k : Fin 256) (j : Fin 512) :
    (iblk m c 7 t : Vec Ideal S256x512 .bf16) (ix2 k j)
      = (m ((c : Thread nD τ).loc main_arg7) : S256x512.Idx → EReal) (ix2 k j) := by
  obtain ⟨e0, e1⟩ := idx_w7 t
  unfold iblk
  rw [View.read_apply]
  show V m c main_v4 _ = _
  rw [V_v4]
  congr 1
  funext a
  apply Fin.ext
  match a with
  | ⟨0, _⟩ => show win0_7.index t (0 : Fin 2) * 256 + 1 * k.val = k.val; rw [e0]; omega
  | ⟨1, _⟩ => show win0_7.index t (1 : Fin 2) * 512 + 1 * j.val = j.val; rw [e1]; omega

/-- The staged input-projection bias row of the network cell is the argument's bias vector. -/
theorem iblk8_apply (c : Dev nD) (t : Fin cfg0.N) (u : Fin 1) (j : Fin 512) :
    (iblk m c 8 t : Vec Ideal S1x512 .f32) (ix2 u j)
      = (m ((c : Thread nD τ).loc main_arg8) : S512.Idx → EReal) (ix1 j) := by
  obtain ⟨e0, e1⟩ := idx_w8 t
  unfold iblk
  rw [View.read_apply]
  show V m c main_v1 _ = _
  rw [V_v1]
  refine Eq.trans (congrArg _ ?_) (shapeCast_a_1a_apply _ _ u j)
  funext a
  apply Fin.ext
  match a with
  | ⟨0, _⟩ => show win0_8.index t (0 : Fin 2) * 1 + 1 * u.val = u.val; rw [e0]; omega
  | ⟨1, _⟩ => show win0_8.index t (1 : Fin 2) * 512 + 1 * j.val = j.val; rw [e1]; omega

/-- The staged recurrent weights of the network cell are the argument's. -/
theorem iblk9_apply (c : Dev nD) (t : Fin cfg0.N) (l : Fin 5) (k : Fin 256) (j : Fin 512) :
    (iblk m c 9 t : Vec Ideal S5x256x512 .bf16) (ix3 l k j)
      = (m ((c : Thread nD τ).loc main_arg9) : S5x256x512.Idx → EReal) (ix3 l k j) := by
  obtain ⟨e0, e1, e2⟩ := idx_w9 t
  unfold iblk
  rw [View.read_apply]
  show V m c main_v5 _ = _
  rw [V_v5]
  congr 1
  funext a
  apply Fin.ext
  match a with
  | ⟨0, _⟩ => show win0_9.index t (0 : Fin 3) * 5 + 1 * l.val = l.val; rw [e0]; omega
  | ⟨1, _⟩ => show win0_9.index t (1 : Fin 3) * 256 + 1 * k.val = k.val; rw [e1]; omega
  | ⟨2, _⟩ => show win0_9.index t (2 : Fin 3) * 512 + 1 * j.val = j.val; rw [e2]; omega

/-- The staged recurrent biases of the network cell are the argument's. -/
theorem iblk10_apply (c : Dev nD) (t : Fin cfg0.N) (l : Fin 5) (j : Fin 512) :
    (iblk m c 10 t : Vec Ideal S5x512 .f32) (ix2 l j)
      = (m ((c : Thread nD τ).loc main_arg10) : S5x512.Idx → EReal) (ix2 l j) := by
  obtain ⟨e0, e1⟩ := idx_w10 t
  unfold iblk
  rw [View.read_apply]
  show V m c main_arg10 _ = _
  rw [V_main_arg10]
  congr 1
  funext a
  apply Fin.ext
  match a with
  | ⟨0, _⟩ => show win0_10.index t (0 : Fin 2) * 5 + 1 * l.val = l.val; rw [e0]; omega
  | ⟨1, _⟩ => show win0_10.index t (1 : Fin 2) * 512 + 1 * j.val = j.val; rw [e1]; omega

/-- The staged modulation weights are the argument's. -/
theorem iblk11_apply (c : Dev nD) (t : Fin cfg0.N) (l : Fin 5) (k : Fin 128) (j : Fin 256) :
    (iblk m c 11 t : Vec Ideal S5x128x256 .bf16) (ix3 l k j)
      = (m ((c : Thread nD τ).loc main_arg11) : S5x128x256.Idx → EReal) (ix3 l k j) := by
  obtain ⟨e0, e1, e2⟩ := idx_w11 t
  unfold iblk
  rw [View.read_apply]
  show V m c main_v6 _ = _
  rw [V_v6]
  congr 1
  funext a
  apply Fin.ext
  match a with
  | ⟨0, _⟩ => show win0_11.index t (0 : Fin 3) * 5 + 1 * l.val = l.val; rw [e0]; omega
  | ⟨1, _⟩ => show win0_11.index t (1 : Fin 3) * 128 + 1 * k.val = k.val; rw [e1]; omega
  | ⟨2, _⟩ => show win0_11.index t (2 : Fin 3) * 256 + 1 * j.val = j.val; rw [e2]; omega

/-- The staged modulation biases are the argument's. -/
theorem iblk12_apply (c : Dev nD) (t : Fin cfg0.N) (l : Fin 5) (j : Fin 256) :
    (iblk m c 12 t : Vec Ideal S5x256 .f32) (ix2 l j)
      = (m ((c : Thread nD τ).loc main_arg12) : S5x256.Idx → EReal) (ix2 l j) := by
  obtain ⟨e0, e1⟩ := idx_w12 t
  unfold iblk
  rw [View.read_apply]
  show V m c main_arg12 _ = _
  rw [V_main_arg12]
  congr 1
  funext a
  apply Fin.ext
  match a with
  | ⟨0, _⟩ => show win0_12.index t (0 : Fin 2) * 5 + 1 * l.val = l.val; rw [e0]; omega
  | ⟨1, _⟩ => show win0_12.index t (1 : Fin 2) * 256 + 1 * j.val = j.val; rw [e1]; omega

/-! ## The staged weights and rows are the arguments' -/

/-- The weights read out of the ten weight arguments of device c. -/
abbrev Wm (c : Dev nD) : Weights :=
  weightsOf (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12))

/-- The three state arguments of device c. -/
abbrev A0 (c : Dev nD) : S32768x256.Idx → EReal := m ((c : Thread nD τ).loc main_arg0)
abbrev A1 (c : Dev nD) : S5x32768x128.Idx → EReal := m ((c : Thread nD τ).loc main_arg1)
abbrev A2 (c : Dev nD) : S5x32768x256.Idx → EReal := m ((c : Thread nD τ).loc main_arg2)

/-- At every point the weights the body finds staged are the arguments' weights. -/
theorem wBlk_eq (c : Dev nD) (t : Fin cfg0.N) :
    Kern.wBlk (iblk m c 3 t) (iblk m c 4 t) (iblk m c 5 t) (iblk m c 6 t) (iblk m c 7 t) (iblk m c 8 t)
      (iblk m c 9 t) (iblk m c 10 t) (iblk m c 11 t) (iblk m c 12 t) = Wm m c := by
  unfold Wm Kern.wBlk weightsOf
  rw [Weights.mk.injEq]
  refine ⟨?_, ?_, ?_, ?_, ?_, ?_, ?_, ?_, ?_, ?_⟩
  · funext k j; exact iblk3_apply m c t k j
  · funext j; exact iblk4_apply m c t 0 j
  · funext l k j; exact iblk5_apply m c t l k j
  · funext l j; exact iblk6_apply m c t l j
  · funext k j; exact iblk7_apply m c t k j
  · funext j; exact iblk8_apply m c t 0 j
  · funext l k j; exact iblk9_apply m c t l k j
  · funext l j; exact iblk10_apply m c t l j
  · funext l k j; exact iblk11_apply m c t l k j
  · funext l j; exact iblk12_apply m c t l j

/-- Row p of the blocks staged at point t is batch row 1024 t + p of the arguments. -/
theorem rowOf_blk (c : Dev nD) (t : Fin cfg0.N) (p : Fin 1024) (P : Fin 32768) (hP : P.val = 1024 * t.val + p.val) :
    rowOf (R := 1024) (iblk m c 0 t) (iblk m c 1 t) (iblk m c 2 t) p = rowOf (A0 m c) (A1 m c) (A2 m c) P := by
  unfold rowOf
  rw [Row.mk.injEq]
  refine ⟨?_, ?_, ?_⟩
  · funext k; exact iblk0_apply m c t p k P hP
  · funext l k; exact iblk1_apply m c t l p k P hP
  · funext l k; exact iblk2_apply m c t l p k P hP

/-! ## What each point writes back is a block of the row functions of the arguments -/

/-- The three block equalities: what the body leaves in each output block is the row functions of the staged
    weights at the staged rows. -/
def BlockEqs : Prop :=
  (∀ (x0 : Vec Ideal S1024x256 .f32) (x1 : Vec Ideal S5x1024x128 .f32) (x2 : Vec Ideal S5x1024x256 .f32)
      (x3 : Vec Ideal S256x256 .bf16) (x4 : Vec Ideal S1x256 .f32) (x5 : Vec Ideal S5x128x256 .bf16)
      (x6 : Vec Ideal S5x256 .f32) (x7 : Vec Ideal S256x512 .bf16) (x8 : Vec Ideal S1x512 .f32)
      (x9 : Vec Ideal S5x256x512 .bf16) (x10 : Vec Ideal S5x512 .f32) (x11 : Vec Ideal S5x128x256 .bf16)
      (x12 : Vec Ideal S5x256 .f32),
      out0_13 (F := Ideal) x0 x1 x2 x3 x4 x5 x6 x7 x8 x9 x10 x11 x12
        = outLast (R := 1024) (Kern.wBlk x3 x4 x5 x6 x7 x8 x9 x10 x11 x12) x0 x1 x2)
  ∧ (∀ (x0 : Vec Ideal S1024x256 .f32) (x1 : Vec Ideal S5x1024x128 .f32) (x2 : Vec Ideal S5x1024x256 .f32)
      (x3 : Vec Ideal S256x256 .bf16) (x4 : Vec Ideal S1x256 .f32) (x5 : Vec Ideal S5x128x256 .bf16)
      (x6 : Vec Ideal S5x256 .f32) (x7 : Vec Ideal S256x512 .bf16) (x8 : Vec Ideal S1x512 .f32)
      (x9 : Vec Ideal S5x256x512 .bf16) (x10 : Vec Ideal S5x512 .f32) (x11 : Vec Ideal S5x128x256 .bf16)
      (x12 : Vec Ideal S5x256 .f32),
      out0_14 (F := Ideal) x0 x1 x2 x3 x4 x5 x6 x7 x8 x9 x10 x11 x12
        = outSH (R := 1024) (Kern.wBlk x3 x4 x5 x6 x7 x8 x9 x10 x11 x12) x0 x1 x2)
  ∧ (∀ (x0 : Vec Ideal S1024x256 .f32) (x1 : Vec Ideal S5x1024x128 .f32) (x2 : Vec Ideal S5x1024x256 .f32)
      (x3 : Vec Ideal S256x256 .bf16) (x4 : Vec Ideal S1x256 .f32) (x5 : Vec Ideal S5x128x256 .bf16)
      (x6 : Vec Ideal S5x256 .f32) (x7 : Vec Ideal S256x512 .bf16) (x8 : Vec Ideal S1x512 .f32)
      (x9 : Vec Ideal S5x256x512 .bf16) (x10 : Vec Ideal S5x512 .f32) (x11 : Vec Ideal S5x128x256 .bf16)
      (x12 : Vec Ideal S5x256 .f32),
      out0_15 (F := Ideal) x0 x1 x2 x3 x4 x5 x6 x7 x8 x9 x10 x11 x12
        = outSN (R := 1024) (Kern.wBlk x3 x4 x5 x6 x7 x8 x9 x10 x11 x12) x0 x1 x2)

/-- The last layer's network state at two indices that name the same row and the same unit. -/
theorem outLast_at (W : Weights) {R R' : ℕ} (b0 : (⟨2, ![R, 256]⟩ : Shape).Idx → EReal)
    (b1 : (⟨3, ![5, R, 128]⟩ : Shape).Idx → EReal) (b2 : (⟨3, ![5, R, 256]⟩ : Shape).Idx → EReal)
    (B0 : (⟨2, ![R', 256]⟩ : Shape).Idx → EReal) (B1 : (⟨3, ![5, R', 128]⟩ : Shape).Idx → EReal)
    (B2 : (⟨3, ![5, R', 256]⟩ : Shape).Idx → EReal)
    (x : (⟨2, ![R, 256]⟩ : Shape).Idx) (y : (⟨2, ![R', 256]⟩ : Shape).Idx)
    (hrow : rowOf b0 b1 b2 (x 0) = rowOf B0 B1 B2 (y 0)) (hcol : (x 1).val = (y 1).val) :
    outLast W b0 b1 b2 x = outLast W B0 B1 B2 y := by
  have e1 : (x 1 : Fin 256) = y 1 := Fin.ext hcol
  show sN W (rowOf b0 b1 b2 (x 0)) 4 (x 1) = sN W (rowOf B0 B1 B2 (y 0)) 4 (y 1)
  rw [hrow, e1]

/-- The hyper states at two indices that name the same layer, row and unit. -/
theorem outSH_at (W : Weights) {R R' : ℕ} (b0 : (⟨2, ![R, 256]⟩ : Shape).Idx → EReal)
    (b1 : (⟨3, ![5, R, 128]⟩ : Shape).Idx → EReal) (b2 : (⟨3, ![5, R, 256]⟩ : Shape).Idx → EReal)
    (B0 : (⟨2, ![R', 256]⟩ : Shape).Idx → EReal) (B1 : (⟨3, ![5, R', 128]⟩ : Shape).Idx → EReal)
    (B2 : (⟨3, ![5, R', 256]⟩ : Shape).Idx → EReal)
    (x : (⟨3, ![5, R, 128]⟩ : Shape).Idx) (y : (⟨3, ![5, R', 128]⟩ : Shape).Idx)
    (hlay : (x 0).val = (y 0).val) (hrow : rowOf b0 b1 b2 (x 1) = rowOf B0 B1 B2 (y 1))
    (hcol : (x 2).val = (y 2).val) :
    outSH W b0 b1 b2 x = outSH W B0 B1 B2 y := by
  have e0 : (x 0 : Fin 5) = y 0 := Fin.ext hlay
  have e2 : (x 2 : Fin 128) = y 2 := Fin.ext hcol
  show sH W (rowOf b0 b1 b2 (x 1)) (x 0) (x 2) = sH W (rowOf B0 B1 B2 (y 1)) (y 0) (y 2)
  rw [hrow, e0, e2]

/-- The network states at two indices that name the same layer, row and unit. -/
theorem outSN_at (W : Weights) {R R' : ℕ} (b0 : (⟨2, ![R, 256]⟩ : Shape).Idx → EReal)
    (b1 : (⟨3, ![5, R, 128]⟩ : Shape).Idx → EReal) (b2 : (⟨3, ![5, R, 256]⟩ : Shape).Idx → EReal)
    (B0 : (⟨2, ![R', 256]⟩ : Shape).Idx → EReal) (B1 : (⟨3, ![5, R', 128]⟩ : Shape).Idx → EReal)
    (B2 : (⟨3, ![5, R', 256]⟩ : Shape).Idx → EReal)
    (x : (⟨3, ![5, R, 256]⟩ : Shape).Idx) (y : (⟨3, ![5, R', 256]⟩ : Shape).Idx)
    (hlay : (x 0).val = (y 0).val) (hrow : rowOf b0 b1 b2 (x 1) = rowOf B0 B1 B2 (y 1))
    (hcol : (x 2).val = (y 2).val) :
    outSN W b0 b1 b2 x = outSN W B0 B1 B2 y := by
  have e0 : (x 0 : Fin 5) = y 0 := Fin.ext hlay
  have e2 : (x 2 : Fin 256) = y 2 := Fin.ext hcol
  show sN W (rowOf b0 b1 b2 (x 1)) (x 0) (x 2) = sN W (rowOf B0 B1 B2 (y 1)) (y 0) (y 2)
  rw [hrow, e0, e2]

/-- What point t writes back to the last-layer output is block t of the last layer's network state of the
    arguments. -/
theorem flushed13_eq (H : BlockEqs) (c : Dev nD) (t : Fin cfg0.N) :
    (dats m 0 c).flushed 13 t
      = ((cfg0.win 13).blk t).view.read (Elt Ideal) (outLast (Wm m c) (A0 m c) (A1 m c) (A2 m c)) := by
  rw [Value.flushed13, H.1, wBlk_eq m c t]
  obtain ⟨e0, e1⟩ := idx_w13 t
  funext j
  rw [View.read_apply]
  show _ = outLast (Wm m c) (A0 m c) (A1 m c) (A2 m c) (((cfg0.win 13).blk t).view.emb j)
  refine outLast_at (Wm m c) (R := 1024) (R' := 32768) _ _ _ _ _ _ _ _ ?_ ?_
  · refine rowOf_blk m c t _ _ ?_
    show win0_13.index t (0 : Fin 2) * 1024 + 1 * (j 0).val = 1024 * t.val + (j 0).val
    rw [e0]; omega
  · show (j 1).val = win0_13.index t (1 : Fin 2) * 256 + 1 * (j 1).val
    rw [e1]; omega

/-- What point t writes back to the hyper-state output is block t of the hyper states of the arguments. -/
theorem flushed14_eq (H : BlockEqs) (c : Dev nD) (t : Fin cfg0.N) :
    (dats m 0 c).flushed 14 t
      = ((cfg0.win 14).blk t).view.read (Elt Ideal) (outSH (Wm m c) (A0 m c) (A1 m c) (A2 m c)) := by
  rw [Value.flushed14, H.2.1, wBlk_eq m c t]
  obtain ⟨e0, e1, e2⟩ := idx_w14 t
  funext j
  rw [View.read_apply]
  show _ = outSH (Wm m c) (A0 m c) (A1 m c) (A2 m c) (((cfg0.win 14).blk t).view.emb j)
  refine outSH_at (Wm m c) (R := 1024) (R' := 32768) _ _ _ _ _ _ _ _ ?_ ?_ ?_
  · show (j 0).val = win0_14.index t (0 : Fin 3) * 5 + 1 * (j 0).val
    rw [e0]; omega
  · refine rowOf_blk m c t _ _ ?_
    show win0_14.index t (1 : Fin 3) * 1024 + 1 * (j 1).val = 1024 * t.val + (j 1).val
    rw [e1]; omega
  · show (j 2).val = win0_14.index t (2 : Fin 3) * 128 + 1 * (j 2).val
    rw [e2]; omega

/-- What point t writes back to the network-state output is block t of the network states of the arguments. -/
theorem flushed15_eq (H : BlockEqs) (c : Dev nD) (t : Fin cfg0.N) :
    (dats m 0 c).flushed 15 t
      = ((cfg0.win 15).blk t).view.read (Elt Ideal) (outSN (Wm m c) (A0 m c) (A1 m c) (A2 m c)) := by
  rw [Value.flushed15, H.2.2, wBlk_eq m c t]
  obtain ⟨e0, e1, e2⟩ := idx_w15 t
  funext j
  rw [View.read_apply]
  show _ = outSN (Wm m c) (A0 m c) (A1 m c) (A2 m c) (((cfg0.win 15).blk t).view.emb j)
  refine outSN_at (Wm m c) (R := 1024) (R' := 32768) _ _ _ _ _ _ _ _ ?_ ?_ ?_
  · show (j 0).val = win0_15.index t (0 : Fin 3) * 5 + 1 * (j 0).val
    rw [e0]; omega
  · refine rowOf_blk m c t _ _ ?_
    show win0_15.index t (1 : Fin 3) * 1024 + 1 * (j 1).val = 1024 * t.val + (j 1).val
    rw [e1]; omega
  · show (j 2).val = win0_15.index t (2 : Fin 3) * 256 + 1 * (j 2).val
    rw [e2]; omega

/-! ## The blocks cover the arrays -/

/-- An index of the array is in point t's block iff each coordinate is in the block's range on its axis. -/
theorem mem_blk13 (t : Fin cfg0.N) (i : S32768x256.Idx) :
    i ∈ ((cfg0.win 13).blk t).view.set ↔ ∀ a : Fin 2, win0_13.index t a * S1024x256.size a ≤ (i a).val
      ∧ (i a).val < win0_13.index t a * S1024x256.size a + S1024x256.size a := by
  show i ∈ ((View.whole main_v7_0).slice (win0_13.rect t)).set ↔ _
  rw [View.set_slice_whole, Rect.mem_set_unit]
  exact Iff.rfl

theorem mem_blk14 (t : Fin cfg0.N) (i : S5x32768x128.Idx) :
    i ∈ ((cfg0.win 14).blk t).view.set ↔ ∀ a : Fin 3, win0_14.index t a * S5x1024x128.size a ≤ (i a).val
      ∧ (i a).val < win0_14.index t a * S5x1024x128.size a + S5x1024x128.size a := by
  show i ∈ ((View.whole main_v7_1).slice (win0_14.rect t)).set ↔ _
  rw [View.set_slice_whole, Rect.mem_set_unit]
  exact Iff.rfl

theorem mem_blk15 (t : Fin cfg0.N) (i : S5x32768x256.Idx) :
    i ∈ ((cfg0.win 15).blk t).view.set ↔ ∀ a : Fin 3, win0_15.index t a * S5x1024x256.size a ≤ (i a).val
      ∧ (i a).val < win0_15.index t a * S5x1024x256.size a + S5x1024x256.size a := by
  show i ∈ ((View.whole main_v7_2).slice (win0_15.rect t)).set ↔ _
  rw [View.set_slice_whole, Rect.mem_set_unit]
  exact Iff.rfl

/-- The point whose blocks hold batch row r: r / 1024. -/
theorem point_of_row (r : ℕ) (hr : r < 32768) : ∃ t : Fin cfg0.N, t.val = r / 1024 :=
  ⟨⟨r / 1024, by have hN : cfg0.N = 32 := N_0; rw [hN]; omega⟩, rfl⟩

/-- Every index of the last-layer output is in the block of the point that holds its row. -/
theorem cover13 (i : S32768x256.Idx) :
    ∃ t : Fin cfg0.N, (cfg0.win 13).flush t = true ∧ i ∈ ((cfg0.win 13).blk t).view.set := by
  have hi0 : (i 0).val < 32768 := (i 0).isLt
  have hi1 : (i 1).val < 256 := (i 1).isLt
  obtain ⟨t, ht⟩ := point_of_row (i 0).val hi0
  obtain ⟨e0, e1⟩ := idx_w13 t
  refine ⟨t, flush0_13 t, ?_⟩
  rw [mem_blk13]
  intro a
  match a with
  | ⟨0, _⟩ =>
    show win0_13.index t (0 : Fin 2) * 1024 ≤ (i 0).val ∧ (i 0).val < win0_13.index t (0 : Fin 2) * 1024 + 1024
    rw [e0, ht]; omega
  | ⟨1, _⟩ =>
    show win0_13.index t (1 : Fin 2) * 256 ≤ (i 1).val ∧ (i 1).val < win0_13.index t (1 : Fin 2) * 256 + 256
    rw [e1]; omega

/-- Every index of the hyper-state output is in the block of the point that holds its row. -/
theorem cover14 (i : S5x32768x128.Idx) :
    ∃ t : Fin cfg0.N, (cfg0.win 14).flush t = true ∧ i ∈ ((cfg0.win 14).blk t).view.set := by
  have hi0 : (i 0).val < 5 := (i 0).isLt
  have hi1 : (i 1).val < 32768 := (i 1).isLt
  have hi2 : (i 2).val < 128 := (i 2).isLt
  obtain ⟨t, ht⟩ := point_of_row (i 1).val hi1
  obtain ⟨e0, e1, e2⟩ := idx_w14 t
  refine ⟨t, flush0_14 t, ?_⟩
  rw [mem_blk14]
  intro a
  match a with
  | ⟨0, _⟩ =>
    show win0_14.index t (0 : Fin 3) * 5 ≤ (i 0).val ∧ (i 0).val < win0_14.index t (0 : Fin 3) * 5 + 5
    rw [e0]; omega
  | ⟨1, _⟩ =>
    show win0_14.index t (1 : Fin 3) * 1024 ≤ (i 1).val ∧ (i 1).val < win0_14.index t (1 : Fin 3) * 1024 + 1024
    rw [e1, ht]; omega
  | ⟨2, _⟩ =>
    show win0_14.index t (2 : Fin 3) * 128 ≤ (i 2).val ∧ (i 2).val < win0_14.index t (2 : Fin 3) * 128 + 128
    rw [e2]; omega

/-- Every index of the network-state output is in the block of the point that holds its row. -/
theorem cover15 (i : S5x32768x256.Idx) :
    ∃ t : Fin cfg0.N, (cfg0.win 15).flush t = true ∧ i ∈ ((cfg0.win 15).blk t).view.set := by
  have hi0 : (i 0).val < 5 := (i 0).isLt
  have hi1 : (i 1).val < 32768 := (i 1).isLt
  have hi2 : (i 2).val < 256 := (i 2).isLt
  obtain ⟨t, ht⟩ := point_of_row (i 1).val hi1
  obtain ⟨e0, e1, e2⟩ := idx_w15 t
  refine ⟨t, flush0_15 t, ?_⟩
  rw [mem_blk15]
  intro a
  match a with
  | ⟨0, _⟩ =>
    show win0_15.index t (0 : Fin 3) * 5 ≤ (i 0).val ∧ (i 0).val < win0_15.index t (0 : Fin 3) * 5 + 5
    rw [e0]; omega
  | ⟨1, _⟩ =>
    show win0_15.index t (1 : Fin 3) * 1024 ≤ (i 1).val ∧ (i 1).val < win0_15.index t (1 : Fin 3) * 1024 + 1024
    rw [e1, ht]; omega
  | ⟨2, _⟩ =>
    show win0_15.index t (2 : Fin 3) * 256 ≤ (i 2).val ∧ (i 2).val < win0_15.index t (2 : Fin 3) * 256 + 256
    rw [e2]; omega

/-! ## The arrays after the run -/

/-- The last-layer output ends holding the last layer's network state of the arguments, row by row. -/
theorem final13 (H : BlockEqs) (c : Dev nD) :
    (dats m 0 c).arrAt 13 cfg0.N = outLast (Wm m c) (A0 m c) (A1 m c) (A2 m c) :=
  (dats m 0 c).arrAt_eq_of_cover 13 (outLast (Wm m c) (A0 m c) (A1 m c) (A2 m c))
    (fun t _ => flushed13_eq m H c t) cover13

/-- The hyper-state output ends holding the hyper states of the arguments, row by row. -/
theorem final14 (H : BlockEqs) (c : Dev nD) :
    (dats m 0 c).arrAt 14 cfg0.N = outSH (Wm m c) (A0 m c) (A1 m c) (A2 m c) :=
  (dats m 0 c).arrAt_eq_of_cover 14 (outSH (Wm m c) (A0 m c) (A1 m c) (A2 m c))
    (fun t _ => flushed14_eq m H c t) cover14

/-- The network-state output ends holding the network states of the arguments, row by row. -/
theorem final15 (H : BlockEqs) (c : Dev nD) :
    (dats m 0 c).arrAt 15 cfg0.N = outSN (Wm m c) (A0 m c) (A1 m c) (A2 m c) :=
  (dats m 0 c).arrAt_eq_of_cover 15 (outSN (Wm m c) (A0 m c) (A1 m c) (A2 m c))
    (fun t _ => flushed15_eq m H c t) cover15

/-- The run, read: the three results are the row functions of the argument arrays, the arguments unchanged. -/
theorem run (H : BlockEqs) : θ_run defs (onTc (τ := τ) (main (F := Ideal))) ⟨m, fun _ => 0, ρ⟩ fun r => ∀ c : Dev nD,
      r.2.mem ((c : Thread nD τ).loc main_v7_0) = outLast (Wm m c) (A0 m c) (A1 m c) (A2 m c)
      ∧ r.2.mem ((c : Thread nD τ).loc main_v7_1) = outSH (Wm m c) (A0 m c) (A1 m c) (A2 m c)
      ∧ r.2.mem ((c : Thread nD τ).loc main_v7_2) = outSN (Wm m c) (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m H c), (h c).2.1.trans (final14 m H c),
      (h c).2.2.1.trans (final15 m H c), (h c).2.2.2⟩)
    (Value.run_blocks m ρ)

end Cert.Hrhn.KArr

end
-- ==== Proof.LibHostLayout.lean ====
/-
  Host layout operations of small rank read at an index.

  A reference written with keepdims and with a bias added along rows broadcasts in two steps: a vector `[a]` to a column
  `[a, 1]` and the column over the row `[a, b]`; a vector `[b]` to one row `[1, b]` and the row down the rows `[a, b]`. A
  leading block of rows is a slice at offset zero. Each is read here at an index built by `ix2`, in the style of the
  library's layout lemmas.
-/
import Idealize.ShloMosaic.Lib.Pipeline.Value
import Idealize.ShloMosaic.Lib.ValueIdx

noncomputable section

namespace Cert.LibHostLayout

open Idealize.ShloMosaic Idealize.ShloMosaic.ValueIdx

variable {α : Type}

/-- GENERAL LEMMA. An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply ![0] h x (ix2 p u) (ix1 p) fun ax => by
    match ax with
    | ⟨0, _⟩ =>
      show p.val = if a = 1 then 0 else p.val
      split
      · have := p.isLt; omega
      · rfl

/-- GENERAL LEMMA. An `[a, 1]` column broadcast in dimensions (0, 1) to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- GENERAL LEMMA. A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply ![1] h x (ix2 u c) (ix1 c) fun ax => by
    match ax with
    | ⟨0, _⟩ =>
      show c.val = if b = 1 then 0 else c.val
      split
      · have := c.isLt; omega
      · rfl

/-- GENERAL LEMMA. A `[1, b]` row broadcast in dimensions (0, 1) to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- GENERAL LEMMA. The leading `m` rows of an `[n, b]` array, sliced at offset zero, read at `(p, c)` the array at `(p, c)`. -/
theorem slice_rows_apply {n m b : ℕ} (x : (⟨2, ![n, b]⟩ : Shape).Idx → α)
    (h : (⟨2, ![n, b]⟩ : Shape).Slices ![0, 0] ⟨2, ![m, b]⟩) (p : Fin m) (hp : p.val < n) (c : Fin b) :
    extractStridedSlice ⟨2, ![m, b]⟩ ![0, 0] x h (ix2 p c) = x (ix2 (⟨p.val, hp⟩ : Fin n) c) :=
  extractStridedSlice_apply ![0, 0] x h (ix2 p c) (ix2 (⟨p.val, hp⟩ : Fin n) c) fun ax => by
    match ax with
    | ⟨0, _⟩ => show p.val = 0 + p.val; omega
    | ⟨1, _⟩ => show c.val = 0 + c.val; omega

end Cert.LibHostLayout

end
-- ==== Proof.RefLayout.lean ====
/-
  Array-level readings for the reference side: each composite of host operations the reference uses,
  read at an index built from coordinates of literal extents.

  A layer of a stacked array is a unit-thick slice along the leading axis followed by a cast that drops the unit
  axis. A bias vector is added to every row through two broadcasts. A matrix product at an index is the sum of
  products over the contracted axis. The logistic function arrives written out as 1 / (1 + e^(-y)). Two copies
  of an array side by side read the array at the column modulo its width. A stack of unit-thick pieces along a
  new leading axis reads the piece the leading coordinate names.
-/
import proofs.«139043_j64879775973862_2_alg».proof.Proof.Spec
import proofs.«139043_j64879775973862_2_alg».proof.Proof.LibDotSum
import proofs.«139043_j64879775973862_2_alg».proof.Proof.LibHostLayout
import Idealize.ShloMosaic.Lib.ValueLayout
import Idealize.ShloMosaic.Lib.Pipeline.Value
import Idealize.ShloMosaic.PureOps.Ideal.Laws

noncomputable section

namespace Cert.Hrhn.Ref

open Idealize.ShloMosaic Idealize.ShloMosaic.ValueIdx

variable {α : Type}

/-- Layer `l` of an `[L, a, b]` array: the unit-thick slice at offset `(l, 0, 0)`, cast to `[a, b]`, reads at
    `(i, j)` the array at `(l, i, j)`. -/
theorem layer3_apply {L a b : ℕ} (l : ℕ) (X : (⟨3, ![L, a, b]⟩ : Shape).Idx → α)
    (hs : (⟨3, ![L, a, b]⟩ : Shape).Slices ![l, 0, 0] ⟨3, ![1, a, b]⟩)
    (hc : (⟨3, ![1, a, b]⟩ : Shape).ShapeCasts ⟨2, ![a, b]⟩) (l' : Fin L) (hl : l'.val = l) (i : Fin a) (j : Fin b) :
    shapeCast ⟨2, ![a, b]⟩ (extractStridedSlice ⟨3, ![1, a, b]⟩ ![l, 0, 0] X hs) hc (ix2 i j) = X (ix3 l' i j) :=
  (shapeCast_1ab_ab_apply _ hc i j).trans
    (extractStridedSlice_apply ![l, 0, 0] X hs (ix3 (0 : Fin 1) i j) (ix3 l' i j) fun ax => by
      match ax with
      | ⟨0, _⟩ => show l'.val = l + 0; omega
      | ⟨1, _⟩ => show i.val = 0 + i.val; omega
      | ⟨2, _⟩ => show j.val = 0 + j.val; omega)

/-- Layer `l` of an `[L, n]` array: the unit-thick slice at offset `(l, 0)`, cast to `[n]`, reads at `c` the
    array at `(l, c)`. -/
theorem layer2_apply {L n : ℕ} (l : ℕ) (X : (⟨2, ![L, n]⟩ : Shape).Idx → α)
    (hs : (⟨2, ![L, n]⟩ : Shape).Slices ![l, 0] ⟨2, ![1, n]⟩)
    (hc : (⟨2, ![1, n]⟩ : Shape).ShapeCasts ⟨1, ![n]⟩) (l' : Fin L) (hl : l'.val = l) (c : Fin n) :
    shapeCast ⟨1, ![n]⟩ (extractStridedSlice ⟨2, ![1, n]⟩ ![l, 0] X hs) hc (ix1 c) = X (ix2 l' c) :=
  (shapeCast_1a_a_apply _ hc c).trans
    (extractStridedSlice_apply ![l, 0] X hs (ix2 (0 : Fin 1) c) (ix2 l' c) fun ax => by
      match ax with
      | ⟨0, _⟩ => show l'.val = l + 0; omega
      | ⟨1, _⟩ => show c.val = 0 + c.val; omega)

/-- A vector broadcast to one row and the row to every row reads, at `(p, c)`, the vector at `c`. -/
theorem biasRow_apply {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) :=
  (Cert.LibHostLayout.broadcastInDim_1b_ab_apply _ h2 p c).trans
    (Cert.LibHostLayout.broadcastInDim_b_1b_apply v h1 (0 : Fin 1) c)

/-- An `[a, b]` array broadcast under a new leading unit axis reads, at `(u, i, j)`, the array at `(i, j)`. -/
theorem bcast_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) :=
  broadcastInDim_apply ![1, 2] h x (ix3 u i j) (ix2 i j) fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl

/-- Two `[a, b]` arrays side by side, read in the left half. -/
theorem concat2_left {a b b2 : ℕ} (x₁ x₂ : (⟨2, ![a, b]⟩ : Shape).Idx → α)
    (h : Shape.Concatenates [(⟨2, ![a, b]⟩ : Shape), ⟨2, ![a, b]⟩] ⟨2, ![a, b2]⟩ 1) (p : Fin a) (c : Fin b)
    (c' : Fin b2) (hc : c'.val = c.val) :
    concatenate ⟨2, ![a, b2]⟩ 1 [⟨⟨2, ![a, b]⟩, x₁⟩, ⟨⟨2, ![a, b]⟩, x₂⟩] h (ix2 p c') = x₁ (ix2 p c) :=
  concatenate_pair_apply_left 1 x₁ x₂ h (ix2 p c') rfl (ix2 p c) fun bb => by
    match bb with
    | ⟨0, _⟩ => rfl
    | ⟨1, _⟩ => exact hc.symm

/-- Two `[a, b]` arrays side by side, read in the right half. -/
theorem concat2_right {a b b2 : ℕ} (x₁ x₂ : (⟨2, ![a, b]⟩ : Shape).Idx → α)
    (h : Shape.Concatenates [(⟨2, ![a, b]⟩ : Shape), ⟨2, ![a, b]⟩] ⟨2, ![a, b2]⟩ 1) (p : Fin a) (c : Fin b)
    (c' : Fin b2) (hc : c'.val = c.val + b) :
    concatenate ⟨2, ![a, b2]⟩ 1 [⟨⟨2, ![a, b]⟩, x₁⟩, ⟨⟨2, ![a, b]⟩, x₂⟩] h (ix2 p c') = x₂ (ix2 p c) :=
  concatenate_pair_apply_right 1 x₁ x₂ h (ix2 p c') rfl rfl (ix2 p c)
    (fun bb hb => by
      match bb with
      | ⟨0, _⟩ => rfl
      | ⟨1, _⟩ => exact absurd rfl hb)
    hc.symm

/-- A stack of five unit-thick pieces along a new leading axis reads, at `(l, i, j)`, piece `l` at `(0, i, j)`:
    whatever each piece reads there when `l` names it. -/
theorem stack5_apply {a b : ℕ} (x0 x1 x2 x3 x4 : (⟨3, ![1, a, b]⟩ : Shape).Idx → α)
    (h : Shape.Concatenates [(⟨3, ![1, a, b]⟩ : Shape), ⟨3, ![1, a, b]⟩, ⟨3, ![1, a, b]⟩, ⟨3, ![1, a, b]⟩, ⟨3, ![1, a, b]⟩]
      ⟨3, ![5, a, b]⟩ 0) (l : Fin 5) (i : Fin a) (j : Fin b) (y : α)
    (h0 : l = 0 → x0 (ix3 (0 : Fin 1) i j) = y) (h1 : l = 1 → x1 (ix3 (0 : Fin 1) i j) = y)
    (h2 : l = 2 → x2 (ix3 (0 : Fin 1) i j) = y) (h3 : l = 3 → x3 (ix3 (0 : Fin 1) i j) = y)
    (h4 : l = 4 → x4 (ix3 (0 : Fin 1) i j) = y) :
    concatenate ⟨3, ![5, a, b]⟩ 0 [⟨⟨3, ![1, a, b]⟩, x0⟩, ⟨⟨3, ![1, a, b]⟩, x1⟩, ⟨⟨3, ![1, a, b]⟩, x2⟩,
      ⟨⟨3, ![1, a, b]⟩, x3⟩, ⟨⟨3, ![1, a, b]⟩, x4⟩] h (ix3 l i j) = y := by
  have hi : ∀ (l : Fin 5) (bb : Fin 3), bb.cast (rfl : 3 = 3) ≠ (0 : Fin 3) →
      ((ix3 (0 : Fin 1) i j : (⟨3, ![1, a, b]⟩ : Shape).Idx) bb).val
        = ((ix3 l i j : (⟨3, ![5, a, b]⟩ : Shape).Idx) (bb.cast rfl)).val := fun l bb hb => by
    match bb with
    | ⟨0, _⟩ => exact absurd rfl hb
    | ⟨1, _⟩ => rfl
    | ⟨2, _⟩ => rfl
  match l with
  | ⟨0, _⟩ =>
    refine Eq.trans ?_ (h0 rfl)
    exact concatenate_apply_piece (t := ⟨3, ![5, a, b]⟩) 0
      [⟨⟨3, ![1, a, b]⟩, x0⟩, ⟨⟨3, ![1, a, b]⟩, x1⟩, ⟨⟨3, ![1, a, b]⟩, x2⟩, ⟨⟨3, ![1, a, b]⟩, x3⟩, ⟨⟨3, ![1, a, b]⟩, x4⟩] h _ 0 (by simp) ⟨3, ![1, a, b]⟩ x0 rfl rfl 0 rfl
      (ix3 (0 : Fin 1) i j) (hi _) rfl
  | ⟨1, _⟩ =>
    refine Eq.trans ?_ (h1 rfl)
    exact concatenate_apply_piece (t := ⟨3, ![5, a, b]⟩) 0
      [⟨⟨3, ![1, a, b]⟩, x0⟩, ⟨⟨3, ![1, a, b]⟩, x1⟩, ⟨⟨3, ![1, a, b]⟩, x2⟩, ⟨⟨3, ![1, a, b]⟩, x3⟩, ⟨⟨3, ![1, a, b]⟩, x4⟩] h _ 1 (by simp) ⟨3, ![1, a, b]⟩ x1 rfl rfl 1 rfl
      (ix3 (0 : Fin 1) i j) (hi _) rfl
  | ⟨2, _⟩ =>
    refine Eq.trans ?_ (h2 rfl)
    exact concatenate_apply_piece (t := ⟨3, ![5, a, b]⟩) 0
      [⟨⟨3, ![1, a, b]⟩, x0⟩, ⟨⟨3, ![1, a, b]⟩, x1⟩, ⟨⟨3, ![1, a, b]⟩, x2⟩, ⟨⟨3, ![1, a, b]⟩, x3⟩, ⟨⟨3, ![1, a, b]⟩, x4⟩] h _ 2 (by simp) ⟨3, ![1, a, b]⟩ x2 rfl rfl 2 rfl
      (ix3 (0 : Fin 1) i j) (hi _) rfl
  | ⟨3, _⟩ =>
    refine Eq.trans ?_ (h3 rfl)
    exact concatenate_apply_piece (t := ⟨3, ![5, a, b]⟩) 0
      [⟨⟨3, ![1, a, b]⟩, x0⟩, ⟨⟨3, ![1, a, b]⟩, x1⟩, ⟨⟨3, ![1, a, b]⟩, x2⟩, ⟨⟨3, ![1, a, b]⟩, x3⟩, ⟨⟨3, ![1, a, b]⟩, x4⟩] h _ 3 (by simp) ⟨3, ![1, a, b]⟩ x3 rfl rfl 3 rfl
      (ix3 (0 : Fin 1) i j) (hi _) rfl
  | ⟨4, _⟩ =>
    refine Eq.trans ?_ (h4 rfl)
    exact concatenate_apply_piece (t := ⟨3, ![5, a, b]⟩) 0
      [⟨⟨3, ![1, a, b]⟩, x0⟩, ⟨⟨3, ![1, a, b]⟩, x1⟩, ⟨⟨3, ![1, a, b]⟩, x2⟩, ⟨⟨3, ![1, a, b]⟩, x3⟩, ⟨⟨3, ![1, a, b]⟩, x4⟩] h _ 4 (by simp) ⟨3, ![1, a, b]⟩ x4 rfl rfl 4 rfl
      (ix3 (0 : Fin 1) i j) (hi _) rfl

/-- The float one broadcast to a whole array reads the float one everywhere. -/
theorem bcastOne_apply {s : Shape} (h : (⟨0, ![]⟩ : Shape).BroadcastsInDim s ![]) (i : s.Idx) :
    broadcastInDim s ![] h (constant (F := Ideal) ⟨0, ![]⟩ .f32 0x3F800000#32) i = one := rfl

/-- The logistic function written out over arrays, at an index. -/
theorem logisticArr_apply {s : Shape} (h : (⟨0, ![]⟩ : Shape).BroadcastsInDim s ![]) (Y : FVec Ideal s .f32) (i : s.Idx) :
    Host.divf (broadcastInDim s ![] h (constant (F := Ideal) ⟨0, ![]⟩ .f32 0x3F800000#32))
      (addf (broadcastInDim s ![] h (constant (F := Ideal) ⟨0, ![]⟩ .f32 0x3F800000#32)) (Host.exp (Host.negf Y))) i
      = Ideal.logistic (Y i) :=
  logistic_expand (Y i)

/-- The highway gate over arrays, at an index. -/
theorem gateArr_apply {s : Shape} (h : (⟨0, ![]⟩ : Shape).BroadcastsInDim s ![]) (A G S : FVec Ideal s .f32) (i : s.Idx)
    (a g st : EReal) (hA : A i = a) (hG : G i = Ideal.logistic g) (hS : S i = st) :
    addf (mulf (Host.tanh A) G)
      (mulf S (subf (broadcastInDim s ![] h (constant (F := Ideal) ⟨0, ![]⟩ .f32 0x3F800000#32)) G)) i
      = gate a g st := by
  subst hA hS
  show Ideal.tanh (A i) * G i + S i * (one - G i) = gate (A i) g (S i)
  rw [hG]
  rfl

/-- A product of an `[M, K]` array with a `[K, N]` array plus a bias row, at `(p, c)`: row `p` against column `c`
    plus the bias at `c`. The record's coordinate facts are hypotheses. -/
theorem cell_apply {M K N : ℕ}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (s : FVec Ideal ⟨2, ![M, K]⟩ .f32) (Wm : FVec Ideal ⟨2, ![K, N]⟩ .f32) (bv : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (c : Fin N)
    (s' W' : Fin K → EReal) (b' : EReal)
    (hs : ∀ k, s (ix2 p k) = s' k) (hW : ∀ k, Wm (ix2 k c) = W' k) (hb : bv (ix1 c) = b') :
    addf (Host.dotGeneral d none s Wm)
      (broadcastInDim ⟨2, ![M, N]⟩ ![0, 1] h2 (broadcastInDim ⟨2, ![1, N]⟩ ![1] h1 bv)) (ix2 p c)
      = dotv s' W' + b' := by
  show FloatOps.dotGeneral d none .single s Wm (ix2 p c)
      + broadcastInDim ⟨2, ![M, N]⟩ ![0, 1] h2 (broadcastInDim ⟨2, ![1, N]⟩ ![1] h1 bv) (ix2 p c) = dotv s' W' + b'
  rw [Ideal.dotGeneral_apply, biasRow_apply, hb,
    Cert.LibDotSum.sum_contr_eq_sum_fin d hrank hsize hl0 hl1 hr0 hr1 s Wm (ix2 p c)]
  refine congrArg (· + b') ?_
  exact Finset.sum_congr rfl fun k _ => by rw [← hs k, ← hW k]; rfl

end Cert.Hrhn.Ref

end
-- ==== Proof.RefHyper.lean ====
/-
  The reference program's hyper cell, layer by layer, read at an index.

  For each depth layer the buffers of the reference are read at a batch row and a unit: the previous hyper state is
  that row of the layer's slice of the state array; the pre-activation is the row against the layer's weight columns
  plus the bias (plus the input projection in layer 0); the transform gate is the logistic function of the upper half
  of the pre-activation; the new hyper state is the highway gate; the modulation is the new state against the layer's
  upscale weights plus the upscale bias. The stacked result is then, index by index, the row function of the
  specification.
-/
import proofs.«139043_j64879775973862_2_alg».proof.Proof.Gen.ReferenceIdeal.Run
import proofs.«139043_j64879775973862_2_alg».proof.Proof.Arrays
import proofs.«139043_j64879775973862_2_alg».proof.Proof.RefLayout

noncomputable section

namespace Cert.Hrhn.Ref

open Idealize.ShloMosaic Idealize.ShloMosaic.ValueIdx Cert.ReferenceIdeal Cert.ReferenceIdeal.Value

/-- The weights read out of the reference's ten weight arguments. -/
def wOf (V0 : Valuation τ sig (Elt Ideal)) : Weights :=
  weightsOf (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))

/-- Batch row `P` of the reference's three state arguments. -/
abbrev rowAt (V0 : Valuation τ sig (Elt Ideal)) (P : Fin 32768) : Row :=
  rowOf (R := 32768) (V0 (Proc.devRef .tc main_arg0)) (V0 (Proc.devRef .tc main_arg1)) (V0 (Proc.devRef .tc main_arg2)) P

theorem preH_zero (W : Weights) (r : Row) (c : Fin 256) : preH W r 0 c = cellH W r 0 c + inpH W r c := if_pos rfl
theorem preH_succ (W : Weights) (r : Row) (l : Fin 5) (hl : l ≠ 0) (c : Fin 256) : preH W r l c = cellH W r l c := if_neg hl

variable (V0 : Valuation τ sig (Elt Ideal)) (P : Fin 32768)

/-! ## Layer 0 -/

theorem sh0_apply (k : Fin 128) : res_main_v1 V0 (ix2 P k) = (rowAt V0 P).sh 0 k := by
  unfold res_main_v1
  exact layer3_apply 0 (V0 (Proc.devRef .tc main_arg1)) _ _ (0 : Fin 5) rfl P k

theorem preH0_apply (c : Fin 256) : res_main_v14 V0 (ix2 P c) = preH (wOf V0) (rowAt V0 P) 0 c := by
  rw [preH_zero]
  unfold res_main_v14 cellH inpH
  refine (addf_apply _ _ _).trans ?_
  refine congrArg₂ (· + ·) ?_ ?_
  · exact cell_apply dot_S32768x128_S128x256_S32768x256_1_0_0_1_n_n rfl rfl (fun _ _ => rfl) (fun _ _ => rfl) (fun _ _ => rfl) (fun _ _ => rfl) _ _ _ _ _ P c _ _ _
      (fun k => sh0_apply V0 P k)
      (fun k => layer3_apply 0 (V0 (Proc.devRef .tc main_arg5)) _ _ (0 : Fin 5) rfl k c)
      (layer2_apply 0 (V0 (Proc.devRef .tc main_arg6)) _ _ (0 : Fin 5) rfl c)
  · exact cell_apply dot_S32768x256_S256x256_S32768x256_1_0_0_1_n_n rfl rfl (fun _ _ => rfl) (fun _ _ => rfl) (fun _ _ => rfl) (fun _ _ => rfl) _ _ _ _ _ P c _ _ _
      (fun _ => rfl) (fun _ => rfl) rfl

theorem sig0_apply (j : Fin 128) :
    res_main_v23 V0 (ix2 P j) = Ideal.logistic (preH (wOf V0) (rowAt V0 P) 0 (hi128 j)) := by
  unfold res_main_v23
  refine (logisticArr_apply _ _ _).trans (congrArg Ideal.logistic ?_)
  exact (slice2_axis1_apply 128 (res_main_v14 V0) _ P j (hi128 j) (Nat.add_comm _ _)).trans
    (preH0_apply V0 P (hi128 j))

theorem sH0_apply (j : Fin 128) : res_main_v28 V0 (ix2 P j) = sH (wOf V0) (rowAt V0 P) 0 j := by
  unfold res_main_v28 sH
  exact gateArr_apply _ _ _ _ (ix2 P j) _ _ _
    ((slice2_axis1_apply 0 (res_main_v14 V0) _ P j (lo128 j) (Nat.zero_add _).symm).trans
      (preH0_apply V0 P (lo128 j)))
    (sig0_apply V0 P j) (sh0_apply V0 P j)

theorem z0_apply (c : Fin 256) : res_main_v132 V0 (ix2 P c) = zup (wOf V0) (rowAt V0 P) 0 c := by
  unfold res_main_v132 zup
  exact cell_apply dot_S32768x128_S128x256_S32768x256_1_0_0_1_n_n rfl rfl (fun _ _ => rfl) (fun _ _ => rfl) (fun _ _ => rfl) (fun _ _ => rfl) _ _ _ _ _ P c _ _ _
    (fun k => sH0_apply V0 P k)
    (fun k => layer3_apply 0 (V0 (Proc.devRef .tc main_arg11)) _ _ (0 : Fin 5) rfl k c)
    (layer2_apply 0 (V0 (Proc.devRef .tc main_arg12)) _ _ (0 : Fin 5) rfl c)

/-! ## Layer 1 -/

theorem sh1_apply (k : Fin 128) : res_main_v30 V0 (ix2 P k) = (rowAt V0 P).sh 1 k := by
  unfold res_main_v30
  exact layer3_apply 1 (V0 (Proc.devRef .tc main_arg1)) _ _ (1 : Fin 5) rfl P k

theorem preH1_apply (c : Fin 256) : res_main_v38 V0 (ix2 P c) = preH (wOf V0) (rowAt V0 P) 1 c := by
  rw [preH_succ _ _ _ (by decide)]
  unfold res_main_v38 cellH
  exact cell_apply dot_S32768x128_S128x256_S32768x256_1_0_0_1_n_n rfl rfl (fun _ _ => rfl) (fun _ _ => rfl) (fun _ _ => rfl) (fun _ _ => rfl) _ _ _ _ _ P c _ _ _
    (fun k => sh1_apply V0 P k)
    (fun k => layer3_apply 1 (V0 (Proc.devRef .tc main_arg5)) _ _ (1 : Fin 5) rfl k c)
    (layer2_apply 1 (V0 (Proc.devRef .tc main_arg6)) _ _ (1 : Fin 5) rfl c)

theorem sig1_apply (j : Fin 128) :
    res_main_v47 V0 (ix2 P j) = Ideal.logistic (preH (wOf V0) (rowAt V0 P) 1 (hi128 j)) := by
  unfold res_main_v47
  refine (logisticArr_apply _ _ _).trans (congrArg Ideal.logistic ?_)
  exact (slice2_axis1_apply 128 (res_main_v38 V0) _ P j (hi128 j) (Nat.add_comm _ _)).trans
    (preH1_apply V0 P (hi128 j))

theorem sH1_apply (j : Fin 128) : res_main_v52 V0 (ix2 P j) = sH (wOf V0) (rowAt V0 P) 1 j := by
  unfold res_main_v52 sH
  exact gateArr_apply _ _ _ _ (ix2 P j) _ _ _
    ((slice2_axis1_apply 0 (res_main_v38 V0) _ P j (lo128 j) (Nat.zero_add _).symm).trans
      (preH1_apply V0 P (lo128 j)))
    (sig1_apply V0 P j) (sh1_apply V0 P j)

theorem z1_apply (c : Fin 256) : res_main_v140 V0 (ix2 P c) = zup (wOf V0) (rowAt V0 P) 1 c := by
  unfold res_main_v140 zup
  exact cell_apply dot_S32768x128_S128x256_S32768x256_1_0_0_1_n_n rfl rfl (fun _ _ => rfl) (fun _ _ => rfl) (fun _ _ => rfl) (fun _ _ => rfl) _ _ _ _ _ P c _ _ _
    (fun k => sH1_apply V0 P k)
    (fun k => layer3_apply 1 (V0 (Proc.devRef .tc main_arg11)) _ _ (1 : Fin 5) rfl k c)
    (layer2_apply 1 (V0 (Proc.devRef .tc main_arg12)) _ _ (1 : Fin 5) rfl c)

/-! ## Layer 2 -/

theorem sh2_apply (k : Fin 128) : res_main_v54 V0 (ix2 P k) = (rowAt V0 P).sh 2 k := by
  unfold res_main_v54
  exact layer3_apply 2 (V0 (Proc.devRef .tc main_arg1)) _ _ (2 : Fin 5) rfl P k

theorem preH2_apply (c : Fin 256) : res_main_v62 V0 (ix2 P c) = preH (wOf V0) (rowAt V0 P) 2 c := by
  rw [preH_succ _ _ _ (by decide)]
  unfold res_main_v62 cellH
  exact cell_apply dot_S32768x128_S128x256_S32768x256_1_0_0_1_n_n rfl rfl (fun _ _ => rfl) (fun _ _ => rfl) (fun _ _ => rfl) (fun _ _ => rfl) _ _ _ _ _ P c _ _ _
    (fun k => sh2_apply V0 P k)
    (fun k => layer3_apply 2 (V0 (Proc.devRef .tc main_arg5)) _ _ (2 : Fin 5) rfl k c)
    (layer2_apply 2 (V0 (Proc.devRef .tc main_arg6)) _ _ (2 : Fin 5) rfl c)

theorem sig2_apply (j : Fin 128) :
    res_main_v71 V0 (ix2 P j) = Ideal.logistic (preH (wOf V0) (rowAt V0 P) 2 (hi128 j)) := by
  unfold res_main_v71
  refine (logisticArr_apply _ _ _).trans (congrArg Ideal.logistic ?_)
  exact (slice2_axis1_apply 128 (res_main_v62 V0) _ P j (hi128 j) (Nat.add_comm _ _)).trans
    (preH2_apply V0 P (hi128 j))

theorem sH2_apply (j : Fin 128) : res_main_v76 V0 (ix2 P j) = sH (wOf V0) (rowAt V0 P) 2 j := by
  unfold res_main_v76 sH
  exact gateArr_apply _ _ _ _ (ix2 P j) _ _ _
    ((slice2_axis1_apply 0 (res_main_v62 V0) _ P j (lo128 j) (Nat.zero_add _).symm).trans
      (preH2_apply V0 P (lo128 j)))
    (sig2_apply V0 P j) (sh2_apply V0 P j)

theorem z2_apply (c : Fin 256) : res_main_v148 V0 (ix2 P c) = zup (wOf V0) (rowAt V0 P) 2 c := by
  unfold res_main_v148 zup
  exact cell_apply dot_S32768x128_S128x256_S32768x256_1_0_0_1_n_n rfl rfl (fun _ _ => rfl) (fun _ _ => rfl) (fun _ _ => rfl) (fun _ _ => rfl) _ _ _ _ _ P c _ _ _
    (fun k => sH2_apply V0 P k)
    (fun k => layer3_apply 2 (V0 (Proc.devRef .tc main_arg11)) _ _ (2 : Fin 5) rfl k c)
    (layer2_apply 2 (V0 (Proc.devRef .tc main_arg12)) _ _ (2 : Fin 5) rfl c)

/-! ## Layer 3 -/

theorem sh3_apply (k : Fin 128) : res_main_v78 V0 (ix2 P k) = (rowAt V0 P).sh 3 k := by
  unfold res_main_v78
  exact layer3_apply 3 (V0 (Proc.devRef .tc main_arg1)) _ _ (3 : Fin 5) rfl P k

theorem preH3_apply (c : Fin 256) : res_main_v86 V0 (ix2 P c) = preH (wOf V0) (rowAt V0 P) 3 c := by
  rw [preH_succ _ _ _ (by decide)]
  unfold res_main_v86 cellH
  exact cell_apply dot_S32768x128_S128x256_S32768x256_1_0_0_1_n_n rfl rfl (fun _ _ => rfl) (fun _ _ => rfl) (fun _ _ => rfl) (fun _ _ => rfl) _ _ _ _ _ P c _ _ _
    (fun k => sh3_apply V0 P k)
    (fun k => layer3_apply 3 (V0 (Proc.devRef .tc main_arg5)) _ _ (3 : Fin 5) rfl k c)
    (layer2_apply 3 (V0 (Proc.devRef .tc main_arg6)) _ _ (3 : Fin 5) rfl c)

theorem sig3_apply (j : Fin 128) :
    res_main_v95 V0 (ix2 P j) = Ideal.logistic (preH (wOf V0) (rowAt V0 P) 3 (hi128 j)) := by
  unfold res_main_v95
  refine (logisticArr_apply _ _ _).trans (congrArg Ideal.logistic ?_)
  exact (slice2_axis1_apply 128 (res_main_v86 V0) _ P j (hi128 j) (Nat.add_comm _ _)).trans
    (preH3_apply V0 P (hi128 j))

theorem sH3_apply (j : Fin 128) : res_main_v100 V0 (ix2 P j) = sH (wOf V0) (rowAt V0 P) 3 j := by
  unfold res_main_v100 sH
  exact gateArr_apply _ _ _ _ (ix2 P j) _ _ _
    ((slice2_axis1_apply 0 (res_main_v86 V0) _ P j (lo128 j) (Nat.zero_add _).symm).trans
      (preH3_apply V0 P (lo128 j)))
    (sig3_apply V0 P j) (sh3_apply V0 P j)

theorem z3_apply (c : Fin 256) : res_main_v156 V0 (ix2 P c) = zup (wOf V0) (rowAt V0 P) 3 c := by
  unfold res_main_v156 zup
  exact cell_apply dot_S32768x128_S128x256_S32768x256_1_0_0_1_n_n rfl rfl (fun _ _ => rfl) (fun _ _ => rfl) (fun _ _ => rfl) (fun _ _ => rfl) _ _ _ _ _ P c _ _ _
    (fun k => sH3_apply V0 P k)
    (fun k => layer3_apply 3 (V0 (Proc.devRef .tc main_arg11)) _ _ (3 : Fin 5) rfl k c)
    (layer2_apply 3 (V0 (Proc.devRef .tc main_arg12)) _ _ (3 : Fin 5) rfl c)

/-! ## Layer 4 -/

theorem sh4_apply (k : Fin 128) : res_main_v102 V0 (ix2 P k) = (rowAt V0 P).sh 4 k := by
  unfold res_main_v102
  exact layer3_apply 4 (V0 (Proc.devRef .tc main_arg1)) _ _ (4 : Fin 5) rfl P k

theorem preH4_apply (c : Fin 256) : res_main_v110 V0 (ix2 P c) = preH (wOf V0) (rowAt V0 P) 4 c := by
  rw [preH_succ _ _ _ (by decide)]
  unfold res_main_v110 cellH
  exact cell_apply dot_S32768x128_S128x256_S32768x256_1_0_0_1_n_n rfl rfl (fun _ _ => rfl) (fun _ _ => rfl) (fun _ _ => rfl) (fun _ _ => rfl) _ _ _ _ _ P c _ _ _
    (fun k => sh4_apply V0 P k)
    (fun k => layer3_apply 4 (V0 (Proc.devRef .tc main_arg5)) _ _ (4 : Fin 5) rfl k c)
    (layer2_apply 4 (V0 (Proc.devRef .tc main_arg6)) _ _ (4 : Fin 5) rfl c)

theorem sig4_apply (j : Fin 128) :
    res_main_v119 V0 (ix2 P j) = Ideal.logistic (preH (wOf V0) (rowAt V0 P) 4 (hi128 j)) := by
  unfold res_main_v119
  refine (logisticArr_apply _ _ _).trans (congrArg Ideal.logistic ?_)
  exact (slice2_axis1_apply 128 (res_main_v110 V0) _ P j (hi128 j) (Nat.add_comm _ _)).trans
    (preH4_apply V0 P (hi128 j))

theorem sH4_apply (j : Fin 128) : res_main_v124 V0 (ix2 P j) = sH (wOf V0) (rowAt V0 P) 4 j := by
  unfold res_main_v124 sH
  exact gateArr_apply _ _ _ _ (ix2 P j) _ _ _
    ((slice2_axis1_apply 0 (res_main_v110 V0) _ P j (lo128 j) (Nat.zero_add _).symm).trans
      (preH4_apply V0 P (lo128 j)))
    (sig4_apply V0 P j) (sh4_apply V0 P j)

theorem z4_apply (c : Fin 256) : res_main_v164 V0 (ix2 P c) = zup (wOf V0) (rowAt V0 P) 4 c := by
  unfold res_main_v164 zup
  exact cell_apply dot_S32768x128_S128x256_S32768x256_1_0_0_1_n_n rfl rfl (fun _ _ => rfl) (fun _ _ => rfl) (fun _ _ => rfl) (fun _ _ => rfl) _ _ _ _ _ P c _ _ _
    (fun k => sH4_apply V0 P k)
    (fun k => layer3_apply 4 (V0 (Proc.devRef .tc main_arg11)) _ _ (4 : Fin 5) rfl k c)
    (layer2_apply 4 (V0 (Proc.devRef .tc main_arg12)) _ _ (4 : Fin 5) rfl c)

/-! ## The stacked hyper states -/

/-- The reference's second result is the hyper states of the specification. -/
theorem v306_eq : val6 V0 (Proc.devRef .tc main_v306) = outSH (wOf V0) (V0 (Proc.devRef .tc main_arg0)) (V0 (Proc.devRef .tc main_arg1)) (V0 (Proc.devRef .tc main_arg2)) := by
  funext i
  obtain ⟨l, p, j, rfl⟩ : ∃ (l : Fin 5) (p : Fin 32768) (j : Fin 128), i = ix3 l p j := ⟨i 0, i 1, i 2, eq_ix3 i⟩
  refine Eq.trans ?_ (outSH_apply (wOf V0) _ _ _ l p j).symm
  rw [val6_main_v306]
  refine stack5_apply _ _ _ _ _ _ l p j _ ?_ ?_ ?_ ?_ ?_
  · rintro rfl; exact (bcast_ab_1ab_apply _ _ 0 p j).trans (sH0_apply V0 p j)
  · rintro rfl; exact (bcast_ab_1ab_apply _ _ 0 p j).trans (sH1_apply V0 p j)
  · rintro rfl; exact (bcast_ab_1ab_apply _ _ 0 p j).trans (sH2_apply V0 p j)
  · rintro rfl; exact (bcast_ab_1ab_apply _ _ 0 p j).trans (sH3_apply V0 p j)
  · rintro rfl; exact (bcast_ab_1ab_apply _ _ 0 p j).trans (sH4_apply V0 p j)

end Cert.Hrhn.Ref

end
-- ==== Proof.RefValue.lean ====
/-
  The reference program's network cell, layer by layer, read at an index, and the reference's three results.

  The modulation of a layer is laid side by side with itself, so that column c of the left copy and column c of the
  right copy both carry the modulation at c; the product with the cell's pre-activation of width 512 is therefore
  the modulation at c times the pre-activation at c (left copy) and at c + 256 (right copy). In layer 0 the
  modulation multiplies the cell term and the input projection separately: that is the second arrangement of the
  specification, equal to the first when the inputs are real numbers.
-/
import proofs.«139043_j64879775973862_2_alg».proof.Proof.RefHyper

noncomputable section

namespace Cert.Hrhn.Ref

open Idealize.ShloMosaic Idealize.ShloMosaic.ValueIdx Cert.ReferenceIdeal Cert.ReferenceIdeal.Value

/-- An array laid side by side with itself, times a product of arrays plus a bias row, at `(p, c')` where `c'` is
    column `c` of the left or of the right copy. -/
theorem modCell_apply {M K N N2 : ℕ}
    (d : DotDims (⟨2, ![M, K]⟩ : Shape) (⟨2, ![K, N2]⟩ : Shape) (⟨2, ![M, N2]⟩ : Shape))
    (hrank : d.contr.rank = 1) (hsize : d.contr.size ⟨0, by omega⟩ = K)
    (hl0 : ∀ (j : (⟨2, ![M, N2]⟩ : Shape).Idx) (k : d.contr.Idx), (d.lhsIdx j k 0).val = (j 0).val)
    (hl1 : ∀ (j : (⟨2, ![M, N2]⟩ : Shape).Idx) (k : d.contr.Idx), (d.lhsIdx j k 1).val = (k ⟨0, by omega⟩).val)
    (hr0 : ∀ (j : (⟨2, ![M, N2]⟩ : Shape).Idx) (k : d.contr.Idx), (d.rhsIdx j k 0).val = (k ⟨0, by omega⟩).val)
    (hr1 : ∀ (j : (⟨2, ![M, N2]⟩ : Shape).Idx) (k : d.contr.Idx), (d.rhsIdx j k 1).val = (j 1).val)
    (z : FVec Ideal ⟨2, ![M, N]⟩ .f32)
    (hcat : Shape.Concatenates [(⟨2, ![M, N]⟩ : Shape), ⟨2, ![M, N]⟩] ⟨2, ![M, N2]⟩ 1)
    (s : FVec Ideal ⟨2, ![M, K]⟩ .f32) (Wm : FVec Ideal ⟨2, ![K, N2]⟩ .f32) (bv : FVec Ideal ⟨1, ![N2]⟩ .f32)
    (h1 : (⟨1, ![N2]⟩ : Shape).BroadcastsInDim ⟨2, ![1, N2]⟩ ![1])
    (h2 : (⟨2, ![1, N2]⟩ : Shape).BroadcastsInDim ⟨2, ![M, N2]⟩ ![0, 1]) (p : Fin M) (c : Fin N) (c' : Fin N2)
    (hc : c'.val = c.val ∨ c'.val = c.val + N) (zc : EReal) (hz : z (ix2 p c) = zc)
    (s' W' : Fin K → EReal) (b' : EReal)
    (hs : ∀ k, s (ix2 p k) = s' k) (hW : ∀ k, Wm (ix2 k c') = W' k) (hb : bv (ix1 c') = b') :
    mulf (concatenate ⟨2, ![M, N2]⟩ 1 [⟨⟨2, ![M, N]⟩, z⟩, ⟨⟨2, ![M, N]⟩, z⟩] hcat)
      (addf (Host.dotGeneral d none s Wm)
        (broadcastInDim ⟨2, ![M, N2]⟩ ![0, 1] h2 (broadcastInDim ⟨2, ![1, N2]⟩ ![1] h1 bv))) (ix2 p c')
      = zc * (dotv s' W' + b') := by
  refine (mulf_apply _ _ _).trans
    (congrArg₂ (· * ·) ?_ (cell_apply d hrank hsize hl0 hl1 hr0 hr1 s Wm bv h1 h2 p c' s' W' b' hs hW hb))
  rcases hc with hc | hc
  · exact (concat2_left z z hcat p c c' hc).trans hz
  · exact (concat2_right z z hcat p c c' hc).trans hz

theorem preN_zero (W : Weights) (r : Row) (c : Fin 512) : preN W r 0 c = cellN W r 0 c + inpN W r c := if_pos rfl
theorem preN_succ (W : Weights) (r : Row) (l : Fin 5) (hl : l ≠ 0) (c : Fin 512) : preN W r l c = cellN W r l c := if_neg hl
theorem modN_zero (W : Weights) (r : Row) (c : Fin 512) (zc : EReal) :
    modN W r 0 c zc = zc * cellN W r 0 c + zc * inpN W r c := if_pos rfl

variable (V0 : Valuation τ sig (Elt Ideal)) (P : Fin 32768)

/-! ## Layer 0 -/

theorem sn0_apply (k : Fin 256) : res_main_v166 V0 (ix2 P k) = (rowAt V0 P).sn 0 k := by
  unfold res_main_v166
  exact layer3_apply 0 (V0 (Proc.devRef .tc main_arg2)) _ _ (0 : Fin 5) rfl P k

theorem zz0_apply (c : Fin 256) (c' : Fin 512) (hc : c'.val = c.val ∨ c'.val = c.val + 256) :
    res_main_v167 V0 (ix2 P c') = zup (wOf V0) (rowAt V0 P) 0 c := by
  unfold res_main_v167
  rcases hc with hc | hc
  · exact (concat2_left _ _ _ P c c' hc).trans (z0_apply V0 P c)
  · exact (concat2_right _ _ _ P c c' hc).trans (z0_apply V0 P c)

theorem mod0_apply (c : Fin 256) (c' : Fin 512) (hc : c'.val = c.val ∨ c'.val = c.val + 256) :
    res_main_v182 V0 (ix2 P c') = modN (wOf V0) (rowAt V0 P) 0 c' (zup (wOf V0) (rowAt V0 P) 0 c) := by
  rw [modN_zero]
  unfold res_main_v182 cellN inpN
  refine (addf_apply _ _ _).trans (congrArg₂ (· + ·) ?_ ?_)
  · refine (mulf_apply _ _ _).trans (congrArg₂ (· * ·) (zz0_apply V0 P c c' hc) ?_)
    exact cell_apply dot_S32768x256_S256x512_S32768x512_1_0_0_1_n_n rfl rfl (fun _ _ => rfl) (fun _ _ => rfl) (fun _ _ => rfl) (fun _ _ => rfl) _ _ _ _ _ P c' _ _ _
      (fun k => sn0_apply V0 P k)
      (fun k => layer3_apply 0 (V0 (Proc.devRef .tc main_arg9)) _ _ (0 : Fin 5) rfl k c')
      (layer2_apply 0 (V0 (Proc.devRef .tc main_arg10)) _ _ (0 : Fin 5) rfl c')
  · refine (mulf_apply _ _ _).trans (congrArg₂ (· * ·) (zz0_apply V0 P c c' hc) ?_)
    exact cell_apply dot_S32768x256_S256x512_S32768x512_1_0_0_1_n_n rfl rfl (fun _ _ => rfl) (fun _ _ => rfl) (fun _ _ => rfl) (fun _ _ => rfl) _ _ _ _ _ P c' _ _ _
      (fun _ => rfl) (fun _ => rfl) rfl

theorem sigN0_apply (c : Fin 256) :
    res_main_v191 V0 (ix2 P c)
      = Ideal.logistic (modN (wOf V0) (rowAt V0 P) 0 (hi256 c) (zup (wOf V0) (rowAt V0 P) 0 c)) := by
  unfold res_main_v191
  refine (logisticArr_apply _ _ _).trans (congrArg Ideal.logistic ?_)
  exact (slice2_axis1_apply 256 (res_main_v182 V0) _ P c (hi256 c) (Nat.add_comm _ _)).trans
    (mod0_apply V0 P c (hi256 c) (Or.inr rfl))

theorem sN0_apply (hsl : S32768x512.Slices ![0, 0] S32768x256) (hb : S_.BroadcastsInDim S32768x256 ![]) (c : Fin 256) :
    (addf (mulf (Host.tanh (extractStridedSlice S32768x256 ![0, 0] (res_main_v182 V0) hsl)) (res_main_v191 V0))
      (mulf (res_main_v166 V0) (subf (broadcastInDim S32768x256 ![] hb (constant (F := Ideal) S_ .f32 0x3F800000#32)) (res_main_v191 V0)))) (ix2 P c)
      = sN' (wOf V0) (rowAt V0 P) 0 c := by
  unfold sN'
  exact gateArr_apply _ _ _ _ (ix2 P c) _ _ _
    ((slice2_axis1_apply 0 (res_main_v182 V0) _ P c (lo256 c) (Nat.zero_add _).symm).trans
      (mod0_apply V0 P c (lo256 c) (Or.inl rfl)))
    (sigN0_apply V0 P c) (sn0_apply V0 P c)

/-! ## Layer 1 -/

theorem sn1_apply (k : Fin 256) : res_main_v198 V0 (ix2 P k) = (rowAt V0 P).sn 1 k := by
  unfold res_main_v198
  exact layer3_apply 1 (V0 (Proc.devRef .tc main_arg2)) _ _ (1 : Fin 5) rfl P k

theorem mod1_apply (c : Fin 256) (c' : Fin 512) (hc : c'.val = c.val ∨ c'.val = c.val + 256) :
    res_main_v208 V0 (ix2 P c') = zup (wOf V0) (rowAt V0 P) 1 c * preN (wOf V0) (rowAt V0 P) 1 c' := by
  rw [preN_succ _ _ _ (by decide)]
  unfold res_main_v208 cellN
  exact modCell_apply dot_S32768x256_S256x512_S32768x512_1_0_0_1_n_n rfl rfl (fun _ _ => rfl) (fun _ _ => rfl) (fun _ _ => rfl) (fun _ _ => rfl) _ _ _ _ _ _ _ P c c' hc _ (z1_apply V0 P c) _ _ _
    (fun k => sn1_apply V0 P k)
    (fun k => layer3_apply 1 (V0 (Proc.devRef .tc main_arg9)) _ _ (1 : Fin 5) rfl k c')
    (layer2_apply 1 (V0 (Proc.devRef .tc main_arg10)) _ _ (1 : Fin 5) rfl c')

theorem sigN1_apply (c : Fin 256) :
    res_main_v217 V0 (ix2 P c)
      = Ideal.logistic (zup (wOf V0) (rowAt V0 P) 1 c * preN (wOf V0) (rowAt V0 P) 1 (hi256 c)) := by
  unfold res_main_v217
  refine (logisticArr_apply _ _ _).trans (congrArg Ideal.logistic ?_)
  exact (slice2_axis1_apply 256 (res_main_v208 V0) _ P c (hi256 c) (Nat.add_comm _ _)).trans
    (mod1_apply V0 P c (hi256 c) (Or.inr rfl))

theorem sN1_apply (hsl : S32768x512.Slices ![0, 0] S32768x256) (hb : S_.BroadcastsInDim S32768x256 ![]) (c : Fin 256) :
    (addf (mulf (Host.tanh (extractStridedSlice S32768x256 ![0, 0] (res_main_v208 V0) hsl)) (res_main_v217 V0))
      (mulf (res_main_v198 V0) (subf (broadcastInDim S32768x256 ![] hb (constant (F := Ideal) S_ .f32 0x3F800000#32)) (res_main_v217 V0)))) (ix2 P c)
      = sN (wOf V0) (rowAt V0 P) 1 c := by
  unfold sN
  exact gateArr_apply _ _ _ _ (ix2 P c) _ _ _
    ((slice2_axis1_apply 0 (res_main_v208 V0) _ P c (lo256 c) (Nat.zero_add _).symm).trans
      (mod1_apply V0 P c (lo256 c) (Or.inl rfl)))
    (sigN1_apply V0 P c) (sn1_apply V0 P c)

/-! ## Layer 2 -/

theorem sn2_apply (k : Fin 256) : res_main_v224 V0 (ix2 P k) = (rowAt V0 P).sn 2 k := by
  unfold res_main_v224
  exact layer3_apply 2 (V0 (Proc.devRef .tc main_arg2)) _ _ (2 : Fin 5) rfl P k

theorem mod2_apply (c : Fin 256) (c' : Fin 512) (hc : c'.val = c.val ∨ c'.val = c.val + 256) :
    res_main_v234 V0 (ix2 P c') = zup (wOf V0) (rowAt V0 P) 2 c * preN (wOf V0) (rowAt V0 P) 2 c' := by
  rw [preN_succ _ _ _ (by decide)]
  unfold res_main_v234 cellN
  exact modCell_apply dot_S32768x256_S256x512_S32768x512_1_0_0_1_n_n rfl rfl (fun _ _ => rfl) (fun _ _ => rfl) (fun _ _ => rfl) (fun _ _ => rfl) _ _ _ _ _ _ _ P c c' hc _ (z2_apply V0 P c) _ _ _
    (fun k => sn2_apply V0 P k)
    (fun k => layer3_apply 2 (V0 (Proc.devRef .tc main_arg9)) _ _ (2 : Fin 5) rfl k c')
    (layer2_apply 2 (V0 (Proc.devRef .tc main_arg10)) _ _ (2 : Fin 5) rfl c')

theorem sigN2_apply (c : Fin 256) :
    res_main_v243 V0 (ix2 P c)
      = Ideal.logistic (zup (wOf V0) (rowAt V0 P) 2 c * preN (wOf V0) (rowAt V0 P) 2 (hi256 c)) := by
  unfold res_main_v243
  refine (logisticArr_apply _ _ _).trans (congrArg Ideal.logistic ?_)
  exact (slice2_axis1_apply 256 (res_main_v234 V0) _ P c (hi256 c) (Nat.add_comm _ _)).trans
    (mod2_apply V0 P c (hi256 c) (Or.inr rfl))

theorem sN2_apply (hsl : S32768x512.Slices ![0, 0] S32768x256) (hb : S_.BroadcastsInDim S32768x256 ![]) (c : Fin 256) :
    (addf (mulf (Host.tanh (extractStridedSlice S32768x256 ![0, 0] (res_main_v234 V0) hsl)) (res_main_v243 V0))
      (mulf (res_main_v224 V0) (subf (broadcastInDim S32768x256 ![] hb (constant (F := Ideal) S_ .f32 0x3F800000#32)) (res_main_v243 V0)))) (ix2 P c)
      = sN (wOf V0) (rowAt V0 P) 2 c := by
  unfold sN
  exact gateArr_apply _ _ _ _ (ix2 P c) _ _ _
    ((slice2_axis1_apply 0 (res_main_v234 V0) _ P c (lo256 c) (Nat.zero_add _).symm).trans
      (mod2_apply V0 P c (lo256 c) (Or.inl rfl)))
    (sigN2_apply V0 P c) (sn2_apply V0 P c)

/-! ## Layer 3 -/

theorem sn3_apply (k : Fin 256) : res_main_v250 V0 (ix2 P k) = (rowAt V0 P).sn 3 k := by
  unfold res_main_v250
  exact layer3_apply 3 (V0 (Proc.devRef .tc main_arg2)) _ _ (3 : Fin 5) rfl P k

theorem mod3_apply (c : Fin 256) (c' : Fin 512) (hc : c'.val = c.val ∨ c'.val = c.val + 256) :
    res_main_v260 V0 (ix2 P c') = zup (wOf V0) (rowAt V0 P) 3 c * preN (wOf V0) (rowAt V0 P) 3 c' := by
  rw [preN_succ _ _ _ (by decide)]
  unfold res_main_v260 cellN
  exact modCell_apply dot_S32768x256_S256x512_S32768x512_1_0_0_1_n_n rfl rfl (fun _ _ => rfl) (fun _ _ => rfl) (fun _ _ => rfl) (fun _ _ => rfl) _ _ _ _ _ _ _ P c c' hc _ (z3_apply V0 P c) _ _ _
    (fun k => sn3_apply V0 P k)
    (fun k => layer3_apply 3 (V0 (Proc.devRef .tc main_arg9)) _ _ (3 : Fin 5) rfl k c')
    (layer2_apply 3 (V0 (Proc.devRef .tc main_arg10)) _ _ (3 : Fin 5) rfl c')

theorem sigN3_apply (c : Fin 256) :
    res_main_v269 V0 (ix2 P c)
      = Ideal.logistic (zup (wOf V0) (rowAt V0 P) 3 c * preN (wOf V0) (rowAt V0 P) 3 (hi256 c)) := by
  unfold res_main_v269
  refine (logisticArr_apply _ _ _).trans (congrArg Ideal.logistic ?_)
  exact (slice2_axis1_apply 256 (res_main_v260 V0) _ P c (hi256 c) (Nat.add_comm _ _)).trans
    (mod3_apply V0 P c (hi256 c) (Or.inr rfl))

theorem sN3_apply (hsl : S32768x512.Slices ![0, 0] S32768x256) (hb : S_.BroadcastsInDim S32768x256 ![]) (c : Fin 256) :
    (addf (mulf (Host.tanh (extractStridedSlice S32768x256 ![0, 0] (res_main_v260 V0) hsl)) (res_main_v269 V0))
      (mulf (res_main_v250 V0) (subf (broadcastInDim S32768x256 ![] hb (constant (F := Ideal) S_ .f32 0x3F800000#32)) (res_main_v269 V0)))) (ix2 P c)
      = sN (wOf V0) (rowAt V0 P) 3 c := by
  unfold sN
  exact gateArr_apply _ _ _ _ (ix2 P c) _ _ _
    ((slice2_axis1_apply 0 (res_main_v260 V0) _ P c (lo256 c) (Nat.zero_add _).symm).trans
      (mod3_apply V0 P c (lo256 c) (Or.inl rfl)))
    (sigN3_apply V0 P c) (sn3_apply V0 P c)

/-! ## Layer 4 -/

theorem sn4_apply (k : Fin 256) : res_main_v276 V0 (ix2 P k) = (rowAt V0 P).sn 4 k := by
  unfold res_main_v276
  exact layer3_apply 4 (V0 (Proc.devRef .tc main_arg2)) _ _ (4 : Fin 5) rfl P k

theorem mod4_apply (c : Fin 256) (c' : Fin 512) (hc : c'.val = c.val ∨ c'.val = c.val + 256) :
    res_main_v286 V0 (ix2 P c') = zup (wOf V0) (rowAt V0 P) 4 c * preN (wOf V0) (rowAt V0 P) 4 c' := by
  rw [preN_succ _ _ _ (by decide)]
  unfold res_main_v286 cellN
  exact modCell_apply dot_S32768x256_S256x512_S32768x512_1_0_0_1_n_n rfl rfl (fun _ _ => rfl) (fun _ _ => rfl) (fun _ _ => rfl) (fun _ _ => rfl) _ _ _ _ _ _ _ P c c' hc _ (z4_apply V0 P c) _ _ _
    (fun k => sn4_apply V0 P k)
    (fun k => layer3_apply 4 (V0 (Proc.devRef .tc main_arg9)) _ _ (4 : Fin 5) rfl k c')
    (layer2_apply 4 (V0 (Proc.devRef .tc main_arg10)) _ _ (4 : Fin 5) rfl c')

theorem sigN4_apply (c : Fin 256) :
    res_main_v295 V0 (ix2 P c)
      = Ideal.logistic (zup (wOf V0) (rowAt V0 P) 4 c * preN (wOf V0) (rowAt V0 P) 4 (hi256 c)) := by
  unfold res_main_v295
  refine (logisticArr_apply _ _ _).trans (congrArg Ideal.logistic ?_)
  exact (slice2_axis1_apply 256 (res_main_v286 V0) _ P c (hi256 c) (Nat.add_comm _ _)).trans
    (mod4_apply V0 P c (hi256 c) (Or.inr rfl))

theorem sN4_apply (hsl : S32768x512.Slices ![0, 0] S32768x256) (hb : S_.BroadcastsInDim S32768x256 ![]) (c : Fin 256) :
    (addf (mulf (Host.tanh (extractStridedSlice S32768x256 ![0, 0] (res_main_v286 V0) hsl)) (res_main_v295 V0))
      (mulf (res_main_v276 V0) (subf (broadcastInDim S32768x256 ![] hb (constant (F := Ideal) S_ .f32 0x3F800000#32)) (res_main_v295 V0)))) (ix2 P c)
      = sN (wOf V0) (rowAt V0 P) 4 c := by
  unfold sN
  exact gateArr_apply _ _ _ _ (ix2 P c) _ _ _
    ((slice2_axis1_apply 0 (res_main_v286 V0) _ P c (lo256 c) (Nat.zero_add _).symm).trans
      (mod4_apply V0 P c (lo256 c) (Or.inl rfl)))
    (sigN4_apply V0 P c) (sn4_apply V0 P c)

/-! ## The three results -/

/-- The reference's third result is the network states of the specification, when every batch row is finite
    enough for layer 0's modulation to distribute. -/
theorem v312_eq (hfin : ∀ P : Fin 32768, Finite0 (wOf V0) (rowOf (R := 32768) (V0 (Proc.devRef .tc main_arg0)) (V0 (Proc.devRef .tc main_arg1)) (V0 (Proc.devRef .tc main_arg2)) P)) :
    val6 V0 (Proc.devRef .tc main_v312) = outSN (wOf V0) (V0 (Proc.devRef .tc main_arg0)) (V0 (Proc.devRef .tc main_arg1)) (V0 (Proc.devRef .tc main_arg2)) := by
  funext i
  obtain ⟨l, p, c, rfl⟩ : ∃ (l : Fin 5) (p : Fin 32768) (c : Fin 256), i = ix3 l p c := ⟨i 0, i 1, i 2, eq_ix3 i⟩
  refine Eq.trans ?_ (outSN_apply (wOf V0) _ _ _ l p c).symm
  rw [val6_main_v312]
  refine stack5_apply _ _ _ _ _ _ l p c _ ?_ ?_ ?_ ?_ ?_
  · rintro rfl
    exact ((bcast_ab_1ab_apply _ _ 0 p c).trans (sN0_apply V0 p _ _ c)).trans (sN'_eq (hfin p) 0 c)
  · rintro rfl; exact (bcast_ab_1ab_apply _ _ 0 p c).trans (sN1_apply V0 p _ _ c)
  · rintro rfl; exact (bcast_ab_1ab_apply _ _ 0 p c).trans (sN2_apply V0 p _ _ c)
  · rintro rfl; exact (bcast_ab_1ab_apply _ _ 0 p c).trans (sN3_apply V0 p _ _ c)
  · rintro rfl; exact (bcast_ab_1ab_apply _ _ 0 p c).trans (sN4_apply V0 p _ _ c)

/-- The reference's first result is the last layer's network state of the specification. -/
theorem v300_eq (hfin : ∀ P : Fin 32768, Finite0 (wOf V0) (rowOf (R := 32768) (V0 (Proc.devRef .tc main_arg0)) (V0 (Proc.devRef .tc main_arg1)) (V0 (Proc.devRef .tc main_arg2)) P)) :
    val6 V0 (Proc.devRef .tc main_v300) = outLast (wOf V0) (V0 (Proc.devRef .tc main_arg0)) (V0 (Proc.devRef .tc main_arg1)) (V0 (Proc.devRef .tc main_arg2)) := by
  funext i
  obtain ⟨p, c, rfl⟩ : ∃ (p : Fin 32768) (c : Fin 256), i = ix2 p c := ⟨i 0, i 1, eq_ix2 i⟩
  refine Eq.trans ?_ (outLast_apply (wOf V0) _ _ _ p c).symm
  rw [val6_main_v300]
  exact sN4_apply V0 p _ _ c

end Cert.Hrhn.Ref

end
-- ==== Proof.FiniteInputs.lean ====
/-
  Finiteness of the inputs, read out of the precondition.

  The precondition is the conjunction of thirteen tests, one per float input array: the test of an array a is
  "every entry of |a| is below plus infinity", a reduction by "and" over all axes of the entrywise comparison. When
  the conjunction is one, each reduction is one, so each comparison is one at every index; an extended real whose
  absolute value max x (-x) is below plus infinity is neither of the two infinities, hence a real number. So every
  entry of every input array is real, and in particular the entries the layer-0 distribution law needs are.
-/
import proofs.«139043_j64879775973862_2_alg».proof.Proof.Gen.Pre_finite_inputs
import proofs.«139043_j64879775973862_2_alg».proof.Proof.Arrays
import Idealize.ShloMosaic.Lib.ReduceAll
import Idealize.ShloMosaic.Lib.ValueIdx

noncomputable section

namespace Cert.Hrhn.Fin

open Idealize.ShloMosaic

/-- An extended real whose absolute value is below plus infinity (the word of the float +inf) is a real number. -/
theorem isReal_of_abs_lt_inf (x : EReal)
    (h : Ideal.cmp .olt (max x (-x)) (Ideal.ofBits .f32 0x7F800000#32) = 1#1) : IsReal x := by
  have hinf : Ideal.ofBits .f32 0x7F800000#32 = (⊤ : EReal) := by
    simp [Ideal.ofBits, Ideal.ieee]
  rw [hinf] at h
  induction x using EReal.rec with
  | bot => simp [Ideal.cmp] at h
  | coe t => exact ⟨t, rfl⟩
  | top => simp [Ideal.cmp] at h

/-- The scalar shape has one index. -/
instance : Subsingleton (⟨0, ![]⟩ : Shape).Idx := ⟨fun a b => funext fun d => d.elim0⟩

/-- One array's test: when the reduction by "and", over all axes, of the comparison |a| < +inf is one, every entry
    of a is a real number. Stated once for every shape. -/
theorem real_of_all {s : Shape} {axes : List (Fin s.rank)} (a : s.Idx → EReal)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf (F := Ideal) (φ := .f32) a)
            (broadcastInDim s ![] hb (constant (F := Ideal) ⟨0, ![]⟩ .f32 0x7F800000#32))) init hr hu ValueIdx.ix0 = 1#1)
    (i : s.Idx) : IsReal (a i) :=
  isReal_of_abs_lt_inf (a i) (Host.reduce_andi_all _ init hr hu ValueIdx.ix0 e i)

open Cert.Pre_finite_inputs in
/-- The precondition decoded: every entry of each of the thirteen input arrays is a real number. -/
theorem real_of_fn [Cert.Pre_finite_inputs.Facts]
    (a0 : S32768x256.Idx → EReal) (a1 : S5x32768x128.Idx → EReal) (a2 : S5x32768x256.Idx → EReal)
    (a3 : S256x256.Idx → EReal) (a4 : S256.Idx → EReal) (a5 : S5x128x256.Idx → EReal) (a6 : S5x256.Idx → EReal)
    (a7 : S256x512.Idx → EReal) (a8 : S512.Idx → EReal) (a9 : S5x256x512.Idx → EReal) (a10 : S5x512.Idx → EReal)
    (a11 : S5x128x256.Idx → EReal) (a12 : S5x256.Idx → EReal)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) := by
  -- the value of the precondition at its one index, as a conjunction of thirteen reductions
  have e := congrFun h ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨⟨e0, e1⟩, e2⟩, e3⟩, e4⟩, e5⟩, e6⟩, e7⟩, e8⟩, e9⟩, e10⟩, e11⟩, e12⟩ := e
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8, real_of_all a9 _ _ _ _ e9, real_of_all a10 _ _ _ _ e10, real_of_all a11 _ _ _ _ e11,
    real_of_all a12 _ _ _ _ e12⟩

open Cert.Pre_finite_inputs Idealize.ShloMosaic.ValueIdx in
/-- Under the precondition, what the layer-0 distribution law needs to be real is real, at every batch row. -/
theorem finite0_of_fn [Cert.Pre_finite_inputs.Facts]
    (a0 : S32768x256.Idx → EReal) (a1 : S5x32768x128.Idx → EReal) (a2 : S5x32768x256.Idx → EReal)
    (a3 : S256x256.Idx → EReal) (a4 : S256.Idx → EReal) (a5 : S5x128x256.Idx → EReal) (a6 : S5x256.Idx → EReal)
    (a7 : S256x512.Idx → EReal) (a8 : S512.Idx → EReal) (a9 : S5x256x512.Idx → EReal) (a10 : S5x512.Idx → EReal)
    (a11 : S5x128x256.Idx → EReal) (a12 : S5x256.Idx → EReal)
    (h : Cert.Pre_finite_inputs.fn (F := Ideal) a0 a1 a2 a3 a4 a5 a6 a7 a8 a9 a10 a11 a12 = fun _ => 1#1)
    (P : Fin 32768) :
    Cert.Hrhn.Finite0 (Cert.Hrhn.weightsOf a3 a4 a5 a6 a7 a8 a9 a10 a11 a12) (Cert.Hrhn.rowOf a0 a1 a2 P) := by
  obtain ⟨h0, h1, h2, -, -, -, -, h7, h8, h9, h10, h11, h12⟩ :=
    real_of_fn a0 a1 a2 a3 a4 a5 a6 a7 a8 a9 a10 a11 a12 h
  exact
    { x := fun k => h0 (ix2 P k)
      sh := fun k => h1 (ix3 0 P k)
      sn := fun k => h2 (ix3 0 P k)
      Win := fun k c => h7 (ix2 k c)
      bin := fun c => h8 (ix1 c)
      Wcn := fun k c => h9 (ix3 0 k c)
      bcn := fun c => h10 (ix2 0 c)
      Wup := fun k c => h11 (ix3 0 k c)
      bup := fun c => h12 (ix2 0 c) }

end Cert.Hrhn.Fin

end
-- ==== Proof.lean ====
/-
  The kernel and its reference compute the same hyper-modulated recurrent highway cell.

  Both programs map thirteen arrays (a batch of 32768 rows of inputs and two stacks of per-layer states, and the weights
  of five layers) to three arrays: the last layer's network state, the five hyper states, the five network states. Every
  output row is a function of the same batch row of the inputs and of the weights (Proof/Spec.lean): per layer a highway
  gate of an affine pre-activation gives the hyper state, an affine map of it the modulation, and a highway gate of the
  modulated network pre-activation the network state.

  The kernel computes 1024 rows per grid point; what a point leaves in its three output blocks is the specification over
  the staged blocks (Proof/KernelBlock.lean: each matrix product a plain sum over the contracted axis, the two halves of
  a pre-activation two column slices, format changes the identity), and the 32 blocks tile the arrays
  (Proof/KernelArray.lean). The reference computes the whole batch at once (Proof/RefHyper.lean, Proof/RefValue.lean); it
  writes the logistic function out as 1 / (1 + e^(-y)), which is the same function, and in layer 0 it multiplies the
  modulation into the two summands of the pre-activation separately, z * a + z * b where the kernel has z * (a + b).
  On the extended reals that is the same value when z, a and b are real numbers — and they are, the inputs being finite
  (Proof/FiniteInputs.lean): the hyperbolic tangent and the logistic function of anything are real, and sums and products
  of reals are real. This is the one place the precondition is used.

  The three frames are the generated frame runs (the reference's: its generated run with the results dropped); the
  idealized kernel is the kernel's own text read over the extended reals, so nothing is owed for it.
-/
import proofs.«139043_j64879775973862_2_alg».proof.Defs
import proofs.«139043_j64879775973862_2_alg».proof.Proof.Gen.Kernel
import proofs.«139043_j64879775973862_2_alg».proof.Proof.Gen.Kernel.Skeleton
import proofs.«139043_j64879775973862_2_alg».proof.Proof.Gen.Kernel.Launch
import proofs.«139043_j64879775973862_2_alg».proof.Proof.Gen.Kernel.Points
import proofs.«139043_j64879775973862_2_alg».proof.Proof.Gen.Kernel.Frame
import proofs.«139043_j64879775973862_2_alg».proof.Proof.Gen.KernelIdeal
import proofs.«139043_j64879775973862_2_alg».proof.Proof.Gen.KernelIdeal.Skeleton
import proofs.«139043_j64879775973862_2_alg».proof.Proof.Gen.KernelIdeal.Launch
import proofs.«139043_j64879775973862_2_alg».proof.Proof.Gen.KernelIdeal.Points
import proofs.«139043_j64879775973862_2_alg».proof.Proof.Gen.KernelIdeal.Frame
import proofs.«139043_j64879775973862_2_alg».proof.Proof.Gen.ReferenceIdeal
import proofs.«139043_j64879775973862_2_alg».proof.Proof.Gen.Pre_finite_inputs
import proofs.«139043_j64879775973862_2_alg».proof.Proof.Gen.KernelIdeal.Value
import proofs.«139043_j64879775973862_2_alg».proof.Proof.Gen.ReferenceIdeal.Run
import proofs.«139043_j64879775973862_2_alg».proof.Proof.KernelBlock
import proofs.«139043_j64879775973862_2_alg».proof.Proof.KernelArray
import proofs.«139043_j64879775973862_2_alg».proof.Proof.RefValue
import proofs.«139043_j64879775973862_2_alg».proof.Proof.FiniteInputs
import Idealize.ShloMosaic.Adequacy
import Idealize.ShloMosaic.Init

noncomputable section

namespace Cert.Proof

open Idealize.ShloMosaic Idealize.SL.Sem Cert.Hrhn

/-- What a grid point leaves in its three output blocks is the specification over the staged blocks. -/
theorem blockEqs : KArr.BlockEqs :=
  ⟨fun x0 x1 x2 x3 x4 x5 x6 x7 x8 x9 x10 x11 x12 => Kern.out13_eq x0 x1 x2 x3 x4 x5 x6 x7 x8 x9 x10 x11 x12,
   fun x0 x1 x2 x3 x4 x5 x6 x7 x8 x9 x10 x11 x12 => Kern.out14_eq x0 x1 x2 x3 x4 x5 x6 x7 x8 x9 x10 x11 x12,
   fun x0 x1 x2 x3 x4 x5 x6 x7 x8 x9 x10 x11 x12 => Kern.out15_eq x0 x1 x2 x3 x4 x5 x6 x7 x8 x9 x10 x11 x12⟩

theorem frame_kernel : Cert.frame_Kernel := fun m ρ _ => Cert.Kernel.Gen.frame m ρ

theorem frame_kernelIdeal : Cert.frame_KernelIdeal := fun m ρ _ => Cert.KernelIdeal.Gen.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From arguments that agree and are finite, the kernel's three result arrays and the reference's are the
    specification's three arrays of those arguments. -/
theorem algebraic : Cert.algebraic_KernelIdeal_ReferenceIdeal := by
  intro m ρ m' ρ' hpre hagree
  refine ⟨_, _, _, KArr.run m ρ blockEqs, ?_⟩
  refine (θ_run Cert.ReferenceIdeal.defs _ _).mono (fun r h c => ?_) (Cert.ReferenceIdeal.Value.run (F := Ideal) m' ρ')
  obtain ⟨h300, h306, h312, hargs⟩ := h c
  obtain ⟨e0, e1, e2, e3, e4, e5, e6, e7, e8, e9, e10, e11, e12⟩ := hagree c
  have hfin : ∀ P : Fin 32768, Finite0 (Ref.wOf (StableHlo.launchContents m' c))
      (rowOf (R := 32768) (StableHlo.launchContents m' c (Proc.devRef .tc Cert.ReferenceIdeal.main_arg0))
        (StableHlo.launchContents m' c (Proc.devRef .tc Cert.ReferenceIdeal.main_arg1))
        (StableHlo.launchContents m' c (Proc.devRef .tc Cert.ReferenceIdeal.main_arg2)) P) := by
    intro P
    show Finite0 (weightsOf (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)))
      (rowOf (R := 32768) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) P)
    rw [e0, e1, e2, e3, e4, e5, e6, e7, e8, e9, e10, e11, e12]
    exact Fin.finite0_of_fn _ _ _ _ _ _ _ _ _ _ _ _ _ (hpre c) P
  refine ⟨h300.trans ?_, h306.trans ?_, h312.trans ?_, hargs⟩
  · rw [← Cert.ReferenceIdeal.Value.val6_main_v300, Ref.v300_eq _ hfin]
    show outLast (weightsOf (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2, e3, e4, e5, e6, e7, e8, e9, e10, e11, e12]
  · rw [← Cert.ReferenceIdeal.Value.val6_main_v306, Ref.v306_eq]
    show outSH (weightsOf (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2, e3, e4, e5, e6, e7, e8, e9, e10, e11, e12]
  · rw [← Cert.ReferenceIdeal.Value.val6_main_v312, Ref.v312_eq _ hfin]
    show outSN (weightsOf (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
